-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v152)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v152) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v210) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2000x3 : Shape := ⟨3, ![8, 2000, 3]⟩
abbrev S8x1999x2 : Shape := ⟨3, ![8, 1999, 2]⟩
abbrev S2000x3 : Shape := ⟨2, ![2000, 3]⟩
abbrev S1999x2 : Shape := ⟨2, ![1999, 2]⟩
abbrev S_ : Shape := ⟨0, ![]⟩

class Facts : Prop where
  bcast_S_S8x2000x3 : S_.BroadcastsInDim S8x2000x3 (![] : Fin 0 → Fin S8x2000x3.rank)
  reducesTo_S8x2000x3_S_d0_1_2 : S8x2000x3.ReducesTo [0, 1, 2] S_
  h_S_ : 0 < S_.numel
  bcast_S_S2000x3 : S_.BroadcastsInDim S2000x3 (![] : Fin 0 → Fin S2000x3.rank)
  reducesTo_S2000x3_S_d0_1 : S2000x3.ReducesTo [0, 1] S_

variable [Facts]

def fn {F : FTy → Type} [FloatOps F] (main_arg0 : FVec F S8x2000x3 .f32) (main_arg1 : FVec F S8x2000x3 .f32) (main_arg2 : IVec S8x1999x2 32) (main_arg3 : FVec F S2000x3 .f32) (main_arg4 : IVec S1999x2 32) : IVec S_ 1 :=
  let main_v0 : FVec F S8x2000x3 .f32 := Host.absf main_arg0
  let main_cst : FVec F S_ .f32 := constant S_ .f32 0x7F800000#32
  let main_v1 : FVec F S8x2000x3 .f32 := broadcastInDim S8x2000x3 ![] bcast_S_S8x2000x3 main_cst
  let main_v2 : IVec S8x2000x3 1 := cmpf .olt main_v0 main_v1
  let main_c : IVec S_ 1 := constantI S_ 1 1#1
  let main_v3 : IVec S_ 1 := (fun x v => Host.reduce IntOp.andi x v reducesTo_S8x2000x3_S_d0_1_2 h_S_) main_v2 main_c
  let main_v4 : FVec F S8x2000x3 .f32 := Host.absf main_arg1
  let main_cst_0 : FVec F S_ .f32 := constant S_ .f32 0x7F800000#32
  let main_v5 : FVec F S8x2000x3 .f32 := broadcastInDim S8x2000x3 ![] bcast_S_S8x2000x3 main_cst_0
  let main_v6 : IVec S8x2000x3 1 := cmpf .olt main_v4 main_v5
  let main_c_1 : IVec S_ 1 := constantI S_ 1 1#1
  let main_v7 : IVec S_ 1 := (fun x v => Host.reduce IntOp.andi x v reducesTo_S8x2000x3_S_d0_1_2 h_S_) main_v6 main_c_1
  let main_v8 : IVec S_ 1 := andi main_v3 main_v7
  let main_v9 : FVec F S2000x3 .f32 := Host.absf main_arg3
  let main_cst_2 : FVec F S_ .f32 := constant S_ .f32 0x7F800000#32
  let main_v10 : FVec F S2000x3 .f32 := broadcastInDim S2000x3 ![] bcast_S_S2000x3 main_cst_2
  let main_v11 : IVec S2000x3 1 := cmpf .olt main_v9 main_v10
  let main_c_3 : IVec S_ 1 := constantI S_ 1 1#1
  let main_v12 : IVec S_ 1 := (fun x v => Host.reduce IntOp.andi x v reducesTo_S2000x3_S_d0_1 h_S_) main_v11 main_c_3
  let main_v13 : IVec S_ 1 := andi main_v8 main_v12
  main_v13
-- ==== Kernel.lean ====
abbrev S8x2000x3 : Shape := ⟨3, ![8, 2000, 3]⟩
abbrev S8x1999x2 : Shape := ⟨3, ![8, 1999, 2]⟩
abbrev S2000x3 : Shape := ⟨2, ![2000, 3]⟩
abbrev S1999x2 : Shape := ⟨2, ![1999, 2]⟩
abbrev S1x2000x3 : Shape := ⟨3, ![1, 2000, 3]⟩
abbrev S1999x1 : Shape := ⟨2, ![1999, 1]⟩
abbrev S1999 : Shape := ⟨1, ![1999]⟩
abbrev S_ : Shape := ⟨0, ![]⟩
abbrev S8x1999x3 : Shape := ⟨3, ![8, 1999, 3]⟩
abbrev S8x1999 : Shape := ⟨2, ![8, 1999]⟩
abbrev S8x1999x1 : Shape := ⟨3, ![8, 1999, 1]⟩
abbrev S8x3998x3 : Shape := ⟨3, ![8, 3998, 3]⟩
abbrev S8x3998 : Shape := ⟨2, ![8, 3998]⟩
abbrev S8x4096x3 : Shape := ⟨3, ![8, 4096, 3]⟩
abbrev S8x4096 : Shape := ⟨2, ![8, 4096]⟩
abbrev S8x1x4096x3 : Shape := ⟨4, ![8, 1, 4096, 3]⟩
abbrev S8x1x4096 : Shape := ⟨3, ![8, 1, 4096]⟩
abbrev S8x1x1 : Shape := ⟨3, ![8, 1, 1]⟩
abbrev S1x1x1024x3 : Shape := ⟨4, ![1, 1, 1024, 3]⟩
abbrev S1x1x1024 : Shape := ⟨3, ![1, 1, 1024]⟩
abbrev S1x1x1 : Shape := ⟨3, ![1, 1, 1]⟩
abbrev S1024x3 : Shape := ⟨2, ![1024, 3]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S1x1024x1024 : Shape := ⟨3, ![1, 1024, 1024]⟩
abbrev S1 : Shape := ⟨1, ![1]⟩
abbrev S8 : Shape := ⟨1, ![8]⟩
abbrev S1999x3 : Shape := ⟨2, ![1999, 3]⟩
abbrev S1x1999x3 : Shape := ⟨3, ![1, 1999, 3]⟩

abbrev nBuf : Space → Nat
  | .hbm => 196
  | .vmem => 15
  | .smem => 0
  | _ => 0

abbrev hbmTy0_0 (i : Nat) : BufTy := match i % 128 with
  | 0 => ⟨S8x2000x3, .f32⟩
  | 1 => ⟨S8x2000x3, .f32⟩
  | 2 => ⟨S8x1999x2, .i32⟩
  | 3 => ⟨S2000x3, .f32⟩
  | 4 => ⟨S1999x2, .i32⟩
  | 5 => ⟨S1x2000x3, .f32⟩
  | 6 => ⟨S8x2000x3, .f32⟩
  | 7 => ⟨S8x2000x3, .f32⟩
  | 8 => ⟨S1999x1, .i32⟩
  | 9 => ⟨S1999, .i32⟩
  | 10 => ⟨S_, .i32⟩
  | 11 => ⟨S1999, .i32⟩
  | 12 => ⟨S1999, .i1⟩
  | 13 => ⟨S_, .i32⟩
  | 14 => ⟨S1999, .i32⟩
  | 15 => ⟨S1999, .i32⟩
  | 16 => ⟨S1999, .i32⟩
  | 17 => ⟨S1999x1, .i32⟩
  | 18 => ⟨S8x1999x3, .f32⟩
  | 19 => ⟨S1999x1, .i32⟩
  | 20 => ⟨S1999, .i32⟩
  | 21 => ⟨S_, .i32⟩
  | 22 => ⟨S1999, .i32⟩
  | 23 => ⟨S1999, .i1⟩
  | 24 => ⟨S_, .i32⟩
  | 25 => ⟨S1999, .i32⟩
  | 26 => ⟨S1999, .i32⟩
  | 27 => ⟨S1999, .i32⟩
  | 28 => ⟨S1999x1, .i32⟩
  | 29 => ⟨S8x1999x3, .f32⟩
  | 30 => ⟨S8x1999x3, .f32⟩
  | 31 => ⟨S_, .f32⟩
  | 32 => ⟨S8x1999x3, .f32⟩
  | 33 => ⟨S8x1999x3, .f32⟩
  | 34 => ⟨S8x1999x3, .f32⟩
  | 35 => ⟨S8x1999x3, .f32⟩
  | 36 => ⟨S_, .f32⟩
  | 37 => ⟨S8x1999, .f32⟩
  | 38 => ⟨S_, .f32⟩
  | 39 => ⟨S8x1999, .f32⟩
  | 40 => ⟨S8x1999, .f32⟩
  | 41 => ⟨S8x1999, .f32⟩
  | 42 => ⟨S8x1999x1, .f32⟩
  | 43 => ⟨S8x1999x3, .f32⟩
  | 44 => ⟨S8x1999x3, .f32⟩
  | 45 => ⟨S8x1999x1, .i32⟩
  | 46 => ⟨S8x1999, .i32⟩
  | 47 => ⟨S_, .i32⟩
  | 48 => ⟨S8x1999, .i32⟩
  | 49 => ⟨S8x1999, .i1⟩
  | 50 => ⟨S_, .i32⟩
  | 51 => ⟨S8x1999, .i32⟩
  | 52 => ⟨S8x1999, .i32⟩
  | 53 => ⟨S8x1999, .i32⟩
  | 54 => ⟨S8x1999x1, .i32⟩
  | 55 => ⟨S8x1999x3, .f32⟩
  | 56 => ⟨S8x1999x1, .i32⟩
  | 57 => ⟨S8x1999, .i32⟩
  | 58 => ⟨S_, .i32⟩
  | 59 => ⟨S8x1999, .i32⟩
  | 60 => ⟨S8x1999, .i1⟩
  | 61 => ⟨S_, .i32⟩
  | 62 => ⟨S8x1999, .i32⟩
  | 63 => ⟨S8x1999, .i32⟩
  | 64 => ⟨S8x1999, .i32⟩
  | 65 => ⟨S8x1999x1, .i32⟩
  | 66 => ⟨S8x1999x3, .f32⟩
  | 67 => ⟨S8x1999x3, .f32⟩
  | 68 => ⟨S_, .f32⟩
  | 69 => ⟨S8x1999x3, .f32⟩
  | 70 => ⟨S8x1999x3, .f32⟩
  | 71 => ⟨S8x1999x3, .f32⟩
  | 72 => ⟨S8x1999x3, .f32⟩
  | 73 => ⟨S_, .f32⟩
  | 74 => ⟨S8x1999, .f32⟩
  | 75 => ⟨S_, .f32⟩
  | 76 => ⟨S8x1999, .f32⟩
  | 77 => ⟨S8x1999, .f32⟩
  | 78 => ⟨S8x1999, .f32⟩
  | 79 => ⟨S8x1999x1, .f32⟩
  | 80 => ⟨S8x1999x3, .f32⟩
  | 81 => ⟨S8x1999x3, .f32⟩
  | 82 => ⟨S8x3998x3, .f32⟩
  | 83 => ⟨S8x3998x3, .f32⟩
  | 84 => ⟨S8x1999, .f32⟩
  | 85 => ⟨S8x3998, .f32⟩
  | 86 => ⟨S_, .i32⟩
  | 87 => ⟨S_, .f32⟩
  | 88 => ⟨S8x4096x3, .f32⟩
  | 89 => ⟨S_, .i32⟩
  | 90 => ⟨S_, .f32⟩
  | 91 => ⟨S8x4096x3, .f32⟩
  | 92 => ⟨S_, .i32⟩
  | 93 => ⟨S_, .f32⟩
  | 94 => ⟨S8x4096, .f32⟩
  | 95 => ⟨S8x1x4096x3, .f32⟩
  | 96 => ⟨S8x1x4096x3, .f32⟩
  | 97 => ⟨S8x1x4096, .f32⟩
  | 98 => ⟨S8x1x1, .f32⟩
  | 99 => ⟨S8, .f32⟩
  | 100 => ⟨S1999x1, .i32⟩
  | 101 => ⟨S1999, .i32⟩
  | 102 => ⟨S_, .i32⟩
  | 103 => ⟨S1999, .i32⟩
  | 104 => ⟨S1999, .i1⟩
  | 105 => ⟨S_, .i32⟩
  | 106 => ⟨S1999, .i32⟩
  | 107 => ⟨S1999, .i32⟩
  | 108 => ⟨S1999, .i32⟩
  | 109 => ⟨S1999x1, .i32⟩
  | 110 => ⟨S8x1999x3, .f32⟩
  | 111 => ⟨S1999x1, .i32⟩
  | 112 => ⟨S1999, .i32⟩
  | 113 => ⟨S_, .i32⟩
  | 114 => ⟨S1999, .i32⟩
  | 115 => ⟨S1999, .i1⟩
  | 116 => ⟨S_, .i32⟩
  | 117 => ⟨S1999, .i32⟩
  | 118 => ⟨S1999, .i32⟩
  | 119 => ⟨S1999, .i32⟩
  | 120 => ⟨S1999x1, .i32⟩
  | 121 => ⟨S8x1999x3, .f32⟩
  | 122 => ⟨S8x1999x3, .f32⟩
  | 123 => ⟨S_, .f32⟩
  | 124 => ⟨S8x1999x3, .f32⟩
  | 125 => ⟨S8x1999x3, .f32⟩
  | 126 => ⟨S8x1999x3, .f32⟩
  | 127 => ⟨S8x1999x3, .f32⟩
  | _ => ⟨S8x2000x3, .f32⟩

abbrev hbmTy0_1 (i : Nat) : BufTy := match i % 128 with
  | 0 => ⟨S_, .f32⟩
  | 1 => ⟨S8x1999, .f32⟩
  | 2 => ⟨S_, .f32⟩
  | 3 => ⟨S8x1999, .f32⟩
  | 4 => ⟨S8x1999, .f32⟩
  | 5 => ⟨S8x1999, .f32⟩
  | 6 => ⟨S8x1999x1, .f32⟩
  | 7 => ⟨S8x1999x3, .f32⟩
  | 8 => ⟨S8x1999x3, .f32⟩
  | 9 => ⟨S8x1999, .f32⟩
  | 10 => ⟨S8x1999x1, .f32⟩
  | 11 => ⟨S8x1999x3, .f32⟩
  | 12 => ⟨S8x1999x3, .f32⟩
  | 13 => ⟨S1999x1, .i32⟩
  | 14 => ⟨S1999, .i32⟩
  | 15 => ⟨S_, .i32⟩
  | 16 => ⟨S1999, .i32⟩
  | 17 => ⟨S1999, .i1⟩
  | 18 => ⟨S_, .i32⟩
  | 19 => ⟨S1999, .i32⟩
  | 20 => ⟨S1999, .i32⟩
  | 21 => ⟨S1999, .i32⟩
  | 22 => ⟨S1999x1, .i32⟩
  | 23 => ⟨S1999x3, .f32⟩
  | 24 => ⟨S1999x1, .i32⟩
  | 25 => ⟨S1999, .i32⟩
  | 26 => ⟨S_, .i32⟩
  | 27 => ⟨S1999, .i32⟩
  | 28 => ⟨S1999, .i1⟩
  | 29 => ⟨S_, .i32⟩
  | 30 => ⟨S1999, .i32⟩
  | 31 => ⟨S1999, .i32⟩
  | 32 => ⟨S1999, .i32⟩
  | 33 => ⟨S1999x1, .i32⟩
  | 34 => ⟨S1999x3, .f32⟩
  | 35 => ⟨S1999x3, .f32⟩
  | 36 => ⟨S_, .f32⟩
  | 37 => ⟨S1999x3, .f32⟩
  | 38 => ⟨S1999x3, .f32⟩
  | 39 => ⟨S1999x3, .f32⟩
  | 40 => ⟨S1999x3, .f32⟩
  | 41 => ⟨S_, .f32⟩
  | 42 => ⟨S1999, .f32⟩
  | 43 => ⟨S_, .f32⟩
  | 44 => ⟨S1999, .f32⟩
  | 45 => ⟨S1999, .f32⟩
  | 46 => ⟨S1999, .f32⟩
  | 47 => ⟨S1999x1, .f32⟩
  | 48 => ⟨S1999x3, .f32⟩
  | 49 => ⟨S1999x3, .f32⟩
  | 50 => ⟨S1999, .f32⟩
  | 51 => ⟨S1999x1, .f32⟩
  | 52 => ⟨S1999x3, .f32⟩
  | 53 => ⟨S1999x3, .f32⟩
  | 54 => ⟨S1x1999x3, .f32⟩
  | 55 => ⟨S8x1999x3, .f32⟩
  | 56 => ⟨S8x1999x3, .f32⟩
  | 57 => ⟨S8x1999x3, .f32⟩
  | 58 => ⟨S_, .f32⟩
  | 59 => ⟨S8, .f32⟩
  | 60 => ⟨S_, .f32⟩
  | 61 => ⟨S8, .f32⟩
  | 62 => ⟨S8, .f32⟩
  | 63 => ⟨S8, .f32⟩
  | 64 => ⟨S_, .f32⟩
  | 65 => ⟨S_, .f32⟩
  | 66 => ⟨S_, .f32⟩
  | 67 => ⟨S_, .f32⟩
  | _ => ⟨S8x2000x3, .f32⟩

abbrev hbmTy (i : Nat) : BufTy := match i / 128 with
  | 0 => hbmTy0_0 i
  | 1 => hbmTy0_1 i
  | _ => ⟨S8x2000x3, .f32⟩

abbrev bufTy : (tb : Table) → Fin (tcTables nBuf tb) → BufTy
  | .hbm, ⟨i, _⟩ => hbmTy i
  | .local _ .vmem, ⟨0, _⟩ => ⟨S1x1x1024x3, .f32⟩
  | .local _ .vmem, ⟨1, _⟩ => ⟨S1x1x1024x3, .f32⟩
  | .local _ .vmem, ⟨2, _⟩ => ⟨S1x1x1024x3, .f32⟩
  | .local _ .vmem, ⟨3, _⟩ => ⟨S1x1x1024x3, .f32⟩
  | .local _ .vmem, ⟨4, _⟩ => ⟨S1x1x1024x3, .f32⟩
  | .local _ .vmem, ⟨5, _⟩ => ⟨S1x1x1024x3, .f32⟩
  | .local _ .vmem, ⟨6, _⟩ => ⟨S1x1x1024x3, .f32⟩
  | .local _ .vmem, ⟨7, _⟩ => ⟨S1x1x1024x3, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1, .f32⟩
  | .local _ .vmem, ⟨13, _⟩ => ⟨S1x1x1, .f32⟩
  | .local _ .vmem, ⟨14, _⟩ => ⟨S1x1x1, .f32⟩
  | _, _ => ⟨S8x2000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_5 : Ref sig .tc := ⟨.hbm, 47, rfl⟩
abbrev main_v35 : Ref sig .tc := ⟨.hbm, 48, rfl⟩
abbrev main_v36 : Ref sig .tc := ⟨.hbm, 49, rfl⟩
abbrev main_c_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_7 : Ref sig .tc := ⟨.hbm, 58, rfl⟩
abbrev main_v44 : Ref sig .tc := ⟨.hbm, 59, rfl⟩
abbrev main_v45 : Ref sig .tc := ⟨.hbm, 60, rfl⟩
abbrev main_c_8 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_9 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_10 : Ref sig .tc := ⟨.hbm, 73, rfl⟩
abbrev main_v56 : Ref sig .tc := ⟨.hbm, 74, rfl⟩
abbrev main_cst_11 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_c_12 : Ref sig .tc := ⟨.hbm, 86, rfl⟩
abbrev main_call0_v0 : Ref sig .tc := ⟨.hbm, 87, rfl⟩
abbrev main_v67 : Ref sig .tc := ⟨.hbm, 88, rfl⟩
abbrev main_c_13 : Ref sig .tc := ⟨.hbm, 89, rfl⟩
abbrev main_call1_v0 : Ref sig .tc := ⟨.hbm, 90, rfl⟩
abbrev main_v68 : Ref sig .tc := ⟨.hbm, 91, rfl⟩
abbrev main_c_14 : Ref sig .tc := ⟨.hbm, 92, rfl⟩
abbrev main_call2_v0 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_c_15 : Ref sig .tc := ⟨.hbm, 102, rfl⟩
abbrev main_v77 : Ref sig .tc := ⟨.hbm, 103, rfl⟩
abbrev main_v78 : Ref sig .tc := ⟨.hbm, 104, rfl⟩
abbrev main_c_16 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_c_17 : Ref sig .tc := ⟨.hbm, 113, rfl⟩
abbrev main_v86 : Ref sig .tc := ⟨.hbm, 114, rfl⟩
abbrev main_v87 : Ref sig .tc := ⟨.hbm, 115, rfl⟩
abbrev main_c_18 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_19 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_cst_20 : Ref sig .tc := ⟨.hbm, 128, rfl⟩
abbrev main_v98 : Ref sig .tc := ⟨.hbm, 129, rfl⟩
abbrev main_cst_21 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_c_22 : Ref sig .tc := ⟨.hbm, 143, rfl⟩
abbrev main_v111 : Ref sig .tc := ⟨.hbm, 144, rfl⟩
abbrev main_v112 : Ref sig .tc := ⟨.hbm, 145, rfl⟩
abbrev main_c_23 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_c_24 : Ref sig .tc := ⟨.hbm, 154, rfl⟩
abbrev main_v120 : Ref sig .tc := ⟨.hbm, 155, rfl⟩
abbrev main_v121 : Ref sig .tc := ⟨.hbm, 156, rfl⟩
abbrev main_c_25 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_cst_26 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_cst_27 : Ref sig .tc := ⟨.hbm, 169, rfl⟩
abbrev main_v132 : Ref sig .tc := ⟨.hbm, 170, rfl⟩
abbrev main_cst_28 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_cst_29 : Ref sig .tc := ⟨.hbm, 186, rfl⟩
abbrev main_v147 : Ref sig .tc := ⟨.hbm, 187, rfl⟩
abbrev main_cst_30 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_cst_31 : Ref sig .tc := ⟨.hbm, 192, rfl⟩
abbrev main_v151 : Ref sig .tc := ⟨.hbm, 193, rfl⟩
abbrev main_cst_32 : Ref sig .tc := ⟨.hbm, 194, rfl⟩
abbrev main_v152 : Ref sig .tc := ⟨.hbm, 195, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg1 : BitVec 32 := BitVec.ofNat 32 (i 1).val
  let c3_i32 : BitVec 32 := 3#32
  let v99 : BitVec 1 := Scalar.cmpi .eq arg1 c3_i32
  let arg2 : BitVec 32 := BitVec.ofNat 32 (i 2).val
  let c3_i32_30 : BitVec 32 := 3#32
  let v100 : BitVec 1 := Scalar.cmpi .eq arg2 c3_i32_30
  let v101 : BitVec 1 := Scalar.andi v99 v100
  let v102 : BitVec 32 := Scalar.extui v101
  let c0_i32_31 : BitVec 32 := 0#32
  let v103 : BitVec 1 := Scalar.cmpi .ne v102 c0_i32_31
  v103

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg2.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg2.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

class Facts₀ : Prop where
  bcast_S2000x3_S1x2000x3_1_2 : S2000x3.BroadcastsInDim S1x2000x3 (![1, 2] : Fin 2 → Fin S1x2000x3.rank)
  bcast_S1x2000x3_S8x2000x3_0_1_2 : S1x2000x3.BroadcastsInDim S8x2000x3 (![0, 1, 2] : Fin 3 → Fin S8x2000x3.rank)
  slices_S1999x2_S1999x1_0_0 : S1999x2.Slices ![0, 0] S1999x1
  shapeCasts_S1999x1_S1999 : S1999x1.ShapeCasts S1999
  bcast_S_S1999 : S_.BroadcastsInDim S1999 (![] : Fin 0 → Fin S1999.rank)
  bcast_S1999_S1999x1_0 : S1999.BroadcastsInDim S1999x1 (![0] : Fin 1 → Fin S1999x1.rank)
  slices_S1999x2_S1999x1_0_1 : S1999x2.Slices ![0, 1] S1999x1
  bcast_S_S8x1999x3 : S_.BroadcastsInDim S8x1999x3 (![] : Fin 0 → Fin S8x1999x3.rank)
  reducesTo_S8x1999x3_S8x1999_d2 : S8x1999x3.ReducesTo [2] S8x1999
  h_S_ : 0 < S_.numel
  bcast_S_S8x1999 : S_.BroadcastsInDim S8x1999 (![] : Fin 0 → Fin S8x1999.rank)
  bcast_S8x1999_S8x1999x1_0_1 : S8x1999.BroadcastsInDim S8x1999x1 (![0, 1] : Fin 2 → Fin S8x1999x1.rank)
  bcast_S8x1999x1_S8x1999x3_0_1_2 : S8x1999x1.BroadcastsInDim S8x1999x3 (![0, 1, 2] : Fin 3 → Fin S8x1999x3.rank)
  slices_S8x1999x2_S8x1999x1_0_0_0 : S8x1999x2.Slices ![0, 0, 0] S8x1999x1
  shapeCasts_S8x1999x1_S8x1999 : S8x1999x1.ShapeCasts S8x1999
  slices_S8x1999x2_S8x1999x1_0_0_1 : S8x1999x2.Slices ![0, 0, 1] S8x1999x1
  concatenates_S8x1999x3_S8x1999x3_S8x3998x3_d1 : Shape.Concatenates [S8x1999x3, S8x1999x3] S8x3998x3 1
  concatenates_S8x1999_S8x1999_S8x3998_d1 : Shape.Concatenates [S8x1999, S8x1999] S8x3998 1
  pads_S8x3998x3_S8x4096x3_000_0980_000 : S8x3998x3.Pads (![0, 0, 0] : Fin 3 → Nat) ![0, 98, 0] ![0, 0, 0] S8x4096x3
  pads_S8x3998_S8x4096_000_0980 : S8x3998.Pads (![0, 0] : Fin 2 → Nat) ![0, 98] ![0, 0] S8x4096
  bcast_S8x4096x3_S8x1x4096x3_0_2_3 : S8x4096x3.BroadcastsInDim S8x1x4096x3 (![0, 2, 3] : Fin 3 → Fin S8x1x4096x3.rank)
  bcast_S8x4096_S8x1x4096_0_2 : S8x4096.BroadcastsInDim S8x1x4096 (![0, 2] : Fin 2 → Fin S8x1x4096.rank)
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  inb_S1x1x1024x3_S1x1x1024x3_0_0_0_0 : ∀ a, (![0, 0, 0, 0] : Fin 4 → Nat) a + S1x1x1024x3.size a ≤ S1x1x1024x3.size a
  h_S1x1x1024x3 : 0 < S1x1x1024x3.numel
  shapeCasts_S1x1x1024x3_S1024x3 : S1x1x1024x3.ShapeCasts S1024x3
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  slices_S1024x3_o0_0_S1024x1 : S1024x3.Slices ![0, 0] S1024x1
  shapeCasts_S1024x1_S1024 : S1024x1.ShapeCasts S1024
  shapeCasts_S1024_S1024x1 : S1024.ShapeCasts S1024x1
  shapeCasts_S1024_S1x1024 : S1024.ShapeCasts S1x1024
  broadcasts_S1024x1_S1024x1024 : S1024x1.Broadcasts S1024x1024
  broadcasts_S1x1024_S1024x1024 : S1x1024.Broadcasts S1024x1024
  slices_S1024x3_o0_1_S1024x1 : S1024x3.Slices ![0, 1] S1024x1
  slices_S1024x3_o0_2_S1024x1 : S1024x3.Slices ![0, 2] S1024x1
  shapeCasts_S1024x1024_S1x1024x1024 : S1024x1024.ShapeCasts S1x1024x1024
  reduces_S1x1024x1024_S1 : S1x1024x1024.Reduces [1, 2] S1
  shapeCasts_S1_S1x1x1 : S1.ShapeCasts S1x1x1
  inpos_S1x1x1_p0_0_0 : ∀ a, (![0, 0, 0] : Fin 3 → Nat) a < S1x1x1.size a
  shapeCasts_S8x1x1_S8 : S8x1x1.ShapeCasts S8
  bcast_S_S1999x3 : S_.BroadcastsInDim S1999x3 (![] : Fin 0 → Fin S1999x3.rank)
  reducesTo_S1999x3_S1999_d1 : S1999x3.ReducesTo [1] S1999
  bcast_S1999x1_S1999x3_0_1 : S1999x1.BroadcastsInDim S1999x3 (![0, 1] : Fin 2 → Fin S1999x3.rank)
  bcast_S1999x3_S1x1999x3_1_2 : S1999x3.BroadcastsInDim S1x1999x3 (![1, 2] : Fin 2 → Fin S1x1999x3.rank)
  bcast_S1x1999x3_S8x1999x3_0_1_2 : S1x1999x3.BroadcastsInDim S8x1999x3 (![0, 1, 2] : Fin 3 → Fin S8x1999x3.rank)
  reducesTo_S8x1999x3_S8_d1_2 : S8x1999x3.ReducesTo [1, 2] S8
  bcast_S_S8 : S_.BroadcastsInDim S8 (![] : Fin 0 → Fin S8.rank)
  reducesTo_S8_S_d0 : S8.ReducesTo [0] S_
  gather_S8x2000x3_S1999x1_S8x1999x3_02_1_n_n_1_1_813_wf : GatherDims.WF S8x2000x3 S1999x1 S8x1999x3 [0, 2] [1] [] [1] [] 1 ![8, 1, 3]
  gather_S8x2000x3_S8x1999x1_S8x1999x3_2_1_0_0_1_2_113_wf : GatherDims.WF S8x2000x3 S8x1999x1 S8x1999x3 [2] [1] [0] [1] [0] 2 ![1, 1, 3]
  gather_S2000x3_S1999x1_S1999x3_1_0_n_n_0_1_13_wf : GatherDims.WF S2000x3 S1999x1 S1999x3 [1] [0] [] [0] [] 1 ![1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x3.size a ≤ S8x1x4096x3.size a
  hwx0_0 : ∀ i : grid0.Coords, EltTy.bits .f32 = 32 ∨ (Rect.block (s := S8x1x4096x3) S1x1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x3.size a ≤ S8x1x4096x3.size a
  hwx0_1 : ∀ i : grid0.Coords, EltTy.bits .f32 = 32 ∨ (Rect.block (s := S8x1x4096x3) S1x1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024x3.size a ≤ S8x1x4096x3.size a
  hwx0_2 : ∀ i : grid0.Coords, EltTy.bits .f32 = 32 ∨ (Rect.block (s := S8x1x4096x3) S1x1x1024x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024x3.size a ≤ S8x1x4096x3.size a
  hwx0_3 : ∀ i : grid0.Coords, EltTy.bits .f32 = 32 ∨ (Rect.block (s := S8x1x4096x3) S1x1x1024x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024.size a ≤ S8x1x4096.size a
  hwx0_4 : ∀ i : grid0.Coords, EltTy.bits .f32 = 32 ∨ (Rect.block (s := S8x1x4096) S1x1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024.size a ≤ S8x1x4096.size a
  hwx0_5 : ∀ i : grid0.Coords, EltTy.bits .f32 = 32 ∨ (Rect.block (s := S8x1x4096) S1x1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1.size a ≤ S8x1x1.size a
  hwx0_6 : ∀ i : grid0.Coords, EltTy.bits .f32 = 32 ∨ (Rect.block (s := S8x1x1) S1x1x1.size (cc0_transform_6 i) (hinb0_6 i)).WholeWords (EltTy.packing .f32)

variable [Facts₀]

def gather_S8x2000x3_S1999x1_S8x1999x3_02_1_n_n_1_1_813 : GatherDims S8x2000x3 S1999x1 S8x1999x3 where
  offsetDims := [0, 2]
  collapsedSliceDims := [1]
  operandBatchingDims := []
  startIndicesBatchingDims := []
  startIndexMap := [1]
  indexVectorDim := 1
  sliceSizes := ![8, 1, 3]
  wf := gather_S8x2000x3_S1999x1_S8x1999x3_02_1_n_n_1_1_813_wf
def gather_S8x2000x3_S8x1999x1_S8x1999x3_2_1_0_0_1_2_113 : GatherDims S8x2000x3 S8x1999x1 S8x1999x3 where
  offsetDims := [2]
  collapsedSliceDims := [1]
  operandBatchingDims := [0]
  startIndicesBatchingDims := [0]
  startIndexMap := [1]
  indexVectorDim := 2
  sliceSizes := ![1, 1, 3]
  wf := gather_S8x2000x3_S8x1999x1_S8x1999x3_2_1_0_0_1_2_113_wf
def gather_S2000x3_S1999x1_S1999x3_1_0_n_n_0_1_13 : GatherDims S2000x3 S1999x1 S1999x3 where
  offsetDims := [1]
  collapsedSliceDims := [0]
  operandBatchingDims := []
  startIndicesBatchingDims := []
  startIndexMap := [0]
  indexVectorDim := 1
  sliceSizes := ![1, 3]
  wf := gather_S2000x3_S1999x1_S1999x3_1_0_n_n_0_1_13_wf

abbrev win0_0 : Pipeline.Window sig grid0 :=
  Pipeline.Window.ofSpec (Memref.whole main_v70) S1x1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v70) S1x1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v71) S1x1x1024x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v71) S1x1x1024x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v72) S1x1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v72) S1x1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v73) S1x1x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8x2000x3 : Shape := ⟨3, ![8, 2000, 3]⟩
abbrev S8x1999x2 : Shape := ⟨3, ![8, 1999, 2]⟩
abbrev S2000x3 : Shape := ⟨2, ![2000, 3]⟩
abbrev S1999x2 : Shape := ⟨2, ![1999, 2]⟩
abbrev S1x2000x3 : Shape := ⟨3, ![1, 2000, 3]⟩
abbrev S1999x1 : Shape := ⟨2, ![1999, 1]⟩
abbrev S1999 : Shape := ⟨1, ![1999]⟩
abbrev S_ : Shape := ⟨0, ![]⟩
abbrev S8x1999x3 : Shape := ⟨3, ![8, 1999, 3]⟩
abbrev S8x1999 : Shape := ⟨2, ![8, 1999]⟩
abbrev S8x1999x1 : Shape := ⟨3, ![8, 1999, 1]⟩
abbrev S8x1999x1x3 : Shape := ⟨4, ![8, 1999, 1, 3]⟩
abbrev S8x1x1999x3 : Shape := ⟨4, ![8, 1, 1999, 3]⟩
abbrev S8x1999x1999x3 : Shape := ⟨4, ![8, 1999, 1999, 3]⟩
abbrev S8x1999x1999 : Shape := ⟨3, ![8, 1999, 1999]⟩
abbrev S8x3x1999 : Shape := ⟨3, ![8, 3, 1999]⟩
abbrev S8x1x1999 : Shape := ⟨3, ![8, 1, 1999]⟩
abbrev S8 : Shape := ⟨1, ![8]⟩
abbrev S1999x3 : Shape := ⟨2, ![1999, 3]⟩
abbrev S1x1999x3 : Shape := ⟨3, ![1, 1999, 3]⟩

abbrev nBuf : Space → Nat
  | .hbm => 258
  | .vmem => 0
  | .smem => 0
  | _ => 0

abbrev hbmTy0_0 (i : Nat) : BufTy := match i % 128 with
  | 0 => ⟨S8x2000x3, .f32⟩
  | 1 => ⟨S8x2000x3, .f32⟩
  | 2 => ⟨S8x1999x2, .i32⟩
  | 3 => ⟨S2000x3, .f32⟩
  | 4 => ⟨S1999x2, .i32⟩
  | 5 => ⟨S1x2000x3, .f32⟩
  | 6 => ⟨S8x2000x3, .f32⟩
  | 7 => ⟨S8x2000x3, .f32⟩
  | 8 => ⟨S1999x1, .i32⟩
  | 9 => ⟨S1999, .i32⟩
  | 10 => ⟨S_, .i32⟩
  | 11 => ⟨S1999, .i32⟩
  | 12 => ⟨S1999, .i1⟩
  | 13 => ⟨S_, .i32⟩
  | 14 => ⟨S1999, .i32⟩
  | 15 => ⟨S1999, .i32⟩
  | 16 => ⟨S1999, .i32⟩
  | 17 => ⟨S1999x1, .i32⟩
  | 18 => ⟨S8x1999x3, .f32⟩
  | 19 => ⟨S1999x1, .i32⟩
  | 20 => ⟨S1999, .i32⟩
  | 21 => ⟨S_, .i32⟩
  | 22 => ⟨S1999, .i32⟩
  | 23 => ⟨S1999, .i1⟩
  | 24 => ⟨S_, .i32⟩
  | 25 => ⟨S1999, .i32⟩
  | 26 => ⟨S1999, .i32⟩
  | 27 => ⟨S1999, .i32⟩
  | 28 => ⟨S1999x1, .i32⟩
  | 29 => ⟨S8x1999x3, .f32⟩
  | 30 => ⟨S8x1999x3, .f32⟩
  | 31 => ⟨S_, .f32⟩
  | 32 => ⟨S8x1999x3, .f32⟩
  | 33 => ⟨S8x1999x3, .f32⟩
  | 34 => ⟨S8x1999x3, .f32⟩
  | 35 => ⟨S8x1999x3, .f32⟩
  | 36 => ⟨S_, .f32⟩
  | 37 => ⟨S8x1999, .f32⟩
  | 38 => ⟨S_, .f32⟩
  | 39 => ⟨S8x1999, .f32⟩
  | 40 => ⟨S8x1999, .f32⟩
  | 41 => ⟨S8x1999, .f32⟩
  | 42 => ⟨S8x1999x1, .f32⟩
  | 43 => ⟨S8x1999x3, .f32⟩
  | 44 => ⟨S8x1999x3, .f32⟩
  | 45 => ⟨S8x1999x1, .i32⟩
  | 46 => ⟨S8x1999, .i32⟩
  | 47 => ⟨S_, .i32⟩
  | 48 => ⟨S8x1999, .i32⟩
  | 49 => ⟨S8x1999, .i1⟩
  | 50 => ⟨S_, .i32⟩
  | 51 => ⟨S8x1999, .i32⟩
  | 52 => ⟨S8x1999, .i32⟩
  | 53 => ⟨S8x1999, .i32⟩
  | 54 => ⟨S8x1999x1, .i32⟩
  | 55 => ⟨S8x1999x3, .f32⟩
  | 56 => ⟨S8x1999x1, .i32⟩
  | 57 => ⟨S8x1999, .i32⟩
  | 58 => ⟨S_, .i32⟩
  | 59 => ⟨S8x1999, .i32⟩
  | 60 => ⟨S8x1999, .i1⟩
  | 61 => ⟨S_, .i32⟩
  | 62 => ⟨S8x1999, .i32⟩
  | 63 => ⟨S8x1999, .i32⟩
  | 64 => ⟨S8x1999, .i32⟩
  | 65 => ⟨S8x1999x1, .i32⟩
  | 66 => ⟨S8x1999x3, .f32⟩
  | 67 => ⟨S8x1999x3, .f32⟩
  | 68 => ⟨S_, .f32⟩
  | 69 => ⟨S8x1999x3, .f32⟩
  | 70 => ⟨S8x1999x3, .f32⟩
  | 71 => ⟨S8x1999x3, .f32⟩
  | 72 => ⟨S8x1999x3, .f32⟩
  | 73 => ⟨S_, .f32⟩
  | 74 => ⟨S8x1999, .f32⟩
  | 75 => ⟨S_, .f32⟩
  | 76 => ⟨S8x1999, .f32⟩
  | 77 => ⟨S8x1999, .f32⟩
  | 78 => ⟨S8x1999, .f32⟩
  | 79 => ⟨S8x1999x1, .f32⟩
  | 80 => ⟨S8x1999x3, .f32⟩
  | 81 => ⟨S8x1999x3, .f32⟩
  | 82 => ⟨S8x1999x1x3, .f32⟩
  | 83 => ⟨S8x1x1999x3, .f32⟩
  | 84 => ⟨S8x1999x1999x3, .f32⟩
  | 85 => ⟨S8x1999x1999x3, .f32⟩
  | 86 => ⟨S8x1999x1999x3, .f32⟩
  | 87 => ⟨S8x1999x1999x3, .f32⟩
  | 88 => ⟨S_, .f32⟩
  | 89 => ⟨S8x1999x1999, .f32⟩
  | 90 => ⟨S8x1999x1999, .f32⟩
  | 91 => ⟨S_, .f32⟩
  | 92 => ⟨S8x1999x1999, .f32⟩
  | 93 => ⟨S8x1999x1999, .f32⟩
  | 94 => ⟨S8x1999x1999, .f32⟩
  | 95 => ⟨S8x3x1999, .f32⟩
  | 96 => ⟨S8x1999x1999, .f32⟩
  | 97 => ⟨S8x1999x1999, .f32⟩
  | 98 => ⟨S8x1999x1999, .f32⟩
  | 99 => ⟨S8x1999x1, .f32⟩
  | 100 => ⟨S8x1x1999, .f32⟩
  | 101 => ⟨S8x1999x1999, .f32⟩
  | 102 => ⟨S8x1999x1999, .f32⟩
  | 103 => ⟨S8x1999x1999, .f32⟩
  | 104 => ⟨S8x1999x1999, .f32⟩
  | 105 => ⟨S_, .f32⟩
  | 106 => ⟨S8, .f32⟩
  | 107 => ⟨S8x1999x1x3, .f32⟩
  | 108 => ⟨S8x1x1999x3, .f32⟩
  | 109 => ⟨S8x1999x1999x3, .f32⟩
  | 110 => ⟨S8x1999x1999x3, .f32⟩
  | 111 => ⟨S8x1999x1999x3, .f32⟩
  | 112 => ⟨S8x1999x1999x3, .f32⟩
  | 113 => ⟨S_, .f32⟩
  | 114 => ⟨S8x1999x1999, .f32⟩
  | 115 => ⟨S8x1999x1999, .f32⟩
  | 116 => ⟨S_, .f32⟩
  | 117 => ⟨S8x1999x1999, .f32⟩
  | 118 => ⟨S8x1999x1999, .f32⟩
  | 119 => ⟨S8x1999x1999, .f32⟩
  | 120 => ⟨S8x3x1999, .f32⟩
  | 121 => ⟨S8x1999x1999, .f32⟩
  | 122 => ⟨S8x1999x1999, .f32⟩
  | 123 => ⟨S8x1999x1999, .f32⟩
  | 124 => ⟨S8x1999x1, .f32⟩
  | 125 => ⟨S8x1x1999, .f32⟩
  | 126 => ⟨S8x1999x1999, .f32⟩
  | 127 => ⟨S8x1999x1999, .f32⟩
  | _ => ⟨S8x2000x3, .f32⟩

abbrev hbmTy0_1 (i : Nat) : BufTy := match i % 128 with
  | 0 => ⟨S8x1999x1999, .f32⟩
  | 1 => ⟨S8x1999x1999, .f32⟩
  | 2 => ⟨S_, .f32⟩
  | 3 => ⟨S8, .f32⟩
  | 4 => ⟨S_, .f32⟩
  | 5 => ⟨S8, .f32⟩
  | 6 => ⟨S8, .f32⟩
  | 7 => ⟨S8, .f32⟩
  | 8 => ⟨S8x1999x1x3, .f32⟩
  | 9 => ⟨S8x1x1999x3, .f32⟩
  | 10 => ⟨S8x1999x1999x3, .f32⟩
  | 11 => ⟨S8x1999x1999x3, .f32⟩
  | 12 => ⟨S8x1999x1999x3, .f32⟩
  | 13 => ⟨S8x1999x1999x3, .f32⟩
  | 14 => ⟨S_, .f32⟩
  | 15 => ⟨S8x1999x1999, .f32⟩
  | 16 => ⟨S8x1999x1999, .f32⟩
  | 17 => ⟨S_, .f32⟩
  | 18 => ⟨S8x1999x1999, .f32⟩
  | 19 => ⟨S8x1999x1999, .f32⟩
  | 20 => ⟨S8x1999x1999, .f32⟩
  | 21 => ⟨S8x3x1999, .f32⟩
  | 22 => ⟨S8x1999x1999, .f32⟩
  | 23 => ⟨S8x1999x1999, .f32⟩
  | 24 => ⟨S8x1999x1999, .f32⟩
  | 25 => ⟨S8x1999x1, .f32⟩
  | 26 => ⟨S8x1x1999, .f32⟩
  | 27 => ⟨S8x1999x1999, .f32⟩
  | 28 => ⟨S8x1999x1999, .f32⟩
  | 29 => ⟨S8x1999x1999, .f32⟩
  | 30 => ⟨S8x1999x1999, .f32⟩
  | 31 => ⟨S_, .f32⟩
  | 32 => ⟨S8, .f32⟩
  | 33 => ⟨S8, .f32⟩
  | 34 => ⟨S1999x1, .i32⟩
  | 35 => ⟨S1999, .i32⟩
  | 36 => ⟨S_, .i32⟩
  | 37 => ⟨S1999, .i32⟩
  | 38 => ⟨S1999, .i1⟩
  | 39 => ⟨S_, .i32⟩
  | 40 => ⟨S1999, .i32⟩
  | 41 => ⟨S1999, .i32⟩
  | 42 => ⟨S1999, .i32⟩
  | 43 => ⟨S1999x1, .i32⟩
  | 44 => ⟨S8x1999x3, .f32⟩
  | 45 => ⟨S1999x1, .i32⟩
  | 46 => ⟨S1999, .i32⟩
  | 47 => ⟨S_, .i32⟩
  | 48 => ⟨S1999, .i32⟩
  | 49 => ⟨S1999, .i1⟩
  | 50 => ⟨S_, .i32⟩
  | 51 => ⟨S1999, .i32⟩
  | 52 => ⟨S1999, .i32⟩
  | 53 => ⟨S1999, .i32⟩
  | 54 => ⟨S1999x1, .i32⟩
  | 55 => ⟨S8x1999x3, .f32⟩
  | 56 => ⟨S8x1999x3, .f32⟩
  | 57 => ⟨S_, .f32⟩
  | 58 => ⟨S8x1999x3, .f32⟩
  | 59 => ⟨S8x1999x3, .f32⟩
  | 60 => ⟨S8x1999x3, .f32⟩
  | 61 => ⟨S8x1999x3, .f32⟩
  | 62 => ⟨S_, .f32⟩
  | 63 => ⟨S8x1999, .f32⟩
  | 64 => ⟨S_, .f32⟩
  | 65 => ⟨S8x1999, .f32⟩
  | 66 => ⟨S8x1999, .f32⟩
  | 67 => ⟨S8x1999, .f32⟩
  | 68 => ⟨S8x1999x1, .f32⟩
  | 69 => ⟨S8x1999x3, .f32⟩
  | 70 => ⟨S8x1999x3, .f32⟩
  | 71 => ⟨S8x1999, .f32⟩
  | 72 => ⟨S8x1999x1, .f32⟩
  | 73 => ⟨S8x1999x3, .f32⟩
  | 74 => ⟨S8x1999x3, .f32⟩
  | 75 => ⟨S1999x1, .i32⟩
  | 76 => ⟨S1999, .i32⟩
  | 77 => ⟨S_, .i32⟩
  | 78 => ⟨S1999, .i32⟩
  | 79 => ⟨S1999, .i1⟩
  | 80 => ⟨S_, .i32⟩
  | 81 => ⟨S1999, .i32⟩
  | 82 => ⟨S1999, .i32⟩
  | 83 => ⟨S1999, .i32⟩
  | 84 => ⟨S1999x1, .i32⟩
  | 85 => ⟨S1999x3, .f32⟩
  | 86 => ⟨S1999x1, .i32⟩
  | 87 => ⟨S1999, .i32⟩
  | 88 => ⟨S_, .i32⟩
  | 89 => ⟨S1999, .i32⟩
  | 90 => ⟨S1999, .i1⟩
  | 91 => ⟨S_, .i32⟩
  | 92 => ⟨S1999, .i32⟩
  | 93 => ⟨S1999, .i32⟩
  | 94 => ⟨S1999, .i32⟩
  | 95 => ⟨S1999x1, .i32⟩
  | 96 => ⟨S1999x3, .f32⟩
  | 97 => ⟨S1999x3, .f32⟩
  | 98 => ⟨S_, .f32⟩
  | 99 => ⟨S1999x3, .f32⟩
  | 100 => ⟨S1999x3, .f32⟩
  | 101 => ⟨S1999x3, .f32⟩
  | 102 => ⟨S1999x3, .f32⟩
  | 103 => ⟨S_, .f32⟩
  | 104 => ⟨S1999, .f32⟩
  | 105 => ⟨S_, .f32⟩
  | 106 => ⟨S1999, .f32⟩
  | 107 => ⟨S1999, .f32⟩
  | 108 => ⟨S1999, .f32⟩
  | 109 => ⟨S1999x1, .f32⟩
  | 110 => ⟨S1999x3, .f32⟩
  | 111 => ⟨S1999x3, .f32⟩
  | 112 => ⟨S1999, .f32⟩
  | 113 => ⟨S1999x1, .f32⟩
  | 114 => ⟨S1999x3, .f32⟩
  | 115 => ⟨S1999x3, .f32⟩
  | 116 => ⟨S1x1999x3, .f32⟩
  | 117 => ⟨S8x1999x3, .f32⟩
  | 118 => ⟨S8x1999x3, .f32⟩
  | 119 => ⟨S8x1999x3, .f32⟩
  | 120 => ⟨S_, .f32⟩
  | 121 => ⟨S8, .f32⟩
  | 122 => ⟨S_, .f32⟩
  | 123 => ⟨S8, .f32⟩
  | 124 => ⟨S8, .f32⟩
  | 125 => ⟨S8, .f32⟩
  | 126 => ⟨S_, .f32⟩
  | 127 => ⟨S_, .f32⟩
  | _ => ⟨S8x2000x3, .f32⟩

abbrev hbmTy0_2 (i : Nat) : BufTy := match i % 128 with
  | 0 => ⟨S_, .f32⟩
  | 1 => ⟨S_, .f32⟩
  | _ => ⟨S8x2000x3, .f32⟩

abbrev hbmTy (i : Nat) : BufTy := match i / 128 with
  | 0 => hbmTy0_0 i
  | 1 => hbmTy0_1 i
  | 2 => hbmTy0_2 i
  | _ => ⟨S8x2000x3, .f32⟩

abbrev bufTy : (tb : Table) → Fin (tcTables nBuf tb) → BufTy
  | .hbm, ⟨i, _⟩ => hbmTy i
  | _, _ => ⟨S8x2000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_5 : Ref sig .tc := ⟨.hbm, 47, rfl⟩
abbrev main_v35 : Ref sig .tc := ⟨.hbm, 48, rfl⟩
abbrev main_v36 : Ref sig .tc := ⟨.hbm, 49, rfl⟩
abbrev main_c_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_7 : Ref sig .tc := ⟨.hbm, 58, rfl⟩
abbrev main_v44 : Ref sig .tc := ⟨.hbm, 59, rfl⟩
abbrev main_v45 : Ref sig .tc := ⟨.hbm, 60, rfl⟩
abbrev main_c_8 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_9 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_10 : Ref sig .tc := ⟨.hbm, 73, rfl⟩
abbrev main_v56 : Ref sig .tc := ⟨.hbm, 74, rfl⟩
abbrev main_cst_11 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_12 : Ref sig .tc := ⟨.hbm, 88, rfl⟩
abbrev main_v69 : Ref sig .tc := ⟨.hbm, 89, rfl⟩
abbrev main_v70 : Ref sig .tc := ⟨.hbm, 90, rfl⟩
abbrev main_cst_13 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_cst_14 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_cst_15 : Ref sig .tc := ⟨.hbm, 113, rfl⟩
abbrev main_v91 : Ref sig .tc := ⟨.hbm, 114, rfl⟩
abbrev main_v92 : Ref sig .tc := ⟨.hbm, 115, rfl⟩
abbrev main_cst_16 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_cst_17 : Ref sig .tc := ⟨.hbm, 130, rfl⟩
abbrev main_v106 : Ref sig .tc := ⟨.hbm, 131, rfl⟩
abbrev main_cst_18 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_cst_19 : Ref sig .tc := ⟨.hbm, 142, rfl⟩
abbrev main_v116 : Ref sig .tc := ⟨.hbm, 143, rfl⟩
abbrev main_v117 : Ref sig .tc := ⟨.hbm, 144, rfl⟩
abbrev main_cst_20 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_cst_21 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_c_22 : Ref sig .tc := ⟨.hbm, 164, rfl⟩
abbrev main_v135 : Ref sig .tc := ⟨.hbm, 165, rfl⟩
abbrev main_v136 : Ref sig .tc := ⟨.hbm, 166, rfl⟩
abbrev main_c_23 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_c_24 : Ref sig .tc := ⟨.hbm, 175, rfl⟩
abbrev main_v144 : Ref sig .tc := ⟨.hbm, 176, rfl⟩
abbrev main_v145 : Ref sig .tc := ⟨.hbm, 177, rfl⟩
abbrev main_c_25 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_cst_26 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_cst_27 : Ref sig .tc := ⟨.hbm, 190, rfl⟩
abbrev main_v156 : Ref sig .tc := ⟨.hbm, 191, rfl⟩
abbrev main_cst_28 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_c_29 : Ref sig .tc := ⟨.hbm, 205, rfl⟩
abbrev main_v169 : Ref sig .tc := ⟨.hbm, 206, rfl⟩
abbrev main_v170 : Ref sig .tc := ⟨.hbm, 207, rfl⟩
abbrev main_c_30 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_c_31 : Ref sig .tc := ⟨.hbm, 216, rfl⟩
abbrev main_v178 : Ref sig .tc := ⟨.hbm, 217, rfl⟩
abbrev main_v179 : Ref sig .tc := ⟨.hbm, 218, rfl⟩
abbrev main_c_32 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_cst_33 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_cst_34 : Ref sig .tc := ⟨.hbm, 231, rfl⟩
abbrev main_v190 : Ref sig .tc := ⟨.hbm, 232, rfl⟩
abbrev main_cst_35 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_cst_36 : Ref sig .tc := ⟨.hbm, 248, rfl⟩
abbrev main_v205 : Ref sig .tc := ⟨.hbm, 249, rfl⟩
abbrev main_cst_37 : Ref sig .tc := ⟨.hbm, 250, rfl⟩
abbrev main_v206 : Ref sig .tc := ⟨.hbm, 251, rfl⟩
abbrev main_v207 : Ref sig .tc := ⟨.hbm, 252, rfl⟩
abbrev main_v208 : Ref sig .tc := ⟨.hbm, 253, rfl⟩
abbrev main_cst_38 : Ref sig .tc := ⟨.hbm, 254, rfl⟩
abbrev main_v209 : Ref sig .tc := ⟨.hbm, 255, rfl⟩
abbrev main_cst_39 : Ref sig .tc := ⟨.hbm, 256, rfl⟩
abbrev main_v210 : Ref sig .tc := ⟨.hbm, 257, rfl⟩

abbrev nD : Nat := 1
abbrev τ : Topo := Topo.v7x

variable {F : FTy → Type} [FloatOps F]

class Facts₀ : Prop where
  bcast_S2000x3_S1x2000x3_1_2 : S2000x3.BroadcastsInDim S1x2000x3 (![1, 2] : Fin 2 → Fin S1x2000x3.rank)
  bcast_S1x2000x3_S8x2000x3_0_1_2 : S1x2000x3.BroadcastsInDim S8x2000x3 (![0, 1, 2] : Fin 3 → Fin S8x2000x3.rank)
  slices_S1999x2_S1999x1_0_0 : S1999x2.Slices ![0, 0] S1999x1
  shapeCasts_S1999x1_S1999 : S1999x1.ShapeCasts S1999
  bcast_S_S1999 : S_.BroadcastsInDim S1999 (![] : Fin 0 → Fin S1999.rank)
  bcast_S1999_S1999x1_0 : S1999.BroadcastsInDim S1999x1 (![0] : Fin 1 → Fin S1999x1.rank)
  slices_S1999x2_S1999x1_0_1 : S1999x2.Slices ![0, 1] S1999x1
  bcast_S_S8x1999x3 : S_.BroadcastsInDim S8x1999x3 (![] : Fin 0 → Fin S8x1999x3.rank)
  reducesTo_S8x1999x3_S8x1999_d2 : S8x1999x3.ReducesTo [2] S8x1999
  h_S_ : 0 < S_.numel
  bcast_S_S8x1999 : S_.BroadcastsInDim S8x1999 (![] : Fin 0 → Fin S8x1999.rank)
  bcast_S8x1999_S8x1999x1_0_1 : S8x1999.BroadcastsInDim S8x1999x1 (![0, 1] : Fin 2 → Fin S8x1999x1.rank)
  bcast_S8x1999x1_S8x1999x3_0_1_2 : S8x1999x1.BroadcastsInDim S8x1999x3 (![0, 1, 2] : Fin 3 → Fin S8x1999x3.rank)
  slices_S8x1999x2_S8x1999x1_0_0_0 : S8x1999x2.Slices ![0, 0, 0] S8x1999x1
  shapeCasts_S8x1999x1_S8x1999 : S8x1999x1.ShapeCasts S8x1999
  slices_S8x1999x2_S8x1999x1_0_0_1 : S8x1999x2.Slices ![0, 0, 1] S8x1999x1
  bcast_S8x1999x3_S8x1999x1x3_0_1_3 : S8x1999x3.BroadcastsInDim S8x1999x1x3 (![0, 1, 3] : Fin 3 → Fin S8x1999x1x3.rank)
  bcast_S8x1999x3_S8x1x1999x3_0_2_3 : S8x1999x3.BroadcastsInDim S8x1x1999x3 (![0, 2, 3] : Fin 3 → Fin S8x1x1999x3.rank)
  bcast_S8x1999x1x3_S8x1999x1999x3_0_1_2_3 : S8x1999x1x3.BroadcastsInDim S8x1999x1999x3 (![0, 1, 2, 3] : Fin 4 → Fin S8x1999x1999x3.rank)
  bcast_S8x1x1999x3_S8x1999x1999x3_0_1_2_3 : S8x1x1999x3.BroadcastsInDim S8x1999x1999x3 (![0, 1, 2, 3] : Fin 4 → Fin S8x1999x1999x3.rank)
  reducesTo_S8x1999x1999x3_S8x1999x1999_d3 : S8x1999x1999x3.ReducesTo [3] S8x1999x1999
  bcast_S_S8x1999x1999 : S_.BroadcastsInDim S8x1999x1999 (![] : Fin 0 → Fin S8x1999x1999.rank)
  transposes_S8x1999x3_S8x3x1999_0_2_1 : S8x1999x3.Transposes [0, 2, 1] S8x3x1999
  bcast_S8x1999_S8x1x1999_0_2 : S8x1999.BroadcastsInDim S8x1x1999 (![0, 2] : Fin 2 → Fin S8x1x1999.rank)
  bcast_S8x1999x1_S8x1999x1999_0_1_2 : S8x1999x1.BroadcastsInDim S8x1999x1999 (![0, 1, 2] : Fin 3 → Fin S8x1999x1999.rank)
  bcast_S8x1x1999_S8x1999x1999_0_1_2 : S8x1x1999.BroadcastsInDim S8x1999x1999 (![0, 1, 2] : Fin 3 → Fin S8x1999x1999.rank)
  reducesTo_S8x1999x1999_S8_d1_2 : S8x1999x1999.ReducesTo [1, 2] S8
  bcast_S_S8 : S_.BroadcastsInDim S8 (![] : Fin 0 → Fin S8.rank)
  bcast_S_S1999x3 : S_.BroadcastsInDim S1999x3 (![] : Fin 0 → Fin S1999x3.rank)
  reducesTo_S1999x3_S1999_d1 : S1999x3.ReducesTo [1] S1999
  bcast_S1999x1_S1999x3_0_1 : S1999x1.BroadcastsInDim S1999x3 (![0, 1] : Fin 2 → Fin S1999x3.rank)
  bcast_S1999x3_S1x1999x3_1_2 : S1999x3.BroadcastsInDim S1x1999x3 (![1, 2] : Fin 2 → Fin S1x1999x3.rank)
  bcast_S1x1999x3_S8x1999x3_0_1_2 : S1x1999x3.BroadcastsInDim S8x1999x3 (![0, 1, 2] : Fin 3 → Fin S8x1999x3.rank)
  reducesTo_S8x1999x3_S8_d1_2 : S8x1999x3.ReducesTo [1, 2] S8
  reducesTo_S8_S_d0 : S8.ReducesTo [0] S_
  gather_S8x2000x3_S1999x1_S8x1999x3_02_1_n_n_1_1_813_wf : GatherDims.WF S8x2000x3 S1999x1 S8x1999x3 [0, 2] [1] [] [1] [] 1 ![8, 1, 3]
  gather_S8x2000x3_S8x1999x1_S8x1999x3_2_1_0_0_1_2_113_wf : GatherDims.WF S8x2000x3 S8x1999x1 S8x1999x3 [2] [1] [0] [1] [0] 2 ![1, 1, 3]
  dot_S8x1999x3_S8x3x1999_S8x1999x1999_2_1_1_2_0_0_wf : DotDims.WF S8x1999x3 S8x3x1999 S8x1999x1999 [2] [1] [1] [2] [0] [0]
  gather_S2000x3_S1999x1_S1999x3_1_0_n_n_0_1_13_wf : GatherDims.WF S2000x3 S1999x1 S1999x3 [1] [0] [] [0] [] 1 ![1, 3]

variable [Facts₀]

def gather_S8x2000x3_S1999x1_S8x1999x3_02_1_n_n_1_1_813 : GatherDims S8x2000x3 S1999x1 S8x1999x3 where
  offsetDims := [0, 2]
  collapsedSliceDims := [1]
  operandBatchingDims := []
  startIndicesBatchingDims := []
  startIndexMap := [1]
  indexVectorDim := 1
  sliceSizes := ![8, 1, 3]
  wf := gather_S8x2000x3_S1999x1_S8x1999x3_02_1_n_n_1_1_813_wf
def gather_S8x2000x3_S8x1999x1_S8x1999x3_2_1_0_0_1_2_113 : GatherDims S8x2000x3 S8x1999x1 S8x1999x3 where
  offsetDims := [2]
  collapsedSliceDims := [1]
  operandBatchingDims := [0]
  startIndicesBatchingDims := [0]
  startIndexMap := [1]
  indexVectorDim := 2
  sliceSizes := ![1, 1, 3]
  wf := gather_S8x2000x3_S8x1999x1_S8x1999x3_2_1_0_0_1_2_113_wf
def dot_S8x1999x3_S8x3x1999_S8x1999x1999_2_1_1_2_0_0 : DotDims S8x1999x3 S8x3x1999 S8x1999x1999 where
  lhsContracting := [2]
  rhsContracting := [1]
  lhsNonContracting := [1]
  rhsNonContracting := [2]
  lhsBatch := [0]
  rhsBatch := [0]
  wf := dot_S8x1999x3_S8x3x1999_S8x1999x1999_2_1_1_2_0_0_wf
def gather_S2000x3_S1999x1_S1999x3_1_0_n_n_0_1_13 : GatherDims S2000x3 S1999x1 S1999x3 where
  offsetDims := [1]
  collapsedSliceDims := [0]
  operandBatchingDims := []
  startIndicesBatchingDims := []
  startIndexMap := [0]
  indexVectorDim := 1
  sliceSizes := ![1, 3]
  wf := gather_S2000x3_S1999x1_S1999x3_1_0_n_n_0_1_13_wf

class Facts : Prop extends Facts₀ where

variable [Facts]
-- ==== Proof.RefFrame.lean ====
/-
  The reference program's frame. The reference is a host program with no kernel launch: its run is the
  composition of its host operations, every one of which writes only its own result buffer, so the argument
  arrays are untouched. The generated run of the reference states the final memory with the result at the
  operations' composed term and each argument kept; the frame is that run with the result forgotten.
-/
import proofs.«177710_j40166534152779_1_alg».proof.Defs
import proofs.«177710_j40166534152779_1_alg».proof.Proof.Gen.ReferenceIdeal
import proofs.«177710_j40166534152779_1_alg».proof.Proof.Gen.ReferenceIdeal.Run
import proofs.«177710_j40166534152779_1_alg».proof.Proof.Gen.Pre_finite_inputs

noncomputable section

open Idealize.ShloMosaic Idealize.ShloMosaic.TcCoe Idealize.SL.Sem

namespace Cert.Proof.RefFrame

/-- Every weakly fair execution of the reference terminates without a fault and leaves its five argument
    arrays as it found them: the generated run says so together with the value of the result, which a frame
    does not mention. No hypothesis on the inputs is used. -/
theorem frame_ri : Cert.frame_ReferenceIdeal := fun m ρ _ =>
  (θ_run Cert.ReferenceIdeal.defs _ _).mono (fun _ h c => (h c).2)
    (Cert.ReferenceIdeal.Value.run (F := Ideal) m ρ)

end Cert.Proof.RefFrame

end
-- ==== Proof.VarifoldAlgebra.lean ====
/-
  The algebra that joins the two programs, over the real numbers and abstract finite index types.

  One sample's varifold term is a double sum over pairs of edges of a symmetric pair kernel
  `k p q` (the Gaussian of the distance of the two edge centres times the squared cosine of the two unit
  tangents) weighted by the product of the two edge lengths. The reference evaluates three such double sums,
  over pairs of X edges, pairs of an X and a Y edge, and pairs of Y edges, and combines them as
  `aa - 2 * ab + bb`. The kernel evaluates ONE double sum over the concatenation of the X edges, the Y edges
  and a padding, with the weight `+l` on an X edge, `-l` on a Y edge and `0` on a padding entry; the cross
  terms come out with the sign `-` twice, and the symmetry of the pair kernel makes the two of them equal.
  The kernel moreover cuts that double sum into square tiles and adds the tiles' sums one after the other.
-/
import Mathlib.Algebra.BigOperators.Fin
import Mathlib.Algebra.BigOperators.Ring.Finset
import Mathlib.Data.Fintype.BigOperators
import Mathlib.Data.Real.Basic
import Mathlib.Tactic.Ring
import Mathlib.Tactic.Linarith

namespace Varifold

open Finset BigOperators

variable {α β γ : Type*} [Fintype α] [Fintype β] [Fintype γ]

/-- The signed weight of an entry of the concatenation: `+l` on an X edge, `-l` on a Y edge, `0` on padding. -/
def signedWeight (lX : α → ℝ) (lY : β → ℝ) : α ⊕ β ⊕ γ → ℝ
  | .inl a => lX a
  | .inr (.inl b) => - lY b
  | .inr (.inr _) => 0

/-- The double sum over the concatenation with signed weights is `aa - 2 * ab + bb`, for ANY pair kernel on the
    concatenation that is symmetric between an X and a Y entry. What the pair kernel is at a padding entry
    does not matter: its weight is zero. -/
theorem signed_double_sum (k : α ⊕ β ⊕ γ → α ⊕ β ⊕ γ → ℝ)
    (hsymm : ∀ (a : α) (b : β), k (.inr (.inl b)) (.inl a) = k (.inl a) (.inr (.inl b)))
    (lX : α → ℝ) (lY : β → ℝ) :
    (∑ p, ∑ q, k p q * (signedWeight (γ := γ) lX lY p * signedWeight (γ := γ) lX lY q))
      = (∑ a, ∑ a', k (.inl a) (.inl a') * (lX a * lX a'))
        - 2 * (∑ a, ∑ b, k (.inl a) (.inr (.inl b)) * (lX a * lY b))
        + (∑ b, ∑ b', k (.inr (.inl b)) (.inr (.inl b')) * (lY b * lY b')) := by
  have hcross : (∑ b, ∑ a, k (.inr (.inl b)) (.inl a) * (lY b * lX a))
      = ∑ a, ∑ b, k (.inl a) (.inr (.inl b)) * (lX a * lY b) := by
    rw [Finset.sum_comm]
    refine Finset.sum_congr rfl fun a _ => Finset.sum_congr rfl fun b _ => ?_
    rw [hsymm a b]; ring
  simp only [Fintype.sum_sum_type, signedWeight, mul_zero, zero_mul, Finset.sum_const_zero, add_zero,
    mul_neg, neg_mul, neg_neg, Finset.sum_neg_distrib, Finset.sum_add_distrib]
  rw [hcross]
  ring

/-- A sum over `Fin (m * n)` is the sum over the `m` tiles of the tiles' sums, entry `(t, a)` of the tiling being
    the index `a + n * t`. -/
theorem tiled_sum (m n : ℕ) (g : Fin (m * n) → ℝ) :
    (∑ p, g p) = ∑ t : Fin m, ∑ a : Fin n, g (finProdFinEquiv (t, a)) :=
  calc (∑ p, g p) = ∑ x : Fin m × Fin n, g (finProdFinEquiv x) := (Equiv.sum_comp finProdFinEquiv g).symm
    _ = _ := Fintype.sum_prod_type _

/-- A double sum over `Fin (m * n)` is the sum over the `m × m` tiles of the tiles' double sums. -/
theorem tiled_double_sum (m n : ℕ) (f : Fin (m * n) → Fin (m * n) → ℝ) :
    (∑ p, ∑ q, f p q)
      = ∑ ti : Fin m, ∑ tj : Fin m, ∑ a : Fin n, ∑ b : Fin n,
          f (finProdFinEquiv (ti, a)) (finProdFinEquiv (tj, b)) := by
  rw [tiled_sum m n (fun p => ∑ q, f p q)]
  refine Finset.sum_congr rfl fun ti _ => ?_
  have h : ∀ a : Fin n, (∑ q, f (finProdFinEquiv (ti, a)) q)
      = ∑ tj : Fin m, ∑ b : Fin n, f (finProdFinEquiv (ti, a)) (finProdFinEquiv (tj, b)) :=
    fun a => tiled_sum m n _
  simp only [h]
  exact Finset.sum_comm

end Varifold
-- ==== Proof.LibKeepdims.lean ====
/-
  Layout operations on a column, read at an index. A kernel that forms an outer difference or an outer product of two
  vectors writes `x[:, None]` and `y[None, :]`: a length-`a` vector viewed as an `a × 1` column or a `1 × a` row and
  then spread over an `a × b` array. The row forms are in the library; these are the column forms, and the two casts
  that drop the leading unit axes of a pipelined block. Each lemma names the one operand entry an entry of the result
  reads, by coordinates.
-/
import Idealize.ShloMosaic.Lib.ValueIdx
import Idealize.ShloMosaic.Lib.ValueLayout
import Idealize.ShloMosaic.Lib.Pipeline.Value

namespace Idealize.ShloMosaic.Keepdims

open Idealize.ShloMosaic Idealize.ShloMosaic.ValueIdx

variable {α : Type}

/-- An `[a, 1]` column cast to the vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A vector `[a]` cast to the `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column spread over `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a, b]` block cast to `[a, b]` reads, at `(i, j)`, the block at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-- A `[1, 1, a]` block cast to `[a]` reads, at `i`, the block at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

end Idealize.ShloMosaic.Keepdims
-- ==== Proof.TileTerm.lean ====
/-
  The kernel body's arithmetic at one grid point, read at an index, on the extended reals.

  At a grid point `(b, i, j)` the body loads six blocks: the edge centres, the unit tangents and the signed lengths of
  the `i`-th group of 1024 entries of sample `b`'s concatenated edge list, and the same three of the `j`-th group. It
  forms a 1024 × 1024 tile whose entry `(p, q)` is
  `exp ((dx² + dy² + dz²) · (-4)) · (ux·ux' + uy·uy' + uz·uz')² · (l_p · l_q)`
  with `d = c_p - c_q` the difference of the two centres: the Gaussian of the squared distance at bandwidth 1/2, the
  squared cosine of the two tangents and the product of the two signed lengths. The tile is then summed over all its
  entries and the sum added to the accumulator. This module proves the entry formula; the outer differences and products
  are columns and rows spread over the tile, each read back to the one block entry it shows.
-/
import proofs.«177710_j40166534152779_1_alg».proof.Proof.Gen.KernelIdeal.Skeleton
import proofs.«177710_j40166534152779_1_alg».proof.Proof.LibKeepdims
import Idealize.ShloMosaic.PureOps.Ideal.Laws

noncomputable section

namespace Cert.KernelIdeal.Tile

open scoped BigOperators
open Idealize.ShloMosaic Idealize.ShloMosaic.ValueIdx Idealize.ShloMosaic.Keepdims Cert.KernelIdeal Cert.KernelIdeal.Gen

variable {α : Type}

/-- A vector taken as a column and spread along the tile's rows: entry `(p, q)` shows entry `p`. -/
theorem vec_along_rows (l : S1024.Idx → α) (h2 : S1024.ShapeCasts S1024x1) (hb : S1024x1.Broadcasts S1024x1024) (p q : Fin 1024) :
    broadcastTo S1024x1024 (shapeCast S1024x1 l h2) hb (ix2 p q) = l (ix1 p) := by
  rw [broadcastTo_a1_ab_apply, shapeCast_a_a1_apply]

/-- A vector taken as a row and spread along the tile's columns: entry `(p, q)` shows entry `q`. -/
theorem vec_along_cols (l : S1024.Idx → α) (h2 : S1024.ShapeCasts S1x1024) (hb : S1x1024.Broadcasts S1024x1024) (p q : Fin 1024) :
    broadcastTo S1024x1024 (shapeCast S1x1024 l h2) hb (ix2 p q) = l (ix1 q) := by
  rw [broadcastTo_1b_ab_apply, shapeCast_a_1a_apply]

/-- The tile's entry for the pair (row `p` of the `i`-side blocks, row `q` of the `j`-side blocks): the Gaussian of the
    squared distance of the two centres at bandwidth 1/2 (the factor `-4 = -1 / 0.5²`), times the squared inner product
    of the two tangents, times the product of the two signed lengths. -/
def pairTerm (cI cJ uI uJ : Vec Ideal S1x1x1024x3 .f32) (lI lJ : Vec Ideal S1x1x1024 .f32) (p q : Fin 1024) : EReal :=
  Ideal.exp
      (((cI (ix4 0 0 p 0) - cJ (ix4 0 0 q 0)) * (cI (ix4 0 0 p 0) - cJ (ix4 0 0 q 0))
        + (cI (ix4 0 0 p 1) - cJ (ix4 0 0 q 1)) * (cI (ix4 0 0 p 1) - cJ (ix4 0 0 q 1))
        + (cI (ix4 0 0 p 2) - cJ (ix4 0 0 q 2)) * (cI (ix4 0 0 p 2) - cJ (ix4 0 0 q 2)))
       * (Scalar.ofBits .f32 0xC0800000#32 : Ideal .f32))
    * ((uI (ix4 0 0 p 0) * uJ (ix4 0 0 q 0) + uI (ix4 0 0 p 1) * uJ (ix4 0 0 q 1) + uI (ix4 0 0 p 2) * uJ (ix4 0 0 q 2))
       * (uI (ix4 0 0 p 0) * uJ (ix4 0 0 q 0) + uI (ix4 0 0 p 1) * uJ (ix4 0 0 q 1) + uI (ix4 0 0 p 2) * uJ (ix4 0 0 q 2)))
    * (lI (ix3 0 0 p) * lJ (ix3 0 0 q))

/-- Entry `(p, q)` of the tile the body forms from its six loaded blocks is `pairTerm`. -/
theorem tile_apply (cI cJ uI uJ : Vec Ideal S1x1x1024x3 .f32) (lI lJ : Vec Ideal S1x1x1024 .f32) (p q : Fin 1024) :
    k0_pay12 (k0_pay3 cI) (k0_pay4 cJ) (k0_pay5 uI) (k0_pay6 uJ) (k0_pay7 lI) (k0_pay8 lJ) (k0_pay9 cI cJ) (k0_pay10 cI) (k0_pay11 cJ)
        (ix3 (0 : Fin 1) p q)
      = pairTerm cI cJ uI uJ lI lJ p q := by
  unfold k0_pay12 k0_pay9 k0_pay10 k0_pay11
  dsimp only
  rw [shapeCast_ab_1ab_apply]
  simp only [mulf_apply, addf_apply, subf_apply, Idealize.ShloMosaic.exp, broadcast_apply,
    vec_along_rows, vec_along_cols]
  unfold k0_pay3 k0_pay4 k0_pay5 k0_pay6 k0_pay7 k0_pay8
  dsimp only
  simp only [shapeCast_a1_a_apply, slice2_axis1_eq, shapeCast_11ab_ab_apply, shapeCast_11a_a_apply]
  unfold pairTerm
  rfl

/-- One grid point's update of the accumulator: the scratch cell's new value is its old value plus the sum of the
    tile over ALL its entries (the reduction over both tile axes of a `1 × 1024 × 1024` vector into one number). -/
theorem acc_step (T : FVec Ideal S1x1024x1024 .f32) (acc : Vec Ideal S1x1x1 .f32) (i : S1x1x1.Idx) :
    k0_pay1 T acc i = acc i + ∑ j : S1x1024x1024.Idx, T j := by
  unfold k0_pay1
  dsimp only
  rw [shapeCast_self]
  rw [addf_apply, broadcast_apply]
  unfold extractAt shapeCast
  refine congrArg (acc i + ·) ((Ideal.multiReduction_add_total T 0x00000000#32 _ (fun b => ?_) _ _ _).trans rfl)
  match b with
  | ⟨0, _⟩ => rfl

/-- The tile's index set is the set of pairs `(p, q)`: its leading axis has one coordinate. -/
def tileIdx : Fin 1024 × Fin 1024 ≃ S1x1024x1024.Idx where
  toFun x := ix3 (0 : Fin 1) x.1 x.2
  invFun j := (j 1, j 2)
  left_inv _ := rfl
  right_inv j := by
    have h0 : (j 0).val = 0 := by have := (j 0).isLt; simp at this; omega
    funext a
    match a with
    | ⟨0, _⟩ => exact Fin.ext h0.symm
    | ⟨1, _⟩ => rfl
    | ⟨2, _⟩ => rfl

/-- The sum of the tile over all its entries is the double sum of the pair terms over the rows of the `i`-side
    blocks and the rows of the `j`-side blocks. -/
theorem tile_total (cI cJ uI uJ : Vec Ideal S1x1x1024x3 .f32) (lI lJ : Vec Ideal S1x1x1024 .f32) :
    (∑ j : S1x1024x1024.Idx,
        k0_pay12 (k0_pay3 cI) (k0_pay4 cJ) (k0_pay5 uI) (k0_pay6 uJ) (k0_pay7 lI) (k0_pay8 lJ) (k0_pay9 cI cJ) (k0_pay10 cI) (k0_pay11 cJ) j)
      = ∑ p : Fin 1024, ∑ q : Fin 1024, pairTerm cI cJ uI uJ lI lJ p q := by
  rw [← tileIdx.sum_comp, Fintype.sum_prod_type]
  exact Finset.sum_congr rfl fun p _ => Finset.sum_congr rfl fun q _ => tile_apply cI cJ uI uJ lI lJ p q

end Cert.KernelIdeal.Tile

end
-- ==== Proof.KernelRun.lean ====
/-
  The kernel program's run, reduced to what is the kernel's own.

  @main is seven stretches of host operations (the edge data of the two curves, their concatenation and zero padding,
  the unit axis added in front), the pallas_call's region, and a last stretch (the result's reshape, the regulariser
  and the mean over the samples). A host stretch writes only the buffers it names, so it takes the core's unscoped
  buffers from one valuation to the next (`V₀` … `Ve`); the region takes the buffers as it finds them to the same with
  the result's array at what the pipeline wrote back (`Vx`); the last stretch runs from there (`V₈`). The region's six
  input windows lie on three arrays, two windows on each, so the windows' arrays cannot be held each at the full share:
  the launch is stated with the layout facts that allow a shared array, and what it asks of the proof data around
  the body is collected in `Protocol`. For any proof data that meets the body obligation and that protocol, every
  weakly fair execution of @main terminates and ends with every unscoped buffer at the last valuation (`run_main`).
  Everything here is generic in the float instance: it is read at the word level and at the extended reals alike.
-/
import proofs.«177710_j40166534152779_1_alg».proof.Proof.Gen.KernelIdeal.Launch
import proofs.«177710_j40166534152779_1_alg».proof.Proof.Gen.KernelIdeal.Skeleton
import proofs.«177710_j40166534152779_1_alg».proof.Proof.Gen.KernelIdeal.Points
import Idealize.ShloMosaic.Lib.Pipeline.FrameBody
import Idealize.ShloMosaic.Lib.Pipeline.FrameSuffix
import Idealize.ShloMosaic.Lib.Pipeline.Regions
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host stretches before the region, as valuations -/

abbrev V₀ (c : Dev nD) : Valuation τ sig (Elt F) := fun b => m (c, b)
def V₁ (c : Dev nD) : Valuation τ sig (Elt F) := StableHlo.after hostOps0 (V₀ m c)
def V₂ (c : Dev nD) : Valuation τ sig (Elt F) := StableHlo.after hostOps0_1 (V₁ m c)
def V₃ (c : Dev nD) : Valuation τ sig (Elt F) := StableHlo.after hostOps0_2 (V₂ m c)
def V₄ (c : Dev nD) : Valuation τ sig (Elt F) := StableHlo.after hostOps0_3 (V₃ m c)
def V₅ (c : Dev nD) : Valuation τ sig (Elt F) := StableHlo.after hostOps0_4 (V₄ m c)
def V₆ (c : Dev nD) : Valuation τ sig (Elt F) := StableHlo.after hostOps0_5 (V₅ m c)
/-- The buffers as the region finds them. -/
def Ve (c : Dev nD) : Valuation τ sig (Elt F) := StableHlo.after hostOps0_6 (V₆ m c)

theorem fresh0 : ∀ op ∈ (hostOps0 : List (HloOp τ sig (Elt F))), op.fresh = ∅ :=
  List.forall_iff_forall_mem.mp (by simp only [List.Forall]; repeat' constructor)

theorem fresh1 : ∀ op ∈ (hostOps0_1 : List (HloOp τ sig (Elt F))), op.fresh = ∅ :=
  List.forall_iff_forall_mem.mp (by simp only [List.Forall]; repeat' constructor)
theorem fresh2 : ∀ op ∈ (hostOps0_2 : List (HloOp τ sig (Elt F))), op.fresh = ∅ :=
  List.forall_iff_forall_mem.mp (by simp only [List.Forall]; repeat' constructor)
theorem fresh3 : ∀ op ∈ (hostOps0_3 : List (HloOp τ sig (Elt F))), op.fresh = ∅ :=
  List.forall_iff_forall_mem.mp (by simp only [List.Forall]; repeat' constructor)
theorem fresh4 : ∀ op ∈ (hostOps0_4 : List (HloOp τ sig (Elt F))), op.fresh = ∅ :=
  List.forall_iff_forall_mem.mp (by simp only [List.Forall]; repeat' constructor)
theorem fresh5 : ∀ op ∈ (hostOps0_5 : List (HloOp τ sig (Elt F))), op.fresh = ∅ :=
  List.forall_iff_forall_mem.mp (by simp only [List.Forall]; repeat' constructor)
theorem fresh6 : ∀ op ∈ (hostOps0_6 : List (HloOp τ sig (Elt F))), op.fresh = ∅ :=
  List.forall_iff_forall_mem.mp (by simp only [List.Forall]; repeat' constructor)
theorem freshT : ∀ op ∈ (hostOps1 : List (HloOp τ sig (Elt F))), op.fresh = ∅ :=
  List.forall_iff_forall_mem.mp (by simp only [List.Forall]; repeat' constructor)

/-- No core owes another anything: no level is assigned. -/
abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev 𝒱₀ : Variants := Variants.none

/-- What rides beside the buffers through the host operations: the core's `owes`. -/
abbrev R (c : Dev nD) : sProp 𝕄 := iprop(∃ W, owes (c : Thread nD τ) (0 : CellTallies nD τ sig Unit) W)

abbrev ucR : Finset (DevRef τ sig) := Pipeline.ucRefs τ sig

/-- A host stretch over the unscoped buffers. -/
def hseg (ops : List (HloOp τ sig (Elt F))) (hsub : ops.Forall fun op => op.bufs ⊆ StableHlo.tcRefs τ sig)
    (hf : ∀ op ∈ ops, op.fresh = ∅) (V : Dev nD → Valuation τ sig (Elt F)) :
    Pipeline.HostSeg (Name := ℕ) (U := UR sig nD τ) (pcfgs (F := F)) defs₀ 𝒱₀ L lv :=
  Pipeline.HostSeg.ofOps _ _ _ _ _ ucR ops (fun op h => Pipeline.sub_ucRefs op ((List.forall_iff_forall_mem.mp hsub) op h)) hf V R

variable (dats : (p : Fin 1) → (c : Dev nD) → Dat τ (Elt F) Unit ℕ (UR sig nD τ) ℕ (cfgs p) c)

/-- The buffers as the region leaves them: the result's array at what the pipeline wrote back, every other buffer
    as the region found it. -/
def Vx (c : Dev nD) : Valuation τ sig (Elt F) :=
  Function.update (Ve m c) (Proc.devRef .tc main_v73) ((dats 0 c).arrAt 6 cfg0.N)

/-- What the region's launch asks of the proof data around the body, on every core: the windows' arrays at the proof
    data's shares made from the buffers the host stretches leave (three staged arrays are each read through two windows,
    so each is divided between its two readers; the result's buffer goes to its window whole); the invariant at the
    first point from the kernel's scratch buffer; the same given back at the last point; and the buffers put together
    again, the result's at what the pipeline wrote back. -/
structure Protocol : Prop where
  entry : ∀ c : Dev nD, iprop(iprop(StableHlo.held (c : Thread nD τ) ucR (Ve m c) ∗ R c)
        ∗ Pipeline.ownSems0 (Ix := Unit) (Name := ℕ) (U := UR sig nD τ) (Lvl := ℕ) (Val := Elt F) (τ := τ) (fun k : PEmpty => k.elim) c ∗ levAts L lv)
      ⊢ |={Set.univ}=> iprop((dats 0 c).arrays ((dats 0 c).arrAt · 0)
          ∗ Pipeline.prefHeld (Ix := Unit) (Name := ℕ) (U := UR sig nD τ) (Lvl := ℕ) (Val := Elt F) (pcfgs (F := F) 0).pre c (fun _ => fullShare) (adm (F := F) 0).1
          ∗ (dats 0 c).owesAt () 0 ∗ (BI.emp : sProp 𝕄)
          ∗ Pipeline.unscopedRest (Ix := Unit) (Name := ℕ) (U := UR sig nD τ) (Lvl := ℕ) spec0 c (fun b => Ve m c (Proc.devRef .tc b)))
  inv_in : ∀ c : Dev nD, iprop((BI.emp : sProp 𝕄)
        ∗ Pipeline.prefHeld (Ix := Unit) (Name := ℕ) (U := UR sig nD τ) (Lvl := ℕ) (Val := Elt F) (pcfgs (F := F) 0).pre c (fun _ => fullShare) (adm (F := F) 0).1
        ∗ Pipeline.scopedRest (Ix := Unit) (Name := ℕ) (U := UR sig nD τ) (Lvl := ℕ) (Val := Elt F) spec0 c) ⊢ (dats 0 c).Φ 0
  inv_out : ∀ c : Dev nD, (dats 0 c).Φ (Fin.last cfg0.N) ⊢ iprop((BI.emp : sProp 𝕄)
        ∗ Pipeline.ownSems0 (Ix := Unit) (Name := ℕ) (U := UR sig nD τ) (Lvl := ℕ) (Val := Elt F) (τ := τ) (fun k : PEmpty => k.elim) c
        ∗ Pipeline.scopedRest (Ix := Unit) (Name := ℕ) (U := UR sig nD τ) (Lvl := ℕ) (Val := Elt F) spec0 c)
  exit : ∀ c : Dev nD, iprop((dats 0 c).arrays ((dats 0 c).arrAt · cfg0.N) ∗ (dats 0 c).owesAt () (Fin.last cfg0.N) ∗ (BI.emp : sProp 𝕄)
        ∗ Pipeline.unscopedRest (Ix := Unit) (Name := ℕ) (U := UR sig nD τ) (Lvl := ℕ) spec0 c (fun b => Ve m c (Proc.devRef .tc b)))
      ⊢ |={Set.univ}=> iprop(StableHlo.held (c : Thread nD τ) ucR (Vx m dats c) ∗ R c)

set_option backward.isDefEq.respectTransparency.types false in
/-- THE REGION: its layout from the generated launch facts (the windows may share arrays), no semaphore of the kernel's
    own, the body obligation, and the protocol around it. -/
def reg0 (hbody : ∀ c, BodyObligation (dats 0 c) (defs₀ (F := F)) 𝒱₀ () Set.univ)
    (howed : ∀ c t, (dats 0 c).owed t = 0) (hprot : Protocol m dats) :
    Pipeline.RegionSeg (pcfgs (F := F)) adm dats () defs₀ 𝒱₀ L lv 0 where
  win := winFacts₀0
  block_pos := block_pos0
  stage_whole := stage_whole0
  K := PEmpty
  osem k := k.elim
  ho := Pipeline.OwnSemFacts.none _
  hbody c := (hbody c).loose
  hwaits := Pipeline.hwaits_of_owed_zero _ _ _ _ L lv 0 howed
  pre c := iprop(StableHlo.held (c : Thread nD τ) ucR (Ve m c) ∗ R c)
  post c := iprop(StableHlo.held (c : Thread nD τ) ucR (Vx m dats c) ∗ R c)
  X _ := BI.emp
  Y _ := BI.emp
  Z c := Pipeline.unscopedRest (Ix := Unit) (Name := ℕ) (U := UR sig nD τ) (Lvl := ℕ) spec0 c (fun b => Ve m c (Proc.devRef .tc b))
  hentry c := hprot.entry c
  hin c := hprot.inv_in c
  hout c := hprot.inv_out c
  hexit c := hprot.exit c

/-- The buffers at the end of @main. -/
def V₈ (c : Dev nD) : Valuation τ sig (Elt F) := StableHlo.after hostOps1 (Vx m dats c)

/-- @main as its nine segments. -/
abbrev segs (hbody : ∀ c, BodyObligation (dats 0 c) (defs₀ (F := F)) 𝒱₀ () Set.univ) (howed : ∀ c t, (dats 0 c).owed t = 0)
    (hprot : Protocol m dats) :
    List (Pipeline.Seg (pcfgs (F := F)) adm dats () defs₀ 𝒱₀ L lv) :=
  [.host (hseg hostOps0 hostOps0_sub fresh0 (V₀ m)), .host (hseg hostOps0_1 hostOps0_1_sub fresh1 (V₁ m)),
   .host (hseg hostOps0_2 hostOps0_2_sub fresh2 (V₂ m)), .host (hseg hostOps0_3 hostOps0_3_sub fresh3 (V₃ m)),
   .host (hseg hostOps0_4 hostOps0_4_sub fresh4 (V₄ m)), .host (hseg hostOps0_5 hostOps0_5_sub fresh5 (V₅ m)),
   .host (hseg hostOps0_6 hostOps0_6_sub fresh6 (V₆ m)), .region (reg0 m dats hbody howed hprot),
   .host (hseg hostOps1 hostOps1_sub freshT (Vx m dats))]

set_option maxRecDepth 65536 in
set_option backward.isDefEq.respectTransparency.types false in
/-- Every weakly fair execution of @main terminates, and every final state has each unscoped buffer at the last
    valuation. -/
theorem run_main (hbody : ∀ c, BodyObligation (dats 0 c) (defs₀ (F := F)) 𝒱₀ () Set.univ) (howed : ∀ c t, (dats 0 c).owed t = 0)
    (hprot : Protocol m dats) :
    θ_run defs (onTc (τ := τ) (main (F := F))) (s₀ m ρ)
      (fun r => ∀ c : Dev nD, ∀ b ∈ (ucR : Finset (DevRef τ sig)), r.2.mem ((c : Thread nD τ).1, b) = V₈ m dats c b) :=
  Pipeline.θ_run_regions_kit (pcfgs (F := F)) adm dats () cellOf_inj emb₁ defs₀ 𝒱₀ L lv m ρ main (segs m dats hbody howed hprot)
    (fun c Q => by
      rw [main_chain, Pipeline.Seg.run_eq_chain]
      simp only [segs, List.map_cons, List.map_nil, Pipeline.Seg.prog]
      exact .rfl)
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucR (V₀ m c) ∗ R c))
    (Tₙ := fun c => StableHlo.held (c : Thread nD τ) ucR (V₈ m dats c))
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) ucR (V₀ m c) from Pipeline.unscopedBufs_held c (V₀ m c)]
      iintro ⟨⟨Hh, -, HO, -, -, -⟩, -⟩
      imodintro
      isplitl [Hh]; · iexact Hh
      iexists ∅; iexact HO)
    (QY := fun c s => ∀ b ∈ (ucR : Finset (DevRef τ sig)), s.mem ((c : Thread nD τ).1, b) = V₈ m dats c b)
    (hfin := fun c s' => by
      unfold StableHlo.held
      refine (pointsTo_read_all ucR (fun b => (((c : Thread nD τ).1, b) : Loc nD τ sig)) (V₈ m dats c) s').trans ?_
      iintro ⟨%h, HSI⟩
      imodintro
      isplitr; · ipureintro; exact h
      iexact HSI)
    (hQ := fun _ h => h)

end Cert.KernelIdeal.Run

end
-- ==== Proof.KernelShares.lean ====
/-
  The staged arrays divided among their readers.

  The pallas_call is handed each of its three staged arrays twice (the centres, the tangents and the signed lengths each
  serve as the row side and as the column side of the pair sum), so two input windows lie on each array and the
  pipeline cannot hold every window's array at the full share. At the region's entry each shared buffer, held whole,
  is divided into two halves, one per window (`hsplit`); the windows only read, so after the last point the two halves
  still hold the entry contents and are put together again (`hjoin`). The result's buffer belongs to its one window
  whole, and ends at what the pipeline wrote back. Both lemmas are stated for any proof data with those shares and any
  valuation of the buffers, so nothing of the host operations is opened here.
-/
import proofs.«177710_j40166534152779_1_alg».proof.Proof.Gen.KernelIdeal.Launch
import proofs.«177710_j40166534152779_1_alg».proof.Proof.Gen.KernelIdeal.Skeleton
import proofs.«177710_j40166534152779_1_alg».proof.Proof.Gen.KernelIdeal.Points
import Idealize.ShloMosaic.Lib.Pipeline.FrameBody
import Idealize.ShloMosaic.Lib.Pipeline.FrameSuffix
import Idealize.ShloMosaic.Lib.Pipeline.Regions
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (dats : (p : Fin 1) → (c : Dev nD) → Dat τ (Elt F) Unit ℕ (UR sig nD τ) ℕ (cfgs p) c)

/-- Window `w`'s array as the arrays' conjunction holds it after `n` write-backs. -/
abbrev arrPt (c : Dev nD) (n : ℕ) (w : Fin cfg0.W) : sProp 𝕄 :=
  (cfg0.win w).arr.view.loc (c : Thread nD τ) ↦[(cfg0.win w).arr.view.set]{(dats 0 c).share w} (dats 0 c).arrAt w n

/-- An input window's array at entry: its buffer whole, at the window's share, at the entry contents. -/
theorem arrPt_in (c : Dev nD) (W : Valuation τ sig (Elt F)) (w : Fin cfg0.W) (hw : (cfg0.win w).isOut = false)
    (q : PosShare TreeShare) (hq : (dats 0 c).q w = q) (hA : (dats 0 c).A w = W (Proc.devRef .tc (Pipeline.arrRef spec0 w))) :
    arrPt dats c 0 w = (((c : Thread nD τ).loc (Pipeline.arrRef spec0 w)) ↦{q} W (Proc.devRef .tc (Pipeline.arrRef spec0 w)) : sProp 𝕄) := by
  unfold arrPt Dat.share
  rw [if_neg (by rw [hw]; decide), hq, (arr_whole0 w).set_eq_univ, show (dats 0 c).arrAt w 0 = W (Proc.devRef .tc (Pipeline.arrRef spec0 w)) from hA]

/-- An output window's array at entry: its buffer whole, at the full share, at the entry contents. -/
theorem arrPt_out (c : Dev nD) (W : Valuation τ sig (Elt F)) (w : Fin cfg0.W) (hw : (cfg0.win w).isOut = true)
    (hA : (dats 0 c).A w = W (Proc.devRef .tc (Pipeline.arrRef spec0 w))) :
    arrPt dats c 0 w = (((c : Thread nD τ).loc (Pipeline.arrRef spec0 w)) ↦{fullShare} W (Proc.devRef .tc (Pipeline.arrRef spec0 w)) : sProp 𝕄) := by
  unfold arrPt Dat.share
  rw [if_pos hw, (arr_whole0 w).set_eq_univ, show (dats 0 c).arrAt w 0 = W (Proc.devRef .tc (Pipeline.arrRef spec0 w)) from hA]

set_option maxHeartbeats 1600000 in
/-- The entry split, at any entry valuation `W`: the four distinct buffers behind the seven windows, each whole at the
    full share, are the windows' arrays at the proof data's shares — each staged array's two readers take one half
    each, the result's window takes its buffer whole. -/
theorem hsplit (c : Dev nD) (W : Valuation τ sig (Elt F))
    (hA : ∀ w, (dats 0 c).A w = W (Proc.devRef .tc (Pipeline.arrRef spec0 w)))
    (hq0 : (dats 0 c).q 0 = fullShare.left) (hq1 : (dats 0 c).q 1 = fullShare.right)
    (hq2 : (dats 0 c).q 2 = fullShare.left) (hq3 : (dats 0 c).q 3 = fullShare.right)
    (hq4 : (dats 0 c).q 4 = fullShare.left) (hq5 : (dats 0 c).q 5 = fullShare.right) :
    (Pipeline.arrBufs (Ix := Unit) (Name := ℕ) (U := UR sig nD τ) (Lvl := ℕ) spec0 c (fun b => W (Proc.devRef .tc b)) : sProp 𝕄)
      ⊢ (dats 0 c).arrays ((dats 0 c).arrAt · 0) := by
  have h70 : ((((c : Thread nD τ).loc main_v70) ↦{fullShare} W (Proc.devRef .tc main_v70)) : sProp 𝕄)
      ⊢ iprop(arrPt dats c 0 0 ∗ arrPt dats c 0 1) := by
    rw [arrPt_in dats c W 0 rfl _ hq0 (hA 0), arrPt_in dats c W 1 rfl _ hq1 (hA 1)]
    exact (pointsTo_share (PosShare.mem_left_op_right fullShare)).1
  have h71 : ((((c : Thread nD τ).loc main_v71) ↦{fullShare} W (Proc.devRef .tc main_v71)) : sProp 𝕄)
      ⊢ iprop(arrPt dats c 0 2 ∗ arrPt dats c 0 3) := by
    rw [arrPt_in dats c W 2 rfl _ hq2 (hA 2), arrPt_in dats c W 3 rfl _ hq3 (hA 3)]
    exact (pointsTo_share (PosShare.mem_left_op_right fullShare)).1
  have h72 : ((((c : Thread nD τ).loc main_v72) ↦{fullShare} W (Proc.devRef .tc main_v72)) : sProp 𝕄)
      ⊢ iprop(arrPt dats c 0 4 ∗ arrPt dats c 0 5) := by
    rw [arrPt_in dats c W 4 rfl _ hq4 (hA 4), arrPt_in dats c W 5 rfl _ hq5 (hA 5)]
    exact (pointsTo_share (PosShare.mem_left_op_right fullShare)).1
  have h73 : ((((c : Thread nD τ).loc main_v73) ↦{fullShare} W (Proc.devRef .tc main_v73)) : sProp 𝕄)
      ⊢ arrPt dats c 0 6 := by
    rw [arrPt_out dats c W 6 rfl (hA 6)]
  unfold Pipeline.arrBufs Dat.arrays
  rw [bigSep_W0]
  rw [show (Finset.univ.image (Pipeline.arrRef spec0)) = ({main_v70, main_v71, main_v72, main_v73} : Finset (Ref sig .tc)) from by decide]
  rw [BI.bigSep_insert (by decide), BI.bigSep_insert (by decide), BI.bigSep_insert (by decide), BI.bigSep_singleton]
  refine (BIClass.sep_mono h70 (BIClass.sep_mono h71 (BIClass.sep_mono h72 h73))).trans ?_
  iintro ⟨⟨H0, H1⟩, ⟨H2, H3⟩, ⟨H4, H5⟩, H6⟩
  isplitl [H0]; · iexact H0
  isplitl [H1]; · iexact H1
  isplitl [H2]; · iexact H2
  isplitl [H3]; · iexact H3
  isplitl [H4]; · iexact H4
  isplitl [H5]; · iexact H5
  iexact H6

/-- An input window's array after any number of write-backs is still its buffer at the entry contents. -/
theorem arrPt_in_n (c : Dev nD) (W : Valuation τ sig (Elt F)) (w : Fin cfg0.W) (hw : (cfg0.win w).isOut = false)
    (q : PosShare TreeShare) (hq : (dats 0 c).q w = q) (hA : (dats 0 c).A w = W (Proc.devRef .tc (Pipeline.arrRef spec0 w))) (n : ℕ) :
    arrPt dats c n w = (((c : Thread nD τ).loc (Pipeline.arrRef spec0 w)) ↦{q} W (Proc.devRef .tc (Pipeline.arrRef spec0 w)) : sProp 𝕄) := by
  unfold arrPt Dat.share
  rw [if_neg (by rw [hw]; decide), hq, (arr_whole0 w).set_eq_univ,
    show (dats 0 c).arrAt w n = W (Proc.devRef .tc (Pipeline.arrRef spec0 w)) from ((dats 0 c).arrAt_in w hw n).trans hA]

/-- An output window's array after `n` write-backs, its contents named. -/
theorem arrPt_out_n (c : Dev nD) (w : Fin cfg0.W) (hw : (cfg0.win w).isOut = true) (n : ℕ)
    (X : Buf (Elt F) ((c : Thread nD τ).loc (Pipeline.arrRef spec0 w))) (hX : (dats 0 c).arrAt w n = X) :
    arrPt dats c n w = (((c : Thread nD τ).loc (Pipeline.arrRef spec0 w)) ↦{fullShare} X : sProp 𝕄) := by
  unfold arrPt Dat.share
  rw [if_pos hw, (arr_whole0 w).set_eq_univ, hX]

set_option maxHeartbeats 1600000 in
/-- The exit join, at any valuation `W` that has the staged arrays at their entry contents and the result's array at
    what the pipeline wrote back: the windows' arrays after the last point are the four buffers whole again. -/
theorem hjoin (c : Dev nD) (W : Valuation τ sig (Elt F))
    (hA : ∀ w, (cfg0.win w).isOut = false → (dats 0 c).A w = W (Proc.devRef .tc (Pipeline.arrRef spec0 w)))
    (hout : (dats 0 c).arrAt 6 cfg0.N = W (Proc.devRef .tc main_v73))
    (hq0 : (dats 0 c).q 0 = fullShare.left) (hq1 : (dats 0 c).q 1 = fullShare.right)
    (hq2 : (dats 0 c).q 2 = fullShare.left) (hq3 : (dats 0 c).q 3 = fullShare.right)
    (hq4 : (dats 0 c).q 4 = fullShare.left) (hq5 : (dats 0 c).q 5 = fullShare.right) :
    (dats 0 c).arrays ((dats 0 c).arrAt · cfg0.N)
      ⊢ (Pipeline.arrBufs (Ix := Unit) (Name := ℕ) (U := UR sig nD τ) (Lvl := ℕ) spec0 c (fun b => W (Proc.devRef .tc b)) : sProp 𝕄) := by
  have h70 : iprop(arrPt dats c cfg0.N 0 ∗ arrPt dats c cfg0.N 1)
      ⊢ ((((c : Thread nD τ).loc main_v70) ↦{fullShare} W (Proc.devRef .tc main_v70)) : sProp 𝕄) := by
    rw [arrPt_in_n dats c W 0 rfl _ hq0 (hA 0 rfl), arrPt_in_n dats c W 1 rfl _ hq1 (hA 1 rfl)]
    exact (pointsTo_share (PosShare.mem_left_op_right fullShare)).2
  have h71 : iprop(arrPt dats c cfg0.N 2 ∗ arrPt dats c cfg0.N 3)
      ⊢ ((((c : Thread nD τ).loc main_v71) ↦{fullShare} W (Proc.devRef .tc main_v71)) : sProp 𝕄) := by
    rw [arrPt_in_n dats c W 2 rfl _ hq2 (hA 2 rfl), arrPt_in_n dats c W 3 rfl _ hq3 (hA 3 rfl)]
    exact (pointsTo_share (PosShare.mem_left_op_right fullShare)).2
  have h72 : iprop(arrPt dats c cfg0.N 4 ∗ arrPt dats c cfg0.N 5)
      ⊢ ((((c : Thread nD τ).loc main_v72) ↦{fullShare} W (Proc.devRef .tc main_v72)) : sProp 𝕄) := by
    rw [arrPt_in_n dats c W 4 rfl _ hq4 (hA 4 rfl), arrPt_in_n dats c W 5 rfl _ hq5 (hA 5 rfl)]
    exact (pointsTo_share (PosShare.mem_left_op_right fullShare)).2
  have h73 : arrPt dats c cfg0.N 6
      ⊢ ((((c : Thread nD τ).loc main_v73) ↦{fullShare} W (Proc.devRef .tc main_v73)) : sProp 𝕄) := by
    rw [arrPt_out_n dats c 6 rfl cfg0.N _ hout]
  unfold Pipeline.arrBufs Dat.arrays
  rw [bigSep_W0]
  rw [show (Finset.univ.image (Pipeline.arrRef spec0)) = ({main_v70, main_v71, main_v72, main_v73} : Finset (Ref sig .tc)) from by decide]
  rw [BI.bigSep_insert (by decide), BI.bigSep_insert (by decide), BI.bigSep_insert (by decide), BI.bigSep_singleton]
  refine BIBase.Entails.trans ?_ (BIClass.sep_mono h70 (BIClass.sep_mono h71 (BIClass.sep_mono h72 h73)))
  iintro ⟨H0, H1, H2, H3, H4, H5, H6⟩
  isplitl [H0 H1]; · isplitl [H0] <;> iassumption
  isplitl [H2 H3]; · isplitl [H2] <;> iassumption
  isplitl [H4 H5]; · isplitl [H4] <;> iassumption
  iexact H6

end Cert.KernelIdeal.Run

end
-- ==== Proof.KernelProtocol.lean ====
/-
  The protocol around the region, for any proof data of the right shape.

  `Shaped` says what the launch needs of the region's proof data and nothing about the body: the windows' arrays are the
  buffers as the host operations leave them; of each staged array's two readers one holds the left half and the other
  the right half of the share; the body owes no other core anything; and the region's invariant can be entered from,
  and gives back, the kernel's scratch buffer at some contents. From that the four entailments of `Protocol` follow:
  at entry the windows' arrays are split out of the unscoped buffers and the shared ones divided (`hsplit`); at exit
  they are put together again, the result's buffer at what the pipeline wrote back and every other buffer as found, which is
  the valuation `Vx` the host tail starts from.
-/
import proofs.«177710_j40166534152779_1_alg».proof.Proof.KernelRun
import proofs.«177710_j40166534152779_1_alg».proof.Proof.KernelShares

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
variable (dats : (p : Fin 1) → (c : Dev nD) → Dat τ (Elt F) Unit ℕ (UR sig nD τ) ℕ (cfgs p) c)

/-- What the protocol needs of the proof data, on every core. -/
structure Shaped : Prop where
  hA : ∀ (c : Dev nD) w, (dats 0 c).A w = Ve m c (Proc.devRef .tc (Pipeline.arrRef spec0 w))
  hq0 : ∀ c : Dev nD, (dats 0 c).q 0 = fullShare.left
  hq1 : ∀ c : Dev nD, (dats 0 c).q 1 = fullShare.right
  hq2 : ∀ c : Dev nD, (dats 0 c).q 2 = fullShare.left
  hq3 : ∀ c : Dev nD, (dats 0 c).q 3 = fullShare.right
  hq4 : ∀ c : Dev nD, (dats 0 c).q 4 = fullShare.left
  hq5 : ∀ c : Dev nD, (dats 0 c).q 5 = fullShare.right
  howed : ∀ (c : Dev nD) t, (dats 0 c).owed t = 0
  hrec : ∀ (c : Dev nD) t, (dats 0 c).recorded t = Set.univ
  hΦ0 : ∀ c : Dev nD, (Pipeline.scopedRest (Ix := Unit) (Name := ℕ) (U := UR sig nD τ) (Lvl := ℕ) (Val := Elt F) spec0 c : sProp 𝕄) ⊢ (dats 0 c).Φ 0
  hΦN : ∀ c : Dev nD, (dats 0 c).Φ (Fin.last cfg0.N) ⊢ (Pipeline.scopedRest (Ix := Unit) (Name := ℕ) (U := UR sig nD τ) (Lvl := ℕ) (Val := Elt F) spec0 c : sProp 𝕄)

set_option backward.isDefEq.respectTransparency.types false in
theorem protocol_entry (h : Shaped m dats) (c : Dev nD) :
    iprop(iprop(StableHlo.held (c : Thread nD τ) ucR (Ve m c) ∗ R c)
        ∗ Pipeline.ownSems0 (Ix := Unit) (Name := ℕ) (U := UR sig nD τ) (Lvl := ℕ) (Val := Elt F) (τ := τ) (fun k : PEmpty => k.elim) c ∗ levAts L lv)
      ⊢ |={Set.univ}=> iprop((dats 0 c).arrays ((dats 0 c).arrAt · 0)
          ∗ Pipeline.prefHeld (Ix := Unit) (Name := ℕ) (U := UR sig nD τ) (Lvl := ℕ) (Val := Elt F) (pcfgs (F := F) 0).pre c (fun _ => fullShare) (adm (F := F) 0).1
          ∗ (dats 0 c).owesAt () 0 ∗ (BI.emp : sProp 𝕄)
          ∗ Pipeline.unscopedRest (Ix := Unit) (Name := ℕ) (U := UR sig nD τ) (Lvl := ℕ) spec0 c (fun b => Ve m c (Proc.devRef .tc b))) := by
  rw [show StableHlo.held (c : Thread nD τ) ucR (Ve m c) = unscopedBufs c (fun b => Ve m c b) from (Pipeline.unscopedBufs_held c (Ve m c)).symm]
  rw [Pipeline.unscopedBufs_split₀ cfgs 0 winFacts₀0.arr_unscoped c]
  iintro ⟨⟨⟨Hab, Hrest⟩, HO⟩, -, -⟩
  ihave Ha := (hsplit dats c (Ve m c) (h.hA c) (h.hq0 c) (h.hq1 c) (h.hq2 c) (h.hq3 c) (h.hq4 c) (h.hq5 c)) $$ Hab
  imodintro
  isplitl [Ha]; · iexact Ha
  isplitr; · unfold Pipeline.prefHeld; rw [show (Finset.univ : Finset (Fin 0)) = ∅ from rfl, BI.bigSep_empty]; iempintro
  isplitl [HO]
  · unfold Pipeline.Dat.owesAt Pipeline.owesWithin
    rw [h.howed c 0]
    icases HO with ⟨%W, HO⟩; iexists W; isplitr
    · ipureintro; intro x _; exact Or.inl (by rw [h.hrec c 0]; trivial)
    iexact HO
  isplitr; · iempintro
  iexact Hrest

theorem protocol_in (h : Shaped m dats) (c : Dev nD) :
    iprop((BI.emp : sProp 𝕄)
        ∗ Pipeline.prefHeld (Ix := Unit) (Name := ℕ) (U := UR sig nD τ) (Lvl := ℕ) (Val := Elt F) (pcfgs (F := F) 0).pre c (fun _ => fullShare) (adm (F := F) 0).1
        ∗ Pipeline.scopedRest (Ix := Unit) (Name := ℕ) (U := UR sig nD τ) (Lvl := ℕ) (Val := Elt F) spec0 c) ⊢ (dats 0 c).Φ 0 := by
  refine BIBase.Entails.trans ?_ (h.hΦ0 c)
  iintro ⟨-, -, Hr⟩; iexact Hr

theorem protocol_out (h : Shaped m dats) (c : Dev nD) :
    (dats 0 c).Φ (Fin.last cfg0.N) ⊢ iprop((BI.emp : sProp 𝕄)
        ∗ Pipeline.ownSems0 (Ix := Unit) (Name := ℕ) (U := UR sig nD τ) (Lvl := ℕ) (Val := Elt F) (τ := τ) (fun k : PEmpty => k.elim) c
        ∗ Pipeline.scopedRest (Ix := Unit) (Name := ℕ) (U := UR sig nD τ) (Lvl := ℕ) (Val := Elt F) spec0 c) := by
  refine BIBase.Entails.trans (h.hΦN c) ?_
  rw [Pipeline.ownSems0_none]
  iintro Hr
  isplitr; · iempintro
  isplitr; · iempintro
  iexact Hr

/-- Off the result's buffer the region leaves every buffer as it found it. -/
theorem Vx_ne (c : Dev nD) (b : Ref sig .tc) (hb : b ≠ main_v73) :
    Vx m dats c (Proc.devRef .tc b) = Ve m c (Proc.devRef .tc b) := by
  unfold Vx
  exact Function.update_of_ne (fun e => hb (Proc.devRef_injective _ e)) _ _

/-- The result's buffer ends at what the pipeline wrote back. -/
theorem Vx_out (c : Dev nD) : Vx m dats c (Proc.devRef .tc main_v73) = (dats 0 c).arrAt 6 cfg0.N := by
  unfold Vx
  exact Function.update_self _ _ _

/-- No input window lies on the result's buffer. -/
theorem in_ne_out : ∀ w : Fin cfg0.W, (cfg0.win w).isOut = false → Pipeline.arrRef spec0 w ≠ main_v73 := by decide

set_option backward.isDefEq.respectTransparency.types false in
theorem protocol_exit (h : Shaped m dats) (c : Dev nD) :
    iprop((dats 0 c).arrays ((dats 0 c).arrAt · cfg0.N) ∗ (dats 0 c).owesAt () (Fin.last cfg0.N) ∗ (BI.emp : sProp 𝕄)
        ∗ Pipeline.unscopedRest (Ix := Unit) (Name := ℕ) (U := UR sig nD τ) (Lvl := ℕ) spec0 c (fun b => Ve m c (Proc.devRef .tc b)))
      ⊢ |={Set.univ}=> iprop(StableHlo.held (c : Thread nD τ) ucR (Vx m dats c) ∗ R c) := by
  rw [show StableHlo.held (c : Thread nD τ) ucR (Vx m dats c) = unscopedBufs c (fun b => Vx m dats c b) from (Pipeline.unscopedBufs_held c (Vx m dats c)).symm]
  rw [Pipeline.unscopedBufs_split₀ cfgs 0 winFacts₀0.arr_unscoped c]
  have hrest : (Pipeline.unscopedRest (Ix := Unit) (Name := ℕ) (U := UR sig nD τ) (Lvl := ℕ) spec0 c (fun b => Ve m c (Proc.devRef .tc b)) : sProp 𝕄)
      = Pipeline.unscopedRest (Ix := Unit) (Name := ℕ) (U := UR sig nD τ) (Lvl := ℕ) spec0 c (fun b => Vx m dats c (Proc.devRef .tc b)) := by
    unfold Pipeline.unscopedRest
    exact bigSep_congr fun b hb => by
      beta_reduce
      rw [Vx_ne m dats c b (fun e => (Finset.mem_sdiff.mp hb).2 (e ▸ Finset.mem_image.mpr ⟨6, Finset.mem_univ _, rfl⟩))]
  rw [hrest]
  iintro ⟨Ha, HO, -, Hrest⟩
  ihave Hab := (hjoin dats c (Vx m dats c)
      (fun w hw => (h.hA c w).trans (Vx_ne m dats c _ (in_ne_out w hw)).symm) (Vx_out m dats c).symm
      (h.hq0 c) (h.hq1 c) (h.hq2 c) (h.hq3 c) (h.hq4 c) (h.hq5 c)) $$ Ha
  imodintro
  isplitr [HO]
  · isplitl [Hab]; · iexact Hab
    iexact Hrest
  · unfold Pipeline.Dat.owesAt Pipeline.owesWithin
    rw [h.howed c (Fin.last cfg0.N)]
    icases HO with ⟨%W, -, HO⟩; iexists W; iexact HO

/-- The protocol, for any proof data of that shape. -/
theorem protocol_of (h : Shaped m dats) : Protocol m dats :=
  ⟨protocol_entry m dats h, protocol_in m dats h, protocol_out m dats h, protocol_exit m dats h⟩

end Cert.KernelIdeal.Run

end
-- ==== Proof.KernelBody.lean ====
/-
  The kernel body, run at one grid point, in each of the three cases its two conditionals make.

  The body first looks whether it is at the first tile of a sample (both tile coordinates zero) and, if so, stores a
  zero into the one-cell accumulator it keeps in scratch memory. It then loads its six blocks, forms the 1024 × 1024
  tile of pair terms, sums the tile over all its entries and adds the sum to the accumulator. Last it looks whether it is
  at the last tile of the sample (both tile coordinates three) and, if so, copies the accumulator into the output block.
  So at a first tile the accumulator ends at the tile's sum added to zero (`run_first`), at a middle tile at the sum
  added to what it held (`run_mid`), and at a last tile likewise, the output block then holding the same value
  (`run_last`); the six input buffers are read only, and the output buffer is untouched at all but last tiles. Both
  conditionals are functions of the grid point alone, decided here over the 128 points: a point is a first tile when its
  number is 0 modulo 16 and a last tile when it is 15 modulo 16, and the output window is written back at last tiles
  only. Everything is generic in the float instance.
-/
import proofs.«177710_j40166534152779_1_alg».proof.Proof.Gen.KernelIdeal.Launch
import proofs.«177710_j40166534152779_1_alg».proof.Proof.Gen.KernelIdeal.Skeleton
import proofs.«177710_j40166534152779_1_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- What ONE store through the whole-shape rectangle leaves in a buffer, read back, is its payload. -/
theorem read_store_whole {sig' : RefSig} {κ : Kind} {sp : Space} {Val : EltTy → Type} [∀ e, Nonempty (Val e)] {S : Shape} {e : EltTy}
    (v : View sig' κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero h inb y⟩), View.canon_unit_zero h]

/-- A store through the whole-shape rectangle, LAST, leaves its payload whatever was stored before. -/
theorem read_store_whole_cons {sig' : RefSig} {κ : Kind} {sp : Space} {Val : EltTy → Type} [∀ e, Nonempty (Val e)] {S : Shape} {e : EltTy}
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons.mpr (Or.inl rfl), View.mem_set_unit_zero h inb y⟩), View.canon_cons_unit_zero h]

/-- The first conditional of the body: the accumulator is reset at the first tile of a sample. -/
abbrev cond1 (i : grid0.Coords) : Prop :=
  Scalar.cmpi .ne (Scalar.extui (Scalar.andi (Scalar.cmpi .eq (BitVec.ofNat 32 (i 1).val) 0#32) (Scalar.cmpi .eq (BitVec.ofNat 32 (i 2).val) 0#32))) 0#32 = 1#1

/-- The tile the body forms from its six loaded blocks. -/
def tile (x0 x1 x2 x3 : Vec F S1x1x1024x3 .f32) (x4 x5 : Vec F S1x1x1024 .f32) : FVec F S1x1024x1024 .f32 :=
  k0_pay12 (k0_pay3 x0) (k0_pay4 x1) (k0_pay5 x2) (k0_pay6 x3) (k0_pay7 x4) (k0_pay8 x5) (k0_pay9 x0 x1) (k0_pay10 x0) (k0_pay11 x1)

set_option maxHeartbeats 4000000 in
/-- The first tile of a sample: the accumulator is reset to zero, then gains the tile's sum; the output's buffer is untouched. -/
theorem run_first (c : Dev nD) (i : grid0.Coords)
    (arg3 : Memref sig .tc .vmem S1x1x1024x3 .f32) (harg3 : arg3.IsWhole) (arg4 : Memref sig .tc .vmem S1x1x1024x3 .f32) (harg4 : arg4.IsWhole)
    (arg5 : Memref sig .tc .vmem S1x1x1024x3 .f32) (harg5 : arg5.IsWhole) (arg6 : Memref sig .tc .vmem S1x1x1024x3 .f32) (harg6 : arg6.IsWhole)
    (arg7 : Memref sig .tc .vmem S1x1x1024 .f32) (harg7 : arg7.IsWhole) (arg8 : Memref sig .tc .vmem S1x1x1024 .f32) (harg8 : arg8.IsWhole)
    (arg9 : Memref sig .tc .vmem S1x1x1 .f32) (harg9 : arg9.IsWhole) (arg10 : Memref sig .tc .vmem S1x1x1 .f32) (harg10 : arg10.IsWhole)
    (hc1 : cond1 i) (hc2 : ¬k0_cond2 i = 1#1)
    (x0 x1 x2 x3 : Vec F S1x1x1024x3 .f32) (x4 x5 : Vec F S1x1x1024 .f32) (o acc : Vec F S1x1x1 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare o ∗ owns (c : Thread nD τ) arg10 fullShare acc
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
            ∗ owns (c : Thread nD τ) arg9 fullShare (o) ∗ owns (c : Thread nD τ) arg10 fullShare (k0_pay1 (tile x0 x1 x2 x3 x4 x5) (k0_pay2 (F := F)))) -∗ K ⟨⟩))
      ⊢ wp frame (wpE (defs₀ (F := F)) Variants.none c none) E
          (cc0__vari_kernel i arg3 harg3 arg4 harg4 arg5 harg5 arg6 harg6 arg7 harg7 arg8 harg8 arg9 harg9 arg10 harg10) K := by
  simp only [cc0__vari_kernel_eq_skeleton]; unfold cc0__vari_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5; obtain rfl := harg9.eq_unread hf6; obtain rfl := harg10.eq_unread hf7
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr; swap; · iexact H7
  ipureintro
  have hz : (![0, 0, 0] : Fin S1x1x1.rank → ℕ) = fun _ => 0 := funext fun a => by fin_cases a <;> rfl
  sl_unfold_run_names
  rw [read_store_whole_cons _ _ hz, View.readCov_unit_zero _ hz]
  have hz4 : (![0, 0, 0, 0] : Fin S1x1x1024x3.rank → ℕ) = fun _ => 0 := funext fun a => by fin_cases a <;> rfl
  simp only [View.readAt_eq_ld, hf0, hf1, hf2, hf3, hf4, hf5, hf7, View.ld_unit_zero (S := S1x1x1024x3) hz4, View.ld_unit_zero (S := S1x1x1024) hz,
    View.ld_unit_zero (S := S1x1x1) hz]
  rfl

set_option maxHeartbeats 4000000 in
/-- A middle tile of a sample: neither conditional is taken; the accumulator gains the tile's sum, the output's buffer is untouched. -/
theorem run_mid (c : Dev nD) (i : grid0.Coords)
    (arg3 : Memref sig .tc .vmem S1x1x1024x3 .f32) (harg3 : arg3.IsWhole) (arg4 : Memref sig .tc .vmem S1x1x1024x3 .f32) (harg4 : arg4.IsWhole)
    (arg5 : Memref sig .tc .vmem S1x1x1024x3 .f32) (harg5 : arg5.IsWhole) (arg6 : Memref sig .tc .vmem S1x1x1024x3 .f32) (harg6 : arg6.IsWhole)
    (arg7 : Memref sig .tc .vmem S1x1x1024 .f32) (harg7 : arg7.IsWhole) (arg8 : Memref sig .tc .vmem S1x1x1024 .f32) (harg8 : arg8.IsWhole)
    (arg9 : Memref sig .tc .vmem S1x1x1 .f32) (harg9 : arg9.IsWhole) (arg10 : Memref sig .tc .vmem S1x1x1 .f32) (harg10 : arg10.IsWhole)
    (hc1 : ¬cond1 i) (hc2 : ¬k0_cond2 i = 1#1)
    (x0 x1 x2 x3 : Vec F S1x1x1024x3 .f32) (x4 x5 : Vec F S1x1x1024 .f32) (o acc : Vec F S1x1x1 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare o ∗ owns (c : Thread nD τ) arg10 fullShare acc
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
            ∗ owns (c : Thread nD τ) arg9 fullShare (o) ∗ owns (c : Thread nD τ) arg10 fullShare (k0_pay1 (tile x0 x1 x2 x3 x4 x5) acc)) -∗ K ⟨⟩))
      ⊢ wp frame (wpE (defs₀ (F := F)) Variants.none c none) E
          (cc0__vari_kernel i arg3 harg3 arg4 harg4 arg5 harg5 arg6 harg6 arg7 harg7 arg8 harg8 arg9 harg9 arg10 harg10) K := by
  simp only [cc0__vari_kernel_eq_skeleton]; unfold cc0__vari_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5; obtain rfl := harg9.eq_unread hf6; obtain rfl := harg10.eq_unread hf7
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr; swap; · iexact H7
  ipureintro
  have hz : (![0, 0, 0] : Fin S1x1x1.rank → ℕ) = fun _ => 0 := funext fun a => by fin_cases a <;> rfl
  sl_unfold_run_names
  rw [read_store_whole _ _ hz]
  have hz4 : (![0, 0, 0, 0] : Fin S1x1x1024x3.rank → ℕ) = fun _ => 0 := funext fun a => by fin_cases a <;> rfl
  simp only [View.readAt_eq_ld, hf0, hf1, hf2, hf3, hf4, hf5, hf7, View.ld_unit_zero (S := S1x1x1024x3) hz4, View.ld_unit_zero (S := S1x1x1024) hz,
    View.ld_unit_zero (S := S1x1x1) hz]
  rfl

set_option maxHeartbeats 4000000 in
/-- The last tile of a sample: the accumulator gains the tile's sum and is copied into the output's buffer. -/
theorem run_last (c : Dev nD) (i : grid0.Coords)
    (arg3 : Memref sig .tc .vmem S1x1x1024x3 .f32) (harg3 : arg3.IsWhole) (arg4 : Memref sig .tc .vmem S1x1x1024x3 .f32) (harg4 : arg4.IsWhole)
    (arg5 : Memref sig .tc .vmem S1x1x1024x3 .f32) (harg5 : arg5.IsWhole) (arg6 : Memref sig .tc .vmem S1x1x1024x3 .f32) (harg6 : arg6.IsWhole)
    (arg7 : Memref sig .tc .vmem S1x1x1024 .f32) (harg7 : arg7.IsWhole) (arg8 : Memref sig .tc .vmem S1x1x1024 .f32) (harg8 : arg8.IsWhole)
    (arg9 : Memref sig .tc .vmem S1x1x1 .f32) (harg9 : arg9.IsWhole) (arg10 : Memref sig .tc .vmem S1x1x1 .f32) (harg10 : arg10.IsWhole)
    (hc1 : ¬cond1 i) (hc2 : k0_cond2 i = 1#1)
    (x0 x1 x2 x3 : Vec F S1x1x1024x3 .f32) (x4 x5 : Vec F S1x1x1024 .f32) (o acc : Vec F S1x1x1 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare o ∗ owns (c : Thread nD τ) arg10 fullShare acc
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
            ∗ owns (c : Thread nD τ) arg9 fullShare (k0_pay1 (tile x0 x1 x2 x3 x4 x5) acc) ∗ owns (c : Thread nD τ) arg10 fullShare (k0_pay1 (tile x0 x1 x2 x3 x4 x5) acc)) -∗ K ⟨⟩))
      ⊢ wp frame (wpE (defs₀ (F := F)) Variants.none c none) E
          (cc0__vari_kernel i arg3 harg3 arg4 harg4 arg5 harg5 arg6 harg6 arg7 harg7 arg8 harg8 arg9 harg9 arg10 harg10) K := by
  simp only [cc0__vari_kernel_eq_skeleton]; unfold cc0__vari_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5; obtain rfl := harg9.eq_unread hf6; obtain rfl := harg10.eq_unread hf7
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  have hz : (![0, 0, 0] : Fin S1x1x1.rank → ℕ) = fun _ => 0 := funext fun a => by fin_cases a <;> rfl
  isplitl [H6]
  · iexists _; isplitr; swap; · iexact H6
    ipureintro
    sl_unfold_run_names
    rw [read_store_whole _ _ hz, View.readCov_unit_zero _ hz]
    have hz4 : (![0, 0, 0, 0] : Fin S1x1x1024x3.rank → ℕ) = fun _ => 0 := funext fun a => by fin_cases a <;> rfl
    simp only [View.readAt_eq_ld, hf0, hf1, hf2, hf3, hf4, hf5, hf7, View.ld_unit_zero (S := S1x1x1024x3) hz4, View.ld_unit_zero (S := S1x1x1024) hz,
      View.ld_unit_zero (S := S1x1x1) hz]
    rfl
  iexists _; isplitr; swap; · iexact H7
  ipureintro
  sl_unfold_run_names
  rw [read_store_whole _ _ hz]
  have hz4 : (![0, 0, 0, 0] : Fin S1x1x1024x3.rank → ℕ) = fun _ => 0 := funext fun a => by fin_cases a <;> rfl
  simp only [View.readAt_eq_ld, hf0, hf1, hf2, hf3, hf4, hf5, hf7, View.ld_unit_zero (S := S1x1x1024x3) hz4, View.ld_unit_zero (S := S1x1x1024) hz,
    View.ld_unit_zero (S := S1x1x1) hz]
  rfl

/-! ## The conditionals and the output window's schedule, over the grid -/

/-- The reset happens at the points numbered 0 modulo 16: the first tile of each sample. -/
theorem hcond1 : ∀ t : Fin cfg0.N, cond1 (grid0.coords t) ↔ t.val % 16 = 0 :=
  (by decide +kernel : ∀ t : Fin grid0.N, cond1 (grid0.coords t) ↔ t.val % 16 = 0)
/-- The copy to the output happens at the points numbered 15 modulo 16: the last tile of each sample. -/
theorem hcond2 : ∀ t : Fin cfg0.N, k0_cond2 (grid0.coords t) = 1#1 ↔ t.val % 16 = 15 :=
  (by decide +kernel : ∀ t : Fin grid0.N, k0_cond2 (grid0.coords t) = 1#1 ↔ t.val % 16 = 15)
/-- Elsewhere the output window is idle, -/
theorem idle6 : ∀ t : Fin cfg0.N, ¬t.val % 16 = 15 → cfg0.idle 6 (grid0.coords t) = true := by decide +kernel
/-- and its block is not written back; -/
theorem noflush6 : ∀ t : Fin cfg0.N, ¬t.val % 16 = 15 → (cfg0.win 6).flush t = false := by decide +kernel
/-- at a last tile it is live. -/
theorem live6 : ∀ t : Fin cfg0.N, t.val % 16 = 15 → cfg0.idle 6 (grid0.coords t) = false := by decide +kernel
/-- The six input windows are live at every point. -/
theorem liveIn : ∀ (w : Fin cfg0.W), w.val < 6 → ∀ t : Fin cfg0.N, cfg0.idle w (grid0.coords t) = false := by decide +kernel

end Cert.KernelIdeal.Body

end
-- ==== Proof.KernelData.lean ====
/-
  The pipeline's proof data for the kernel, the body obligation, and the kernel program's run.

  For each sample the sixteen grid points of its row add their tiles' sums into the scratch cell one after the other:
  `accAt n` is what the cell holds after point `n`, the tile's sum added to zero at a first tile and to what the point
  before left otherwise. The proof data says: every input window's buffer holds the window's block of its array, the
  output window's buffer holds the accumulator after a last tile, and the region's invariant carries the scratch cell at
  `accAt` of the point before. The body obligation follows point by point from the three runs of the body, the point's
  number modulo 16 selecting the case. With the protocol around the region this gives the run of the whole program.
-/
import proofs.«177710_j40166534152779_1_alg».proof.Proof.KernelRun
import proofs.«177710_j40166534152779_1_alg».proof.Proof.KernelProtocol
import proofs.«177710_j40166534152779_1_alg».proof.Proof.KernelBody

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The buffers as the region finds them, read at a TensorCore reference. -/
abbrev VeR (c : Dev nD) (b : Ref sig .tc) : Buf (Elt F) ((c : Thread nD τ).loc b) := Ve m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (VeR m c (Pipeline.arrRef spec0 w))

/-- The tile of pair terms the body forms at point `t`. -/
def tileAt (c : Dev nD) (t : Fin cfg0.N) : FVec F S1x1024x1024 .f32 :=
  Body.tile (iblk m c 0 t) (iblk m c 1 t) (iblk m c 2 t) (iblk m c 3 t) (iblk m c 4 t) (iblk m c 5 t)

/-- THE ACCUMULATION: what the scratch cell holds after the body at point `n` — the tile's sum added to zero at the
    first tile of a sample, to what the point before left otherwise. -/
def accAt (c : Dev nD) : (n : ℕ) → n < cfg0.N → Vec F S1x1x1 .f32
  | 0, hn => k0_pay1 (tileAt m c ⟨0, hn⟩) (k0_pay2 (F := F))
  | n + 1, hn => k0_pay1 (tileAt m c ⟨n + 1, hn⟩) (if (n + 1) % 16 = 0 then k0_pay2 (F := F) else accAt c n (Nat.lt_of_succ_lt hn))

/-- The kernel's scratch operand. -/
abbrev scM : Memref sig .tc .vmem S1x1x1 .f32 := Memref.whole cc0_scratch0

/-- The region's invariant before point `n`: before the first point the scratch cell at anything; afterwards at what the
    point before left in it. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM fullShare (accAt m c n hn)

/-- The proof data of the pipeline on core `c`. -/
def dats (_ : Fin 1) (c : Dev nD) : Dat τ (Elt F) Unit ℕ (UR sig nD τ) ℕ cfg0 c where
  A w := VeR m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => accAt m c t.val t.isLt
  Φ t := PhiS m c t.val (Nat.le_of_lt_succ t.isLt)
  q w := if w.val % 2 = 0 then fullShare.left else fullShare.right
  owed _ := 0

/-! ## The proof data, projected -/

theorem A_eq (c : Dev nD) (w : Fin cfg0.W) : (dats m 0 c).A w = VeR m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = accAt m c t.val t.isLt := by dsimp only [dats]

/-- Each input's current staging buffer holds its block at every point, fetched there or not: unfetched, the index has not
    moved. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)

/-! ## The staging memrefs at a point, as the pipeline passes them -/
abbrev ms0 (t : Fin cfg0.N) : Memref sig .tc .vmem S1x1x1024x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x1024x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x1024x3 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x1024x3 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x1 .f32 := win0_6.stage (cfg0.slots t 6)
abbrev hs6 (t : Fin cfg0.N) : (ms6 t).IsWhole := hstage0_6 ((cfg0.slots t 6).cast nbuf0_6)

/-! ## The invariant and the accumulation, point by point -/

theorem PhiS_castSucc (c : Dev nD) (t : Fin cfg0.N) :
    (dats m 0 c).Φ t.castSucc = PhiS m c t.val (Nat.le_of_lt t.isLt) := by
  dsimp only [dats]; simp only [Fin.coe_castSucc]

theorem PhiS_succ (c : Dev nD) (n : ℕ) (hn : n < cfg0.N) :
    PhiS m c (n + 1) hn = owns (c : Thread nD τ) scM fullShare (accAt m c n hn) := rfl

theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

/-- The scoped buffer no window stages is the scratch cell, at something. -/
theorem scoped_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

/-- Before any point the invariant holds the scratch cell at something. -/
theorem Phi_some (c : Dev nD) (t : Fin cfg0.N) : (dats m 0 c).Φ t.castSucc ⊢ iprop(∃ d, owns (c : Thread nD τ) scM fullShare d) := by
  rw [PhiS_castSucc]
  by_cases hz : t.val = 0
  · rw [PhiS_zero m c _ _ hz, scoped_eq]
  · rw [PhiS_pos m c _ _ hz]
    iintro H; iexists _; iexact H

/-- At the first tile of a sample the accumulator ends at the tile's sum added to zero. -/
theorem accAt_first (c : Dev nD) (t : Fin cfg0.N) (h0 : t.val % 16 = 0) :
    accAt m c t.val t.isLt = k0_pay1 (tileAt m c t) (k0_pay2 (F := F)) := by
  obtain ⟨n, hn⟩ := t
  cases n with
  | zero => rfl
  | succ n => exact congrArg (k0_pay1 (tileAt m c ⟨n + 1, hn⟩)) (if_pos h0)

/-- Elsewhere at the tile's sum added to what the point before left. -/
theorem accAt_next (c : Dev nD) (t : Fin cfg0.N) (h0 : ¬t.val % 16 = 0) :
    accAt m c t.val t.isLt = k0_pay1 (tileAt m c t) (accAt m c (t.val - 1) (Nat.lt_of_le_of_lt (Nat.sub_le _ _) t.isLt)) := by
  obtain ⟨n, hn⟩ := t
  cases n with
  | zero => exact absurd (Nat.zero_mod _) h0
  | succ n => exact congrArg (k0_pay1 (tileAt m c ⟨n + 1, hn⟩)) (if_neg h0)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t)

theorem leaves0 (c : Dev nD) (t : Fin cfg0.N) :
    (dats m 0 c).leavesExact 0 t = owns (c : Thread nD τ) (ms0 t) fullShare (iblk m c 0 t) := by
  unfold Dat.leavesExact; rw [liveIn 0 (by decide) t, after0]
theorem leaves1 (c : Dev nD) (t : Fin cfg0.N) :
    (dats m 0 c).leavesExact 1 t = owns (c : Thread nD τ) (ms1 t) fullShare (iblk m c 1 t) := by
  unfold Dat.leavesExact; rw [liveIn 1 (by decide) t, after1]
theorem leaves2 (c : Dev nD) (t : Fin cfg0.N) :
    (dats m 0 c).leavesExact 2 t = owns (c : Thread nD τ) (ms2 t) fullShare (iblk m c 2 t) := by
  unfold Dat.leavesExact; rw [liveIn 2 (by decide) t, after2]
theorem leaves3 (c : Dev nD) (t : Fin cfg0.N) :
    (dats m 0 c).leavesExact 3 t = owns (c : Thread nD τ) (ms3 t) fullShare (iblk m c 3 t) := by
  unfold Dat.leavesExact; rw [liveIn 3 (by decide) t, after3]
theorem leaves4 (c : Dev nD) (t : Fin cfg0.N) :
    (dats m 0 c).leavesExact 4 t = owns (c : Thread nD τ) (ms4 t) fullShare (iblk m c 4 t) := by
  unfold Dat.leavesExact; rw [liveIn 4 (by decide) t, after4]
theorem leaves5 (c : Dev nD) (t : Fin cfg0.N) :
    (dats m 0 c).leavesExact 5 t = owns (c : Thread nD τ) (ms5 t) fullShare (iblk m c 5 t) := by
  unfold Dat.leavesExact; rw [liveIn 5 (by decide) t, after5]

set_option maxHeartbeats 4800000 in
/-- The body at any point: the inputs' buffers hold their blocks; the point's number modulo 16 says which case it is
    in; the invariant hands the body the scratch cell (at anything before a first tile, at what the point before left
    otherwise) and takes it back at this point's value; the output's buffer comes back untouched except at a last tile,
    where it holds the accumulator. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5]
  by_cases h0 : t.val % 16 = 0
  · have h15 : ¬t.val % 16 = 15 := by omega
    rw [Dat.leavesExact_idle (dats m 0 c) 6 t (idle6 t h15) (noflush6 t h15), accAt_first m c t h0]
    unfold tileAt
    iintro ⟨HΦ, Ho, ⟨%d0, H0⟩, ⟨%d1, H1⟩, ⟨%d2, H2⟩, ⟨%d3, H3⟩, ⟨%d4, H4⟩, ⟨%d5, H5⟩, ⟨%d6, H6⟩⟩
    ihave HS := (Phi_some m c t) $$ HΦ
    icases HS with ⟨%a, HS⟩
    iapply (run_first c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcond1 t).mpr h0) (fun h => h15 ((hcond2 t).mp h)) (iblk m c 0 t) (iblk m c 1 t) (iblk m c 2 t) (iblk m c 3 t) (iblk m c 4 t) (iblk m c 5 t) _ a Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hz : t.val ≠ 0 := fun e => h0 (by rw [e])
    rw [accAt_next m c t h0, PhiS_castSucc, PhiS_pos m c _ _ hz]
    unfold tileAt
    by_cases h15 : t.val % 16 = 15
    · rw [show (dats m 0 c).leavesExact 6 t = owns (c : Thread nD τ) (ms6 t) fullShare ((dats m 0 c).after 6 t) from by
        unfold Dat.leavesExact; rw [live6 t h15], after6, accAt_next m c t h0]
      unfold tileAt
      iintro ⟨HS, Ho, ⟨%d0, H0⟩, ⟨%d1, H1⟩, ⟨%d2, H2⟩, ⟨%d3, H3⟩, ⟨%d4, H4⟩, ⟨%d5, H5⟩, ⟨%d6, H6⟩⟩
      iapply (run_last c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcond1 t).mp h)) ((hcond2 t).mpr h15) (iblk m c 0 t) (iblk m c 1 t) (iblk m c 2 t) (iblk m c 3 t) (iblk m c 4 t) (iblk m c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dats m 0 c) 6 t (idle6 t h15) (noflush6 t h15)]
      iintro ⟨HS, Ho, ⟨%d0, H0⟩, ⟨%d1, H1⟩, ⟨%d2, H2⟩, ⟨%d3, H3⟩, ⟨%d4, H4⟩, ⟨%d5, H5⟩, ⟨%d6, H6⟩⟩
      iapply (run_mid c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcond1 t).mp h)) (fun h => h15 ((hcond2 t).mp h)) (iblk m c 0 t) (iblk m c 1 t) (iblk m c 2 t) (iblk m c 3 t) (iblk m c 4 t) (iblk m c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

/-- The proof data has the shape the protocol around the region asks for. -/
theorem shaped : Shaped m (dats (F := F) m) where
  hA c w := A_eq m c w
  hq0 c := by dsimp only [dats]; rfl
  hq1 c := by dsimp only [dats]; rfl
  hq2 c := by dsimp only [dats]; rfl
  hq3 c := by dsimp only [dats]; rfl
  hq4 c := by dsimp only [dats]; rfl
  hq5 c := by dsimp only [dats]; rfl
  howed _ _ := rfl
  hrec _ _ := rfl
  hΦ0 c := by
    rw [show (dats m 0 c).Φ 0 = PhiS m c 0 (Nat.zero_le _) from rfl, PhiS_zero m c 0 _ rfl]
  hΦN c := by
    rw [show (dats m 0 c).Φ (Fin.last cfg0.N) = PhiS m c cfg0.N (le_refl _) from rfl, PhiS_pos m c _ _ (by decide), scoped_eq]
    iintro H; iexists _; iexact H

/-- Every weakly fair execution of the kernel program terminates, and ends with every unscoped buffer at the last
    valuation: the host operations' values computed from the buffers the region leaves, the result's array among them at
    what the pipeline wrote back. -/
theorem kernel_run (ρ : Dev nD → PrngReg) :
    θ_run defs (onTc (τ := τ) (main (F := F))) (s₀ m ρ)
      (fun r => ∀ c : Dev nD, ∀ b ∈ (ucR : Finset (DevRef τ sig)), r.2.mem ((c : Thread nD τ).1, b) = V₈ m (dats m) c b) :=
  run_main m ρ (dats m) (body_obligation m) (fun _ _ => rfl) (protocol_of m (dats m) (shaped m))

end Cert.KernelIdeal.Run

end
-- ==== Proof.KernelFrame.lean ====
/-
  The idealized kernel's frame.

  The kernel program's run ends with every unscoped buffer of the TensorCore at the last valuation. The five argument
  arrays are such buffers, and nothing writes them: each host operation writes the one buffer of its own result, which
  is never an argument, and the region changes the result's buffer only. So the last valuation at an argument is the
  launch memory there, whatever the arguments hold.
-/
import proofs.«177710_j40166534152779_1_alg».proof.Defs
import proofs.«177710_j40166534152779_1_alg».proof.Proof.KernelData
import proofs.«177710_j40166534152779_1_alg».proof.Proof.Gen.Pre_finite_inputs

set_option maxRecDepth 16384

noncomputable section

namespace Cert.KernelIdeal.Run

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

/-- The program's five argument arrays. -/
def isArg (b : Ref sig .tc) : Prop := b = main_arg0 ∨ b = main_arg1 ∨ b = main_arg2 ∨ b = main_arg3 ∨ b = main_arg4

/-! No host operation writes an argument array: each writes the one buffer of its own result. -/
theorem nowrite0 : ∀ op ∈ (hostOps0 : List (HloOp τ sig (Elt F))), ∀ b, isArg b → Proc.devRef .tc b ∉ op.writes :=
  List.forall_iff_forall_mem.mp (by
    simp only [List.Forall]
    repeat' constructor
    all_goals (rintro b (rfl | rfl | rfl | rfl | rfl) <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)))
theorem nowrite1 : ∀ op ∈ (hostOps0_1 : List (HloOp τ sig (Elt F))), ∀ b, isArg b → Proc.devRef .tc b ∉ op.writes :=
  List.forall_iff_forall_mem.mp (by
    simp only [List.Forall]
    repeat' constructor
    all_goals (rintro b (rfl | rfl | rfl | rfl | rfl) <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)))
theorem nowrite2 : ∀ op ∈ (hostOps0_2 : List (HloOp τ sig (Elt F))), ∀ b, isArg b → Proc.devRef .tc b ∉ op.writes :=
  List.forall_iff_forall_mem.mp (by
    simp only [List.Forall]
    repeat' constructor
    all_goals (rintro b (rfl | rfl | rfl | rfl | rfl) <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)))
theorem nowrite3 : ∀ op ∈ (hostOps0_3 : List (HloOp τ sig (Elt F))), ∀ b, isArg b → Proc.devRef .tc b ∉ op.writes :=
  List.forall_iff_forall_mem.mp (by
    simp only [List.Forall]
    repeat' constructor
    all_goals (rintro b (rfl | rfl | rfl | rfl | rfl) <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)))
theorem nowrite4 : ∀ op ∈ (hostOps0_4 : List (HloOp τ sig (Elt F))), ∀ b, isArg b → Proc.devRef .tc b ∉ op.writes :=
  List.forall_iff_forall_mem.mp (by
    simp only [List.Forall]
    repeat' constructor
    all_goals (rintro b (rfl | rfl | rfl | rfl | rfl) <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)))
theorem nowrite5 : ∀ op ∈ (hostOps0_5 : List (HloOp τ sig (Elt F))), ∀ b, isArg b → Proc.devRef .tc b ∉ op.writes :=
  List.forall_iff_forall_mem.mp (by
    simp only [List.Forall]
    repeat' constructor
    all_goals (rintro b (rfl | rfl | rfl | rfl | rfl) <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)))
theorem nowrite6 : ∀ op ∈ (hostOps0_6 : List (HloOp τ sig (Elt F))), ∀ b, isArg b → Proc.devRef .tc b ∉ op.writes :=
  List.forall_iff_forall_mem.mp (by
    simp only [List.Forall]
    repeat' constructor
    all_goals (rintro b (rfl | rfl | rfl | rfl | rfl) <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)))
theorem nowriteT : ∀ op ∈ (hostOps1 : List (HloOp τ sig (Elt F))), ∀ b, isArg b → Proc.devRef .tc b ∉ op.writes :=
  List.forall_iff_forall_mem.mp (by
    simp only [List.Forall]
    repeat' constructor
    all_goals (rintro b (rfl | rfl | rfl | rfl | rfl) <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)))

variable (m : (ℓ : Loc nD τ sig) → Buf (Elt F) ℓ)

/-- An argument array reaches the region as launched. -/
theorem keep_entry (c : Dev nD) (b : Ref sig .tc) (hb : isArg b) : Ve m c (Proc.devRef .tc b) = m (c, Proc.devRef .tc b) := by
  unfold Ve V₆ V₅ V₄ V₃ V₂ V₁
  rw [StableHlo.after_of_forall_not_mem _ _ (fun op hop => nowrite6 op hop b hb),
    StableHlo.after_of_forall_not_mem _ _ (fun op hop => nowrite5 op hop b hb),
    StableHlo.after_of_forall_not_mem _ _ (fun op hop => nowrite4 op hop b hb),
    StableHlo.after_of_forall_not_mem _ _ (fun op hop => nowrite3 op hop b hb),
    StableHlo.after_of_forall_not_mem _ _ (fun op hop => nowrite2 op hop b hb),
    StableHlo.after_of_forall_not_mem _ _ (fun op hop => nowrite1 op hop b hb),
    StableHlo.after_of_forall_not_mem _ _ (fun op hop => nowrite0 op hop b hb)]

/-- No argument array is the region's result. -/
theorem arg_ne_out (b : Ref sig .tc) (hb : isArg b) : b ≠ main_v73 := by
  rcases hb with rfl | rfl | rfl | rfl | rfl <;> decide

variable (dats : (p : Fin 1) → (c : Dev nD) → Dat τ (Elt F) Unit ℕ (UR sig nD τ) ℕ (cfgs p) c)

/-- An argument array ends as launched. -/
theorem keep_all (c : Dev nD) (b : Ref sig .tc) (hb : isArg b) : V₈ m dats c (Proc.devRef .tc b) = m (c, Proc.devRef .tc b) := by
  unfold V₈
  rw [StableHlo.after_of_forall_not_mem _ _ (fun op hop => nowriteT op hop b hb), Vx_ne m dats c b (arg_ne_out b hb)]
  exact keep_entry m c b hb

/-- The argument arrays are unscoped buffers of the TensorCore: the run's post speaks of them. -/
theorem mem_ucR (b : Ref sig .tc) (hb : isArg b) : Proc.devRef (τ := τ) .tc b ∈ (ucR : Finset (DevRef τ sig)) := by
  rcases hb with rfl | rfl | rfl | rfl | rfl <;>
    exact Finset.mem_filter.mpr ⟨StableHlo.devRef_mem_tcRefs _, by decide⟩

end Cert.KernelIdeal.Run

namespace Cert.Proof

open Cert.KernelIdeal Cert.KernelIdeal.Run Idealize.ShloMosaic Idealize.SL.Sem

/-- The idealized kernel runs to the end without a fault and leaves its five argument arrays unchanged: the run of the
    program ends with every unscoped buffer at the last valuation, and no host operation, nor the region, writes an
    argument. No hypothesis on the inputs is used. -/
theorem frame_kernelIdeal : Cert.frame_KernelIdeal := fun m ρ _ =>
  (θ_run Cert.KernelIdeal.defs _ _).mono (fun r h c =>
    ⟨(h c _ (mem_ucR main_arg0 (Or.inl rfl))).trans (keep_all m (dats m) c main_arg0 (Or.inl rfl)),
     (h c _ (mem_ucR main_arg1 (Or.inr (Or.inl rfl)))).trans (keep_all m (dats m) c main_arg1 (Or.inr (Or.inl rfl))),
     (h c _ (mem_ucR main_arg2 (Or.inr (Or.inr (Or.inl rfl))))).trans (keep_all m (dats m) c main_arg2 (Or.inr (Or.inr (Or.inl rfl)))),
     (h c _ (mem_ucR main_arg3 (Or.inr (Or.inr (Or.inr (Or.inl rfl)))))).trans (keep_all m (dats m) c main_arg3 (Or.inr (Or.inr (Or.inr (Or.inl rfl))))),
     (h c _ (mem_ucR main_arg4 (Or.inr (Or.inr (Or.inr (Or.inr rfl)))))).trans (keep_all m (dats m) c main_arg4 (Or.inr (Or.inr (Or.inr (Or.inr rfl)))))⟩)
    (kernel_run (F := Ideal) m ρ)

end Cert.Proof

end
-- ==== Proof.BitsRun.lean ====
/-
  The kernel program's run, reduced to what is the kernel's own.

  @main is seven stretches of host operations (the edge data of the two curves, their concatenation and zero padding,
  the unit axis added in front), the pallas_call's region, and a last stretch (the result's reshape, the regulariser
  and the mean over the samples). A host stretch writes only the buffers it names, so it takes the core's unscoped
  buffers from one valuation to the next (`V₀` … `Ve`); the region takes the buffers as it finds them to the same with
  the result's array at what the pipeline wrote back (`Vx`); the last stretch runs from there (`V₈`). The region's six
  input windows lie on three arrays, two windows on each, so the windows' arrays cannot be held each at the full share:
  the launch is stated with the layout facts that allow a shared array, and what it asks of the proof data around
  the body is collected in `Protocol`. For any proof data that meets the body obligation and that protocol, every
  weakly fair execution of @main terminates and ends with every unscoped buffer at the last valuation (`run_main`).
  Everything here is generic in the float instance: it is read at the word level and at the extended reals alike.
-/
import proofs.«177710_j40166534152779_1_alg».proof.Proof.Gen.Kernel.Launch
import proofs.«177710_j40166534152779_1_alg».proof.Proof.Gen.Kernel.Skeleton
import proofs.«177710_j40166534152779_1_alg».proof.Proof.Gen.Kernel.Points
import Idealize.ShloMosaic.Lib.Pipeline.FrameBody
import Idealize.ShloMosaic.Lib.Pipeline.FrameSuffix
import Idealize.ShloMosaic.Lib.Pipeline.Regions
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host stretches before the region, as valuations -/

abbrev V₀ (c : Dev nD) : Valuation τ sig (Elt F) := fun b => m (c, b)
def V₁ (c : Dev nD) : Valuation τ sig (Elt F) := StableHlo.after hostOps0 (V₀ m c)
def V₂ (c : Dev nD) : Valuation τ sig (Elt F) := StableHlo.after hostOps0_1 (V₁ m c)
def V₃ (c : Dev nD) : Valuation τ sig (Elt F) := StableHlo.after hostOps0_2 (V₂ m c)
def V₄ (c : Dev nD) : Valuation τ sig (Elt F) := StableHlo.after hostOps0_3 (V₃ m c)
def V₅ (c : Dev nD) : Valuation τ sig (Elt F) := StableHlo.after hostOps0_4 (V₄ m c)
def V₆ (c : Dev nD) : Valuation τ sig (Elt F) := StableHlo.after hostOps0_5 (V₅ m c)
/-- The buffers as the region finds them. -/
def Ve (c : Dev nD) : Valuation τ sig (Elt F) := StableHlo.after hostOps0_6 (V₆ m c)

theorem fresh0 : ∀ op ∈ (hostOps0 : List (HloOp τ sig (Elt F))), op.fresh = ∅ :=
  List.forall_iff_forall_mem.mp (by simp only [List.Forall]; repeat' constructor)

theorem fresh1 : ∀ op ∈ (hostOps0_1 : List (HloOp τ sig (Elt F))), op.fresh = ∅ :=
  List.forall_iff_forall_mem.mp (by simp only [List.Forall]; repeat' constructor)
theorem fresh2 : ∀ op ∈ (hostOps0_2 : List (HloOp τ sig (Elt F))), op.fresh = ∅ :=
  List.forall_iff_forall_mem.mp (by simp only [List.Forall]; repeat' constructor)
theorem fresh3 : ∀ op ∈ (hostOps0_3 : List (HloOp τ sig (Elt F))), op.fresh = ∅ :=
  List.forall_iff_forall_mem.mp (by simp only [List.Forall]; repeat' constructor)
theorem fresh4 : ∀ op ∈ (hostOps0_4 : List (HloOp τ sig (Elt F))), op.fresh = ∅ :=
  List.forall_iff_forall_mem.mp (by simp only [List.Forall]; repeat' constructor)
theorem fresh5 : ∀ op ∈ (hostOps0_5 : List (HloOp τ sig (Elt F))), op.fresh = ∅ :=
  List.forall_iff_forall_mem.mp (by simp only [List.Forall]; repeat' constructor)
theorem fresh6 : ∀ op ∈ (hostOps0_6 : List (HloOp τ sig (Elt F))), op.fresh = ∅ :=
  List.forall_iff_forall_mem.mp (by simp only [List.Forall]; repeat' constructor)
theorem freshT : ∀ op ∈ (hostOps1 : List (HloOp τ sig (Elt F))), op.fresh = ∅ :=
  List.forall_iff_forall_mem.mp (by simp only [List.Forall]; repeat' constructor)

/-- No core owes another anything: no level is assigned. -/
abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev 𝒱₀ : Variants := Variants.none

/-- What rides beside the buffers through the host operations: the core's `owes`. -/
abbrev R (c : Dev nD) : sProp 𝕄 := iprop(∃ W, owes (c : Thread nD τ) (0 : CellTallies nD τ sig Unit) W)

abbrev ucR : Finset (DevRef τ sig) := Pipeline.ucRefs τ sig

/-- A host stretch over the unscoped buffers. -/
def hseg (ops : List (HloOp τ sig (Elt F))) (hsub : ops.Forall fun op => op.bufs ⊆ StableHlo.tcRefs τ sig)
    (hf : ∀ op ∈ ops, op.fresh = ∅) (V : Dev nD → Valuation τ sig (Elt F)) :
    Pipeline.HostSeg (Name := ℕ) (U := UR sig nD τ) (pcfgs (F := F)) defs₀ 𝒱₀ L lv :=
  Pipeline.HostSeg.ofOps _ _ _ _ _ ucR ops (fun op h => Pipeline.sub_ucRefs op ((List.forall_iff_forall_mem.mp hsub) op h)) hf V R

variable (dats : (p : Fin 1) → (c : Dev nD) → Dat τ (Elt F) Unit ℕ (UR sig nD τ) ℕ (cfgs p) c)

/-- The buffers as the region leaves them: the result's array at what the pipeline wrote back, every other buffer
    as the region found it. -/
def Vx (c : Dev nD) : Valuation τ sig (Elt F) :=
  Function.update (Ve m c) (Proc.devRef .tc main_v73) ((dats 0 c).arrAt 6 cfg0.N)

/-- What the region's launch asks of the proof data around the body, on every core: the windows' arrays at the proof
    data's shares made from the buffers the host stretches leave (three staged arrays are each read through two windows,
    so each is divided between its two readers; the result's buffer goes to its window whole); the invariant at the
    first point from the kernel's scratch buffer; the same given back at the last point; and the buffers put together
    again, the result's at what the pipeline wrote back. -/
structure Protocol : Prop where
  entry : ∀ c : Dev nD, iprop(iprop(StableHlo.held (c : Thread nD τ) ucR (Ve m c) ∗ R c)
        ∗ Pipeline.ownSems0 (Ix := Unit) (Name := ℕ) (U := UR sig nD τ) (Lvl := ℕ) (Val := Elt F) (τ := τ) (fun k : PEmpty => k.elim) c ∗ levAts L lv)
      ⊢ |={Set.univ}=> iprop((dats 0 c).arrays ((dats 0 c).arrAt · 0)
          ∗ Pipeline.prefHeld (Ix := Unit) (Name := ℕ) (U := UR sig nD τ) (Lvl := ℕ) (Val := Elt F) (pcfgs (F := F) 0).pre c (fun _ => fullShare) (adm (F := F) 0).1
          ∗ (dats 0 c).owesAt () 0 ∗ (BI.emp : sProp 𝕄)
          ∗ Pipeline.unscopedRest (Ix := Unit) (Name := ℕ) (U := UR sig nD τ) (Lvl := ℕ) spec0 c (fun b => Ve m c (Proc.devRef .tc b)))
  inv_in : ∀ c : Dev nD, iprop((BI.emp : sProp 𝕄)
        ∗ Pipeline.prefHeld (Ix := Unit) (Name := ℕ) (U := UR sig nD τ) (Lvl := ℕ) (Val := Elt F) (pcfgs (F := F) 0).pre c (fun _ => fullShare) (adm (F := F) 0).1
        ∗ Pipeline.scopedRest (Ix := Unit) (Name := ℕ) (U := UR sig nD τ) (Lvl := ℕ) (Val := Elt F) spec0 c) ⊢ (dats 0 c).Φ 0
  inv_out : ∀ c : Dev nD, (dats 0 c).Φ (Fin.last cfg0.N) ⊢ iprop((BI.emp : sProp 𝕄)
        ∗ Pipeline.ownSems0 (Ix := Unit) (Name := ℕ) (U := UR sig nD τ) (Lvl := ℕ) (Val := Elt F) (τ := τ) (fun k : PEmpty => k.elim) c
        ∗ Pipeline.scopedRest (Ix := Unit) (Name := ℕ) (U := UR sig nD τ) (Lvl := ℕ) (Val := Elt F) spec0 c)
  exit : ∀ c : Dev nD, iprop((dats 0 c).arrays ((dats 0 c).arrAt · cfg0.N) ∗ (dats 0 c).owesAt () (Fin.last cfg0.N) ∗ (BI.emp : sProp 𝕄)
        ∗ Pipeline.unscopedRest (Ix := Unit) (Name := ℕ) (U := UR sig nD τ) (Lvl := ℕ) spec0 c (fun b => Ve m c (Proc.devRef .tc b)))
      ⊢ |={Set.univ}=> iprop(StableHlo.held (c : Thread nD τ) ucR (Vx m dats c) ∗ R c)

set_option backward.isDefEq.respectTransparency.types false in
/-- THE REGION: its layout from the generated launch facts (the windows may share arrays), no semaphore of the kernel's
    own, the body obligation, and the protocol around it. -/
def reg0 (hbody : ∀ c, BodyObligation (dats 0 c) (defs₀ (F := F)) 𝒱₀ () Set.univ)
    (howed : ∀ c t, (dats 0 c).owed t = 0) (hprot : Protocol m dats) :
    Pipeline.RegionSeg (pcfgs (F := F)) adm dats () defs₀ 𝒱₀ L lv 0 where
  win := winFacts₀0
  block_pos := block_pos0
  stage_whole := stage_whole0
  K := PEmpty
  osem k := k.elim
  ho := Pipeline.OwnSemFacts.none _
  hbody c := (hbody c).loose
  hwaits := Pipeline.hwaits_of_owed_zero _ _ _ _ L lv 0 howed
  pre c := iprop(StableHlo.held (c : Thread nD τ) ucR (Ve m c) ∗ R c)
  post c := iprop(StableHlo.held (c : Thread nD τ) ucR (Vx m dats c) ∗ R c)
  X _ := BI.emp
  Y _ := BI.emp
  Z c := Pipeline.unscopedRest (Ix := Unit) (Name := ℕ) (U := UR sig nD τ) (Lvl := ℕ) spec0 c (fun b => Ve m c (Proc.devRef .tc b))
  hentry c := hprot.entry c
  hin c := hprot.inv_in c
  hout c := hprot.inv_out c
  hexit c := hprot.exit c

/-- The buffers at the end of @main. -/
def V₈ (c : Dev nD) : Valuation τ sig (Elt F) := StableHlo.after hostOps1 (Vx m dats c)

/-- @main as its nine segments. -/
abbrev segs (hbody : ∀ c, BodyObligation (dats 0 c) (defs₀ (F := F)) 𝒱₀ () Set.univ) (howed : ∀ c t, (dats 0 c).owed t = 0)
    (hprot : Protocol m dats) :
    List (Pipeline.Seg (pcfgs (F := F)) adm dats () defs₀ 𝒱₀ L lv) :=
  [.host (hseg hostOps0 hostOps0_sub fresh0 (V₀ m)), .host (hseg hostOps0_1 hostOps0_1_sub fresh1 (V₁ m)),
   .host (hseg hostOps0_2 hostOps0_2_sub fresh2 (V₂ m)), .host (hseg hostOps0_3 hostOps0_3_sub fresh3 (V₃ m)),
   .host (hseg hostOps0_4 hostOps0_4_sub fresh4 (V₄ m)), .host (hseg hostOps0_5 hostOps0_5_sub fresh5 (V₅ m)),
   .host (hseg hostOps0_6 hostOps0_6_sub fresh6 (V₆ m)), .region (reg0 m dats hbody howed hprot),
   .host (hseg hostOps1 hostOps1_sub freshT (Vx m dats))]

set_option maxRecDepth 65536 in
set_option backward.isDefEq.respectTransparency.types false in
/-- Every weakly fair execution of @main terminates, and every final state has each unscoped buffer at the last
    valuation. -/
theorem run_main (hbody : ∀ c, BodyObligation (dats 0 c) (defs₀ (F := F)) 𝒱₀ () Set.univ) (howed : ∀ c t, (dats 0 c).owed t = 0)
    (hprot : Protocol m dats) :
    θ_run defs (onTc (τ := τ) (main (F := F))) (s₀ m ρ)
      (fun r => ∀ c : Dev nD, ∀ b ∈ (ucR : Finset (DevRef τ sig)), r.2.mem ((c : Thread nD τ).1, b) = V₈ m dats c b) :=
  Pipeline.θ_run_regions_kit (pcfgs (F := F)) adm dats () cellOf_inj emb₁ defs₀ 𝒱₀ L lv m ρ main (segs m dats hbody howed hprot)
    (fun c Q => by
      rw [main_chain, Pipeline.Seg.run_eq_chain]
      simp only [segs, List.map_cons, List.map_nil, Pipeline.Seg.prog]
      exact .rfl)
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucR (V₀ m c) ∗ R c))
    (Tₙ := fun c => StableHlo.held (c : Thread nD τ) ucR (V₈ m dats c))
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) ucR (V₀ m c) from Pipeline.unscopedBufs_held c (V₀ m c)]
      iintro ⟨⟨Hh, -, HO, -, -, -⟩, -⟩
      imodintro
      isplitl [Hh]; · iexact Hh
      iexists ∅; iexact HO)
    (QY := fun c s => ∀ b ∈ (ucR : Finset (DevRef τ sig)), s.mem ((c : Thread nD τ).1, b) = V₈ m dats c b)
    (hfin := fun c s' => by
      unfold StableHlo.held
      refine (pointsTo_read_all ucR (fun b => (((c : Thread nD τ).1, b) : Loc nD τ sig)) (V₈ m dats c) s').trans ?_
      iintro ⟨%h, HSI⟩
      imodintro
      isplitr; · ipureintro; exact h
      iexact HSI)
    (hQ := fun _ h => h)

end Cert.Kernel.Run

end
-- ==== Proof.BitsShares.lean ====
/-
  The staged arrays divided among their readers.

  The pallas_call is handed each of its three staged arrays twice (the centres, the tangents and the signed lengths each
  serve as the row side and as the column side of the pair sum), so two input windows lie on each array and the
  pipeline cannot hold every window's array at the full share. At the region's entry each shared buffer, held whole,
  is divided into two halves, one per window (`hsplit`); the windows only read, so after the last point the two halves
  still hold the entry contents and are put together again (`hjoin`). The result's buffer belongs to its one window
  whole, and ends at what the pipeline wrote back. Both lemmas are stated for any proof data with those shares and any
  valuation of the buffers, so nothing of the host operations is opened here.
-/
import proofs.«177710_j40166534152779_1_alg».proof.Proof.Gen.Kernel.Launch
import proofs.«177710_j40166534152779_1_alg».proof.Proof.Gen.Kernel.Skeleton
import proofs.«177710_j40166534152779_1_alg».proof.Proof.Gen.Kernel.Points
import Idealize.ShloMosaic.Lib.Pipeline.FrameBody
import Idealize.ShloMosaic.Lib.Pipeline.FrameSuffix
import Idealize.ShloMosaic.Lib.Pipeline.Regions
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (dats : (p : Fin 1) → (c : Dev nD) → Dat τ (Elt F) Unit ℕ (UR sig nD τ) ℕ (cfgs p) c)

/-- Window `w`'s array as the arrays' conjunction holds it after `n` write-backs. -/
abbrev arrPt (c : Dev nD) (n : ℕ) (w : Fin cfg0.W) : sProp 𝕄 :=
  (cfg0.win w).arr.view.loc (c : Thread nD τ) ↦[(cfg0.win w).arr.view.set]{(dats 0 c).share w} (dats 0 c).arrAt w n

/-- An input window's array at entry: its buffer whole, at the window's share, at the entry contents. -/
theorem arrPt_in (c : Dev nD) (W : Valuation τ sig (Elt F)) (w : Fin cfg0.W) (hw : (cfg0.win w).isOut = false)
    (q : PosShare TreeShare) (hq : (dats 0 c).q w = q) (hA : (dats 0 c).A w = W (Proc.devRef .tc (Pipeline.arrRef spec0 w))) :
    arrPt dats c 0 w = (((c : Thread nD τ).loc (Pipeline.arrRef spec0 w)) ↦{q} W (Proc.devRef .tc (Pipeline.arrRef spec0 w)) : sProp 𝕄) := by
  unfold arrPt Dat.share
  rw [if_neg (by rw [hw]; decide), hq, (arr_whole0 w).set_eq_univ, show (dats 0 c).arrAt w 0 = W (Proc.devRef .tc (Pipeline.arrRef spec0 w)) from hA]

/-- An output window's array at entry: its buffer whole, at the full share, at the entry contents. -/
theorem arrPt_out (c : Dev nD) (W : Valuation τ sig (Elt F)) (w : Fin cfg0.W) (hw : (cfg0.win w).isOut = true)
    (hA : (dats 0 c).A w = W (Proc.devRef .tc (Pipeline.arrRef spec0 w))) :
    arrPt dats c 0 w = (((c : Thread nD τ).loc (Pipeline.arrRef spec0 w)) ↦{fullShare} W (Proc.devRef .tc (Pipeline.arrRef spec0 w)) : sProp 𝕄) := by
  unfold arrPt Dat.share
  rw [if_pos hw, (arr_whole0 w).set_eq_univ, show (dats 0 c).arrAt w 0 = W (Proc.devRef .tc (Pipeline.arrRef spec0 w)) from hA]

set_option maxHeartbeats 1600000 in
/-- The entry split, at any entry valuation `W`: the four distinct buffers behind the seven windows, each whole at the
    full share, are the windows' arrays at the proof data's shares — each staged array's two readers take one half
    each, the result's window takes its buffer whole. -/
theorem hsplit (c : Dev nD) (W : Valuation τ sig (Elt F))
    (hA : ∀ w, (dats 0 c).A w = W (Proc.devRef .tc (Pipeline.arrRef spec0 w)))
    (hq0 : (dats 0 c).q 0 = fullShare.left) (hq1 : (dats 0 c).q 1 = fullShare.right)
    (hq2 : (dats 0 c).q 2 = fullShare.left) (hq3 : (dats 0 c).q 3 = fullShare.right)
    (hq4 : (dats 0 c).q 4 = fullShare.left) (hq5 : (dats 0 c).q 5 = fullShare.right) :
    (Pipeline.arrBufs (Ix := Unit) (Name := ℕ) (U := UR sig nD τ) (Lvl := ℕ) spec0 c (fun b => W (Proc.devRef .tc b)) : sProp 𝕄)
      ⊢ (dats 0 c).arrays ((dats 0 c).arrAt · 0) := by
  have h70 : ((((c : Thread nD τ).loc main_v70) ↦{fullShare} W (Proc.devRef .tc main_v70)) : sProp 𝕄)
      ⊢ iprop(arrPt dats c 0 0 ∗ arrPt dats c 0 1) := by
    rw [arrPt_in dats c W 0 rfl _ hq0 (hA 0), arrPt_in dats c W 1 rfl _ hq1 (hA 1)]
    exact (pointsTo_share (PosShare.mem_left_op_right fullShare)).1
  have h71 : ((((c : Thread nD τ).loc main_v71) ↦{fullShare} W (Proc.devRef .tc main_v71)) : sProp 𝕄)
      ⊢ iprop(arrPt dats c 0 2 ∗ arrPt dats c 0 3) := by
    rw [arrPt_in dats c W 2 rfl _ hq2 (hA 2), arrPt_in dats c W 3 rfl _ hq3 (hA 3)]
    exact (pointsTo_share (PosShare.mem_left_op_right fullShare)).1
  have h72 : ((((c : Thread nD τ).loc main_v72) ↦{fullShare} W (Proc.devRef .tc main_v72)) : sProp 𝕄)
      ⊢ iprop(arrPt dats c 0 4 ∗ arrPt dats c 0 5) := by
    rw [arrPt_in dats c W 4 rfl _ hq4 (hA 4), arrPt_in dats c W 5 rfl _ hq5 (hA 5)]
    exact (pointsTo_share (PosShare.mem_left_op_right fullShare)).1
  have h73 : ((((c : Thread nD τ).loc main_v73) ↦{fullShare} W (Proc.devRef .tc main_v73)) : sProp 𝕄)
      ⊢ arrPt dats c 0 6 := by
    rw [arrPt_out dats c W 6 rfl (hA 6)]
  unfold Pipeline.arrBufs Dat.arrays
  rw [bigSep_W0]
  rw [show (Finset.univ.image (Pipeline.arrRef spec0)) = ({main_v70, main_v71, main_v72, main_v73} : Finset (Ref sig .tc)) from by decide]
  rw [BI.bigSep_insert (by decide), BI.bigSep_insert (by decide), BI.bigSep_insert (by decide), BI.bigSep_singleton]
  refine (BIClass.sep_mono h70 (BIClass.sep_mono h71 (BIClass.sep_mono h72 h73))).trans ?_
  iintro ⟨⟨H0, H1⟩, ⟨H2, H3⟩, ⟨H4, H5⟩, H6⟩
  isplitl [H0]; · iexact H0
  isplitl [H1]; · iexact H1
  isplitl [H2]; · iexact H2
  isplitl [H3]; · iexact H3
  isplitl [H4]; · iexact H4
  isplitl [H5]; · iexact H5
  iexact H6

/-- An input window's array after any number of write-backs is still its buffer at the entry contents. -/
theorem arrPt_in_n (c : Dev nD) (W : Valuation τ sig (Elt F)) (w : Fin cfg0.W) (hw : (cfg0.win w).isOut = false)
    (q : PosShare TreeShare) (hq : (dats 0 c).q w = q) (hA : (dats 0 c).A w = W (Proc.devRef .tc (Pipeline.arrRef spec0 w))) (n : ℕ) :
    arrPt dats c n w = (((c : Thread nD τ).loc (Pipeline.arrRef spec0 w)) ↦{q} W (Proc.devRef .tc (Pipeline.arrRef spec0 w)) : sProp 𝕄) := by
  unfold arrPt Dat.share
  rw [if_neg (by rw [hw]; decide), hq, (arr_whole0 w).set_eq_univ,
    show (dats 0 c).arrAt w n = W (Proc.devRef .tc (Pipeline.arrRef spec0 w)) from ((dats 0 c).arrAt_in w hw n).trans hA]

/-- An output window's array after `n` write-backs, its contents named. -/
theorem arrPt_out_n (c : Dev nD) (w : Fin cfg0.W) (hw : (cfg0.win w).isOut = true) (n : ℕ)
    (X : Buf (Elt F) ((c : Thread nD τ).loc (Pipeline.arrRef spec0 w))) (hX : (dats 0 c).arrAt w n = X) :
    arrPt dats c n w = (((c : Thread nD τ).loc (Pipeline.arrRef spec0 w)) ↦{fullShare} X : sProp 𝕄) := by
  unfold arrPt Dat.share
  rw [if_pos hw, (arr_whole0 w).set_eq_univ, hX]

set_option maxHeartbeats 1600000 in
/-- The exit join, at any valuation `W` that has the staged arrays at their entry contents and the result's array at
    what the pipeline wrote back: the windows' arrays after the last point are the four buffers whole again. -/
theorem hjoin (c : Dev nD) (W : Valuation τ sig (Elt F))
    (hA : ∀ w, (cfg0.win w).isOut = false → (dats 0 c).A w = W (Proc.devRef .tc (Pipeline.arrRef spec0 w)))
    (hout : (dats 0 c).arrAt 6 cfg0.N = W (Proc.devRef .tc main_v73))
    (hq0 : (dats 0 c).q 0 = fullShare.left) (hq1 : (dats 0 c).q 1 = fullShare.right)
    (hq2 : (dats 0 c).q 2 = fullShare.left) (hq3 : (dats 0 c).q 3 = fullShare.right)
    (hq4 : (dats 0 c).q 4 = fullShare.left) (hq5 : (dats 0 c).q 5 = fullShare.right) :
    (dats 0 c).arrays ((dats 0 c).arrAt · cfg0.N)
      ⊢ (Pipeline.arrBufs (Ix := Unit) (Name := ℕ) (U := UR sig nD τ) (Lvl := ℕ) spec0 c (fun b => W (Proc.devRef .tc b)) : sProp 𝕄) := by
  have h70 : iprop(arrPt dats c cfg0.N 0 ∗ arrPt dats c cfg0.N 1)
      ⊢ ((((c : Thread nD τ).loc main_v70) ↦{fullShare} W (Proc.devRef .tc main_v70)) : sProp 𝕄) := by
    rw [arrPt_in_n dats c W 0 rfl _ hq0 (hA 0 rfl), arrPt_in_n dats c W 1 rfl _ hq1 (hA 1 rfl)]
    exact (pointsTo_share (PosShare.mem_left_op_right fullShare)).2
  have h71 : iprop(arrPt dats c cfg0.N 2 ∗ arrPt dats c cfg0.N 3)
      ⊢ ((((c : Thread nD τ).loc main_v71) ↦{fullShare} W (Proc.devRef .tc main_v71)) : sProp 𝕄) := by
    rw [arrPt_in_n dats c W 2 rfl _ hq2 (hA 2 rfl), arrPt_in_n dats c W 3 rfl _ hq3 (hA 3 rfl)]
    exact (pointsTo_share (PosShare.mem_left_op_right fullShare)).2
  have h72 : iprop(arrPt dats c cfg0.N 4 ∗ arrPt dats c cfg0.N 5)
      ⊢ ((((c : Thread nD τ).loc main_v72) ↦{fullShare} W (Proc.devRef .tc main_v72)) : sProp 𝕄) := by
    rw [arrPt_in_n dats c W 4 rfl _ hq4 (hA 4 rfl), arrPt_in_n dats c W 5 rfl _ hq5 (hA 5 rfl)]
    exact (pointsTo_share (PosShare.mem_left_op_right fullShare)).2
  have h73 : arrPt dats c cfg0.N 6
      ⊢ ((((c : Thread nD τ).loc main_v73) ↦{fullShare} W (Proc.devRef .tc main_v73)) : sProp 𝕄) := by
    rw [arrPt_out_n dats c 6 rfl cfg0.N _ hout]
  unfold Pipeline.arrBufs Dat.arrays
  rw [bigSep_W0]
  rw [show (Finset.univ.image (Pipeline.arrRef spec0)) = ({main_v70, main_v71, main_v72, main_v73} : Finset (Ref sig .tc)) from by decide]
  rw [BI.bigSep_insert (by decide), BI.bigSep_insert (by decide), BI.bigSep_insert (by decide), BI.bigSep_singleton]
  refine BIBase.Entails.trans ?_ (BIClass.sep_mono h70 (BIClass.sep_mono h71 (BIClass.sep_mono h72 h73)))
  iintro ⟨H0, H1, H2, H3, H4, H5, H6⟩
  isplitl [H0 H1]; · isplitl [H0] <;> iassumption
  isplitl [H2 H3]; · isplitl [H2] <;> iassumption
  isplitl [H4 H5]; · isplitl [H4] <;> iassumption
  iexact H6

end Cert.Kernel.Run

end
-- ==== Proof.BitsProtocol.lean ====
/-
  The protocol around the region, for any proof data of the right shape.

  `Shaped` says what the launch needs of the region's proof data and nothing about the body: the windows' arrays are the
  buffers as the host operations leave them; of each staged array's two readers one holds the left half and the other
  the right half of the share; the body owes no other core anything; and the region's invariant can be entered from,
  and gives back, the kernel's scratch buffer at some contents. From that the four entailments of `Protocol` follow:
  at entry the windows' arrays are split out of the unscoped buffers and the shared ones divided (`hsplit`); at exit
  they are put together again, the result's buffer at what the pipeline wrote back and every other buffer as found, which is
  the valuation `Vx` the host tail starts from.
-/
import proofs.«177710_j40166534152779_1_alg».proof.Proof.BitsRun
import proofs.«177710_j40166534152779_1_alg».proof.Proof.BitsShares

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
variable (dats : (p : Fin 1) → (c : Dev nD) → Dat τ (Elt F) Unit ℕ (UR sig nD τ) ℕ (cfgs p) c)

/-- What the protocol needs of the proof data, on every core. -/
structure Shaped : Prop where
  hA : ∀ (c : Dev nD) w, (dats 0 c).A w = Ve m c (Proc.devRef .tc (Pipeline.arrRef spec0 w))
  hq0 : ∀ c : Dev nD, (dats 0 c).q 0 = fullShare.left
  hq1 : ∀ c : Dev nD, (dats 0 c).q 1 = fullShare.right
  hq2 : ∀ c : Dev nD, (dats 0 c).q 2 = fullShare.left
  hq3 : ∀ c : Dev nD, (dats 0 c).q 3 = fullShare.right
  hq4 : ∀ c : Dev nD, (dats 0 c).q 4 = fullShare.left
  hq5 : ∀ c : Dev nD, (dats 0 c).q 5 = fullShare.right
  howed : ∀ (c : Dev nD) t, (dats 0 c).owed t = 0
  hrec : ∀ (c : Dev nD) t, (dats 0 c).recorded t = Set.univ
  hΦ0 : ∀ c : Dev nD, (Pipeline.scopedRest (Ix := Unit) (Name := ℕ) (U := UR sig nD τ) (Lvl := ℕ) (Val := Elt F) spec0 c : sProp 𝕄) ⊢ (dats 0 c).Φ 0
  hΦN : ∀ c : Dev nD, (dats 0 c).Φ (Fin.last cfg0.N) ⊢ (Pipeline.scopedRest (Ix := Unit) (Name := ℕ) (U := UR sig nD τ) (Lvl := ℕ) (Val := Elt F) spec0 c : sProp 𝕄)

set_option backward.isDefEq.respectTransparency.types false in
theorem protocol_entry (h : Shaped m dats) (c : Dev nD) :
    iprop(iprop(StableHlo.held (c : Thread nD τ) ucR (Ve m c) ∗ R c)
        ∗ Pipeline.ownSems0 (Ix := Unit) (Name := ℕ) (U := UR sig nD τ) (Lvl := ℕ) (Val := Elt F) (τ := τ) (fun k : PEmpty => k.elim) c ∗ levAts L lv)
      ⊢ |={Set.univ}=> iprop((dats 0 c).arrays ((dats 0 c).arrAt · 0)
          ∗ Pipeline.prefHeld (Ix := Unit) (Name := ℕ) (U := UR sig nD τ) (Lvl := ℕ) (Val := Elt F) (pcfgs (F := F) 0).pre c (fun _ => fullShare) (adm (F := F) 0).1
          ∗ (dats 0 c).owesAt () 0 ∗ (BI.emp : sProp 𝕄)
          ∗ Pipeline.unscopedRest (Ix := Unit) (Name := ℕ) (U := UR sig nD τ) (Lvl := ℕ) spec0 c (fun b => Ve m c (Proc.devRef .tc b))) := by
  rw [show StableHlo.held (c : Thread nD τ) ucR (Ve m c) = unscopedBufs c (fun b => Ve m c b) from (Pipeline.unscopedBufs_held c (Ve m c)).symm]
  rw [Pipeline.unscopedBufs_split₀ cfgs 0 winFacts₀0.arr_unscoped c]
  iintro ⟨⟨⟨Hab, Hrest⟩, HO⟩, -, -⟩
  ihave Ha := (hsplit dats c (Ve m c) (h.hA c) (h.hq0 c) (h.hq1 c) (h.hq2 c) (h.hq3 c) (h.hq4 c) (h.hq5 c)) $$ Hab
  imodintro
  isplitl [Ha]; · iexact Ha
  isplitr; · unfold Pipeline.prefHeld; rw [show (Finset.univ : Finset (Fin 0)) = ∅ from rfl, BI.bigSep_empty]; iempintro
  isplitl [HO]
  · unfold Pipeline.Dat.owesAt Pipeline.owesWithin
    rw [h.howed c 0]
    icases HO with ⟨%W, HO⟩; iexists W; isplitr
    · ipureintro; intro x _; exact Or.inl (by rw [h.hrec c 0]; trivial)
    iexact HO
  isplitr; · iempintro
  iexact Hrest

theorem protocol_in (h : Shaped m dats) (c : Dev nD) :
    iprop((BI.emp : sProp 𝕄)
        ∗ Pipeline.prefHeld (Ix := Unit) (Name := ℕ) (U := UR sig nD τ) (Lvl := ℕ) (Val := Elt F) (pcfgs (F := F) 0).pre c (fun _ => fullShare) (adm (F := F) 0).1
        ∗ Pipeline.scopedRest (Ix := Unit) (Name := ℕ) (U := UR sig nD τ) (Lvl := ℕ) (Val := Elt F) spec0 c) ⊢ (dats 0 c).Φ 0 := by
  refine BIBase.Entails.trans ?_ (h.hΦ0 c)
  iintro ⟨-, -, Hr⟩; iexact Hr

theorem protocol_out (h : Shaped m dats) (c : Dev nD) :
    (dats 0 c).Φ (Fin.last cfg0.N) ⊢ iprop((BI.emp : sProp 𝕄)
        ∗ Pipeline.ownSems0 (Ix := Unit) (Name := ℕ) (U := UR sig nD τ) (Lvl := ℕ) (Val := Elt F) (τ := τ) (fun k : PEmpty => k.elim) c
        ∗ Pipeline.scopedRest (Ix := Unit) (Name := ℕ) (U := UR sig nD τ) (Lvl := ℕ) (Val := Elt F) spec0 c) := by
  refine BIBase.Entails.trans (h.hΦN c) ?_
  rw [Pipeline.ownSems0_none]
  iintro Hr
  isplitr; · iempintro
  isplitr; · iempintro
  iexact Hr

/-- Off the result's buffer the region leaves every buffer as it found it. -/
theorem Vx_ne (c : Dev nD) (b : Ref sig .tc) (hb : b ≠ main_v73) :
    Vx m dats c (Proc.devRef .tc b) = Ve m c (Proc.devRef .tc b) := by
  unfold Vx
  exact Function.update_of_ne (fun e => hb (Proc.devRef_injective _ e)) _ _

/-- The result's buffer ends at what the pipeline wrote back. -/
theorem Vx_out (c : Dev nD) : Vx m dats c (Proc.devRef .tc main_v73) = (dats 0 c).arrAt 6 cfg0.N := by
  unfold Vx
  exact Function.update_self _ _ _

/-- No input window lies on the result's buffer. -/
theorem in_ne_out : ∀ w : Fin cfg0.W, (cfg0.win w).isOut = false → Pipeline.arrRef spec0 w ≠ main_v73 := by decide

set_option backward.isDefEq.respectTransparency.types false in
theorem protocol_exit (h : Shaped m dats) (c : Dev nD) :
    iprop((dats 0 c).arrays ((dats 0 c).arrAt · cfg0.N) ∗ (dats 0 c).owesAt () (Fin.last cfg0.N) ∗ (BI.emp : sProp 𝕄)
        ∗ Pipeline.unscopedRest (Ix := Unit) (Name := ℕ) (U := UR sig nD τ) (Lvl := ℕ) spec0 c (fun b => Ve m c (Proc.devRef .tc b)))
      ⊢ |={Set.univ}=> iprop(StableHlo.held (c : Thread nD τ) ucR (Vx m dats c) ∗ R c) := by
  rw [show StableHlo.held (c : Thread nD τ) ucR (Vx m dats c) = unscopedBufs c (fun b => Vx m dats c b) from (Pipeline.unscopedBufs_held c (Vx m dats c)).symm]
  rw [Pipeline.unscopedBufs_split₀ cfgs 0 winFacts₀0.arr_unscoped c]
  have hrest : (Pipeline.unscopedRest (Ix := Unit) (Name := ℕ) (U := UR sig nD τ) (Lvl := ℕ) spec0 c (fun b => Ve m c (Proc.devRef .tc b)) : sProp 𝕄)
      = Pipeline.unscopedRest (Ix := Unit) (Name := ℕ) (U := UR sig nD τ) (Lvl := ℕ) spec0 c (fun b => Vx m dats c (Proc.devRef .tc b)) := by
    unfold Pipeline.unscopedRest
    exact bigSep_congr fun b hb => by
      beta_reduce
      rw [Vx_ne m dats c b (fun e => (Finset.mem_sdiff.mp hb).2 (e ▸ Finset.mem_image.mpr ⟨6, Finset.mem_univ _, rfl⟩))]
  rw [hrest]
  iintro ⟨Ha, HO, -, Hrest⟩
  ihave Hab := (hjoin dats c (Vx m dats c)
      (fun w hw => (h.hA c w).trans (Vx_ne m dats c _ (in_ne_out w hw)).symm) (Vx_out m dats c).symm
      (h.hq0 c) (h.hq1 c) (h.hq2 c) (h.hq3 c) (h.hq4 c) (h.hq5 c)) $$ Ha
  imodintro
  isplitr [HO]
  · isplitl [Hab]; · iexact Hab
    iexact Hrest
  · unfold Pipeline.Dat.owesAt Pipeline.owesWithin
    rw [h.howed c (Fin.last cfg0.N)]
    icases HO with ⟨%W, -, HO⟩; iexists W; iexact HO

/-- The protocol, for any proof data of that shape. -/
theorem protocol_of (h : Shaped m dats) : Protocol m dats :=
  ⟨protocol_entry m dats h, protocol_in m dats h, protocol_out m dats h, protocol_exit m dats h⟩

end Cert.Kernel.Run

end
-- ==== Proof.BitsBody.lean ====
/-
  The kernel body, run at one grid point, in each of the three cases its two conditionals make.

  The body first looks whether it is at the first tile of a sample (both tile coordinates zero) and, if so, stores a
  zero into the one-cell accumulator it keeps in scratch memory. It then loads its six blocks, forms the 1024 × 1024
  tile of pair terms, sums the tile over all its entries and adds the sum to the accumulator. Last it looks whether it is
  at the last tile of the sample (both tile coordinates three) and, if so, copies the accumulator into the output block.
  So at a first tile the accumulator ends at the tile's sum added to zero (`run_first`), at a middle tile at the sum
  added to what it held (`run_mid`), and at a last tile likewise, the output block then holding the same value
  (`run_last`); the six input buffers are read only, and the output buffer is untouched at all but last tiles. Both
  conditionals are functions of the grid point alone, decided here over the 128 points: a point is a first tile when its
  number is 0 modulo 16 and a last tile when it is 15 modulo 16, and the output window is written back at last tiles
  only. Everything is generic in the float instance.
-/
import proofs.«177710_j40166534152779_1_alg».proof.Proof.Gen.Kernel.Launch
import proofs.«177710_j40166534152779_1_alg».proof.Proof.Gen.Kernel.Skeleton
import proofs.«177710_j40166534152779_1_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- What ONE store through the whole-shape rectangle leaves in a buffer, read back, is its payload. -/
theorem read_store_whole {sig' : RefSig} {κ : Kind} {sp : Space} {Val : EltTy → Type} [∀ e, Nonempty (Val e)] {S : Shape} {e : EltTy}
    (v : View sig' κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero h inb y⟩), View.canon_unit_zero h]

/-- A store through the whole-shape rectangle, LAST, leaves its payload whatever was stored before. -/
theorem read_store_whole_cons {sig' : RefSig} {κ : Kind} {sp : Space} {Val : EltTy → Type} [∀ e, Nonempty (Val e)] {S : Shape} {e : EltTy}
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons.mpr (Or.inl rfl), View.mem_set_unit_zero h inb y⟩), View.canon_cons_unit_zero h]

/-- The first conditional of the body: the accumulator is reset at the first tile of a sample. -/
abbrev cond1 (i : grid0.Coords) : Prop :=
  Scalar.cmpi .ne (Scalar.extui (Scalar.andi (Scalar.cmpi .eq (BitVec.ofNat 32 (i 1).val) 0#32) (Scalar.cmpi .eq (BitVec.ofNat 32 (i 2).val) 0#32))) 0#32 = 1#1

/-- The tile the body forms from its six loaded blocks. -/
def tile (x0 x1 x2 x3 : Vec F S1x1x1024x3 .f32) (x4 x5 : Vec F S1x1x1024 .f32) : FVec F S1x1024x1024 .f32 :=
  k0_pay12 (k0_pay3 x0) (k0_pay4 x1) (k0_pay5 x2) (k0_pay6 x3) (k0_pay7 x4) (k0_pay8 x5) (k0_pay9 x0 x1) (k0_pay10 x0) (k0_pay11 x1)

set_option maxHeartbeats 4000000 in
/-- The first tile of a sample: the accumulator is reset to zero, then gains the tile's sum; the output's buffer is untouched. -/
theorem run_first (c : Dev nD) (i : grid0.Coords)
    (arg3 : Memref sig .tc .vmem S1x1x1024x3 .f32) (harg3 : arg3.IsWhole) (arg4 : Memref sig .tc .vmem S1x1x1024x3 .f32) (harg4 : arg4.IsWhole)
    (arg5 : Memref sig .tc .vmem S1x1x1024x3 .f32) (harg5 : arg5.IsWhole) (arg6 : Memref sig .tc .vmem S1x1x1024x3 .f32) (harg6 : arg6.IsWhole)
    (arg7 : Memref sig .tc .vmem S1x1x1024 .f32) (harg7 : arg7.IsWhole) (arg8 : Memref sig .tc .vmem S1x1x1024 .f32) (harg8 : arg8.IsWhole)
    (arg9 : Memref sig .tc .vmem S1x1x1 .f32) (harg9 : arg9.IsWhole) (arg10 : Memref sig .tc .vmem S1x1x1 .f32) (harg10 : arg10.IsWhole)
    (hc1 : cond1 i) (hc2 : ¬k0_cond2 i = 1#1)
    (x0 x1 x2 x3 : Vec F S1x1x1024x3 .f32) (x4 x5 : Vec F S1x1x1024 .f32) (o acc : Vec F S1x1x1 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare o ∗ owns (c : Thread nD τ) arg10 fullShare acc
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
            ∗ owns (c : Thread nD τ) arg9 fullShare (o) ∗ owns (c : Thread nD τ) arg10 fullShare (k0_pay1 (tile x0 x1 x2 x3 x4 x5) (k0_pay2 (F := F)))) -∗ K ⟨⟩))
      ⊢ wp frame (wpE (defs₀ (F := F)) Variants.none c none) E
          (cc0__vari_kernel i arg3 harg3 arg4 harg4 arg5 harg5 arg6 harg6 arg7 harg7 arg8 harg8 arg9 harg9 arg10 harg10) K := by
  simp only [cc0__vari_kernel_eq_skeleton]; unfold cc0__vari_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5; obtain rfl := harg9.eq_unread hf6; obtain rfl := harg10.eq_unread hf7
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr; swap; · iexact H7
  ipureintro
  have hz : (![0, 0, 0] : Fin S1x1x1.rank → ℕ) = fun _ => 0 := funext fun a => by fin_cases a <;> rfl
  sl_unfold_run_names
  rw [read_store_whole_cons _ _ hz, View.readCov_unit_zero _ hz]
  have hz4 : (![0, 0, 0, 0] : Fin S1x1x1024x3.rank → ℕ) = fun _ => 0 := funext fun a => by fin_cases a <;> rfl
  simp only [View.readAt_eq_ld, hf0, hf1, hf2, hf3, hf4, hf5, hf7, View.ld_unit_zero (S := S1x1x1024x3) hz4, View.ld_unit_zero (S := S1x1x1024) hz,
    View.ld_unit_zero (S := S1x1x1) hz]
  rfl

set_option maxHeartbeats 4000000 in
/-- A middle tile of a sample: neither conditional is taken; the accumulator gains the tile's sum, the output's buffer is untouched. -/
theorem run_mid (c : Dev nD) (i : grid0.Coords)
    (arg3 : Memref sig .tc .vmem S1x1x1024x3 .f32) (harg3 : arg3.IsWhole) (arg4 : Memref sig .tc .vmem S1x1x1024x3 .f32) (harg4 : arg4.IsWhole)
    (arg5 : Memref sig .tc .vmem S1x1x1024x3 .f32) (harg5 : arg5.IsWhole) (arg6 : Memref sig .tc .vmem S1x1x1024x3 .f32) (harg6 : arg6.IsWhole)
    (arg7 : Memref sig .tc .vmem S1x1x1024 .f32) (harg7 : arg7.IsWhole) (arg8 : Memref sig .tc .vmem S1x1x1024 .f32) (harg8 : arg8.IsWhole)
    (arg9 : Memref sig .tc .vmem S1x1x1 .f32) (harg9 : arg9.IsWhole) (arg10 : Memref sig .tc .vmem S1x1x1 .f32) (harg10 : arg10.IsWhole)
    (hc1 : ¬cond1 i) (hc2 : ¬k0_cond2 i = 1#1)
    (x0 x1 x2 x3 : Vec F S1x1x1024x3 .f32) (x4 x5 : Vec F S1x1x1024 .f32) (o acc : Vec F S1x1x1 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare o ∗ owns (c : Thread nD τ) arg10 fullShare acc
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
            ∗ owns (c : Thread nD τ) arg9 fullShare (o) ∗ owns (c : Thread nD τ) arg10 fullShare (k0_pay1 (tile x0 x1 x2 x3 x4 x5) acc)) -∗ K ⟨⟩))
      ⊢ wp frame (wpE (defs₀ (F := F)) Variants.none c none) E
          (cc0__vari_kernel i arg3 harg3 arg4 harg4 arg5 harg5 arg6 harg6 arg7 harg7 arg8 harg8 arg9 harg9 arg10 harg10) K := by
  simp only [cc0__vari_kernel_eq_skeleton]; unfold cc0__vari_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5; obtain rfl := harg9.eq_unread hf6; obtain rfl := harg10.eq_unread hf7
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr; swap; · iexact H7
  ipureintro
  have hz : (![0, 0, 0] : Fin S1x1x1.rank → ℕ) = fun _ => 0 := funext fun a => by fin_cases a <;> rfl
  sl_unfold_run_names
  rw [read_store_whole _ _ hz]
  have hz4 : (![0, 0, 0, 0] : Fin S1x1x1024x3.rank → ℕ) = fun _ => 0 := funext fun a => by fin_cases a <;> rfl
  simp only [View.readAt_eq_ld, hf0, hf1, hf2, hf3, hf4, hf5, hf7, View.ld_unit_zero (S := S1x1x1024x3) hz4, View.ld_unit_zero (S := S1x1x1024) hz,
    View.ld_unit_zero (S := S1x1x1) hz]
  rfl

set_option maxHeartbeats 4000000 in
/-- The last tile of a sample: the accumulator gains the tile's sum and is copied into the output's buffer. -/
theorem run_last (c : Dev nD) (i : grid0.Coords)
    (arg3 : Memref sig .tc .vmem S1x1x1024x3 .f32) (harg3 : arg3.IsWhole) (arg4 : Memref sig .tc .vmem S1x1x1024x3 .f32) (harg4 : arg4.IsWhole)
    (arg5 : Memref sig .tc .vmem S1x1x1024x3 .f32) (harg5 : arg5.IsWhole) (arg6 : Memref sig .tc .vmem S1x1x1024x3 .f32) (harg6 : arg6.IsWhole)
    (arg7 : Memref sig .tc .vmem S1x1x1024 .f32) (harg7 : arg7.IsWhole) (arg8 : Memref sig .tc .vmem S1x1x1024 .f32) (harg8 : arg8.IsWhole)
    (arg9 : Memref sig .tc .vmem S1x1x1 .f32) (harg9 : arg9.IsWhole) (arg10 : Memref sig .tc .vmem S1x1x1 .f32) (harg10 : arg10.IsWhole)
    (hc1 : ¬cond1 i) (hc2 : k0_cond2 i = 1#1)
    (x0 x1 x2 x3 : Vec F S1x1x1024x3 .f32) (x4 x5 : Vec F S1x1x1024 .f32) (o acc : Vec F S1x1x1 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare o ∗ owns (c : Thread nD τ) arg10 fullShare acc
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
            ∗ owns (c : Thread nD τ) arg9 fullShare (k0_pay1 (tile x0 x1 x2 x3 x4 x5) acc) ∗ owns (c : Thread nD τ) arg10 fullShare (k0_pay1 (tile x0 x1 x2 x3 x4 x5) acc)) -∗ K ⟨⟩))
      ⊢ wp frame (wpE (defs₀ (F := F)) Variants.none c none) E
          (cc0__vari_kernel i arg3 harg3 arg4 harg4 arg5 harg5 arg6 harg6 arg7 harg7 arg8 harg8 arg9 harg9 arg10 harg10) K := by
  simp only [cc0__vari_kernel_eq_skeleton]; unfold cc0__vari_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5; obtain rfl := harg9.eq_unread hf6; obtain rfl := harg10.eq_unread hf7
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  have hz : (![0, 0, 0] : Fin S1x1x1.rank → ℕ) = fun _ => 0 := funext fun a => by fin_cases a <;> rfl
  isplitl [H6]
  · iexists _; isplitr; swap; · iexact H6
    ipureintro
    sl_unfold_run_names
    rw [read_store_whole _ _ hz, View.readCov_unit_zero _ hz]
    have hz4 : (![0, 0, 0, 0] : Fin S1x1x1024x3.rank → ℕ) = fun _ => 0 := funext fun a => by fin_cases a <;> rfl
    simp only [View.readAt_eq_ld, hf0, hf1, hf2, hf3, hf4, hf5, hf7, View.ld_unit_zero (S := S1x1x1024x3) hz4, View.ld_unit_zero (S := S1x1x1024) hz,
      View.ld_unit_zero (S := S1x1x1) hz]
    rfl
  iexists _; isplitr; swap; · iexact H7
  ipureintro
  sl_unfold_run_names
  rw [read_store_whole _ _ hz]
  have hz4 : (![0, 0, 0, 0] : Fin S1x1x1024x3.rank → ℕ) = fun _ => 0 := funext fun a => by fin_cases a <;> rfl
  simp only [View.readAt_eq_ld, hf0, hf1, hf2, hf3, hf4, hf5, hf7, View.ld_unit_zero (S := S1x1x1024x3) hz4, View.ld_unit_zero (S := S1x1x1024) hz,
    View.ld_unit_zero (S := S1x1x1) hz]
  rfl

/-! ## The conditionals and the output window's schedule, over the grid -/

/-- The reset happens at the points numbered 0 modulo 16: the first tile of each sample. -/
theorem hcond1 : ∀ t : Fin cfg0.N, cond1 (grid0.coords t) ↔ t.val % 16 = 0 :=
  (by decide +kernel : ∀ t : Fin grid0.N, cond1 (grid0.coords t) ↔ t.val % 16 = 0)
/-- The copy to the output happens at the points numbered 15 modulo 16: the last tile of each sample. -/
theorem hcond2 : ∀ t : Fin cfg0.N, k0_cond2 (grid0.coords t) = 1#1 ↔ t.val % 16 = 15 :=
  (by decide +kernel : ∀ t : Fin grid0.N, k0_cond2 (grid0.coords t) = 1#1 ↔ t.val % 16 = 15)
/-- Elsewhere the output window is idle, -/
theorem idle6 : ∀ t : Fin cfg0.N, ¬t.val % 16 = 15 → cfg0.idle 6 (grid0.coords t) = true := by decide +kernel
/-- and its block is not written back; -/
theorem noflush6 : ∀ t : Fin cfg0.N, ¬t.val % 16 = 15 → (cfg0.win 6).flush t = false := by decide +kernel
/-- at a last tile it is live. -/
theorem live6 : ∀ t : Fin cfg0.N, t.val % 16 = 15 → cfg0.idle 6 (grid0.coords t) = false := by decide +kernel
/-- The six input windows are live at every point. -/
theorem liveIn : ∀ (w : Fin cfg0.W), w.val < 6 → ∀ t : Fin cfg0.N, cfg0.idle w (grid0.coords t) = false := by decide +kernel

end Cert.Kernel.Body

end
-- ==== Proof.BitsData.lean ====
/-
  The pipeline's proof data for the kernel, the body obligation, and the kernel program's run.

  For each sample the sixteen grid points of its row add their tiles' sums into the scratch cell one after the other:
  `accAt n` is what the cell holds after point `n`, the tile's sum added to zero at a first tile and to what the point
  before left otherwise. The proof data says: every input window's buffer holds the window's block of its array, the
  output window's buffer holds the accumulator after a last tile, and the region's invariant carries the scratch cell at
  `accAt` of the point before. The body obligation follows point by point from the three runs of the body, the point's
  number modulo 16 selecting the case. With the protocol around the region this gives the run of the whole program.
-/
import proofs.«177710_j40166534152779_1_alg».proof.Proof.BitsRun
import proofs.«177710_j40166534152779_1_alg».proof.Proof.BitsProtocol
import proofs.«177710_j40166534152779_1_alg».proof.Proof.BitsBody

set_option maxRecDepth 16384

noncomputable section

namespace Cert.Kernel.Run

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The buffers as the region finds them, read at a TensorCore reference. -/
abbrev VeR (c : Dev nD) (b : Ref sig .tc) : Buf (Elt F) ((c : Thread nD τ).loc b) := Ve m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (VeR m c (Pipeline.arrRef spec0 w))

/-- The tile of pair terms the body forms at point `t`. -/
def tileAt (c : Dev nD) (t : Fin cfg0.N) : FVec F S1x1024x1024 .f32 :=
  Body.tile (iblk m c 0 t) (iblk m c 1 t) (iblk m c 2 t) (iblk m c 3 t) (iblk m c 4 t) (iblk m c 5 t)

/-- THE ACCUMULATION: what the scratch cell holds after the body at point `n` — the tile's sum added to zero at the
    first tile of a sample, to what the point before left otherwise. -/
def accAt (c : Dev nD) : (n : ℕ) → n < cfg0.N → Vec F S1x1x1 .f32
  | 0, hn => k0_pay1 (tileAt m c ⟨0, hn⟩) (k0_pay2 (F := F))
  | n + 1, hn => k0_pay1 (tileAt m c ⟨n + 1, hn⟩) (if (n + 1) % 16 = 0 then k0_pay2 (F := F) else accAt c n (Nat.lt_of_succ_lt hn))

/-- The kernel's scratch operand. -/
abbrev scM : Memref sig .tc .vmem S1x1x1 .f32 := Memref.whole cc0_scratch0

/-- The region's invariant before point `n`: before the first point the scratch cell at anything; afterwards at what the
    point before left in it. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM fullShare (accAt m c n hn)

/-- The proof data of the pipeline on core `c`. -/
def dats (_ : Fin 1) (c : Dev nD) : Dat τ (Elt F) Unit ℕ (UR sig nD τ) ℕ cfg0 c where
  A w := VeR m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => accAt m c t.val t.isLt
  Φ t := PhiS m c t.val (Nat.le_of_lt_succ t.isLt)
  q w := if w.val % 2 = 0 then fullShare.left else fullShare.right
  owed _ := 0

/-! ## The proof data, projected -/

theorem A_eq (c : Dev nD) (w : Fin cfg0.W) : (dats m 0 c).A w = VeR m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = accAt m c t.val t.isLt := by dsimp only [dats]

/-- Each input's current staging buffer holds its block at every point, fetched there or not: unfetched, the index has not
    moved. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)

/-! ## The staging memrefs at a point, as the pipeline passes them -/
abbrev ms0 (t : Fin cfg0.N) : Memref sig .tc .vmem S1x1x1024x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x1024x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x1024x3 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x1024x3 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x1 .f32 := win0_6.stage (cfg0.slots t 6)
abbrev hs6 (t : Fin cfg0.N) : (ms6 t).IsWhole := hstage0_6 ((cfg0.slots t 6).cast nbuf0_6)

/-! ## The invariant and the accumulation, point by point -/

theorem PhiS_castSucc (c : Dev nD) (t : Fin cfg0.N) :
    (dats m 0 c).Φ t.castSucc = PhiS m c t.val (Nat.le_of_lt t.isLt) := by
  dsimp only [dats]; simp only [Fin.coe_castSucc]

theorem PhiS_succ (c : Dev nD) (n : ℕ) (hn : n < cfg0.N) :
    PhiS m c (n + 1) hn = owns (c : Thread nD τ) scM fullShare (accAt m c n hn) := rfl

theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

/-- The scoped buffer no window stages is the scratch cell, at something. -/
theorem scoped_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

/-- Before any point the invariant holds the scratch cell at something. -/
theorem Phi_some (c : Dev nD) (t : Fin cfg0.N) : (dats m 0 c).Φ t.castSucc ⊢ iprop(∃ d, owns (c : Thread nD τ) scM fullShare d) := by
  rw [PhiS_castSucc]
  by_cases hz : t.val = 0
  · rw [PhiS_zero m c _ _ hz, scoped_eq]
  · rw [PhiS_pos m c _ _ hz]
    iintro H; iexists _; iexact H

/-- At the first tile of a sample the accumulator ends at the tile's sum added to zero. -/
theorem accAt_first (c : Dev nD) (t : Fin cfg0.N) (h0 : t.val % 16 = 0) :
    accAt m c t.val t.isLt = k0_pay1 (tileAt m c t) (k0_pay2 (F := F)) := by
  obtain ⟨n, hn⟩ := t
  cases n with
  | zero => rfl
  | succ n => exact congrArg (k0_pay1 (tileAt m c ⟨n + 1, hn⟩)) (if_pos h0)

/-- Elsewhere at the tile's sum added to what the point before left. -/
theorem accAt_next (c : Dev nD) (t : Fin cfg0.N) (h0 : ¬t.val % 16 = 0) :
    accAt m c t.val t.isLt = k0_pay1 (tileAt m c t) (accAt m c (t.val - 1) (Nat.lt_of_le_of_lt (Nat.sub_le _ _) t.isLt)) := by
  obtain ⟨n, hn⟩ := t
  cases n with
  | zero => exact absurd (Nat.zero_mod _) h0
  | succ n => exact congrArg (k0_pay1 (tileAt m c ⟨n + 1, hn⟩)) (if_neg h0)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t)

theorem leaves0 (c : Dev nD) (t : Fin cfg0.N) :
    (dats m 0 c).leavesExact 0 t = owns (c : Thread nD τ) (ms0 t) fullShare (iblk m c 0 t) := by
  unfold Dat.leavesExact; rw [liveIn 0 (by decide) t, after0]
theorem leaves1 (c : Dev nD) (t : Fin cfg0.N) :
    (dats m 0 c).leavesExact 1 t = owns (c : Thread nD τ) (ms1 t) fullShare (iblk m c 1 t) := by
  unfold Dat.leavesExact; rw [liveIn 1 (by decide) t, after1]
theorem leaves2 (c : Dev nD) (t : Fin cfg0.N) :
    (dats m 0 c).leavesExact 2 t = owns (c : Thread nD τ) (ms2 t) fullShare (iblk m c 2 t) := by
  unfold Dat.leavesExact; rw [liveIn 2 (by decide) t, after2]
theorem leaves3 (c : Dev nD) (t : Fin cfg0.N) :
    (dats m 0 c).leavesExact 3 t = owns (c : Thread nD τ) (ms3 t) fullShare (iblk m c 3 t) := by
  unfold Dat.leavesExact; rw [liveIn 3 (by decide) t, after3]
theorem leaves4 (c : Dev nD) (t : Fin cfg0.N) :
    (dats m 0 c).leavesExact 4 t = owns (c : Thread nD τ) (ms4 t) fullShare (iblk m c 4 t) := by
  unfold Dat.leavesExact; rw [liveIn 4 (by decide) t, after4]
theorem leaves5 (c : Dev nD) (t : Fin cfg0.N) :
    (dats m 0 c).leavesExact 5 t = owns (c : Thread nD τ) (ms5 t) fullShare (iblk m c 5 t) := by
  unfold Dat.leavesExact; rw [liveIn 5 (by decide) t, after5]

set_option maxHeartbeats 4800000 in
/-- The body at any point: the inputs' buffers hold their blocks; the point's number modulo 16 says which case it is
    in; the invariant hands the body the scratch cell (at anything before a first tile, at what the point before left
    otherwise) and takes it back at this point's value; the output's buffer comes back untouched except at a last tile,
    where it holds the accumulator. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5]
  by_cases h0 : t.val % 16 = 0
  · have h15 : ¬t.val % 16 = 15 := by omega
    rw [Dat.leavesExact_idle (dats m 0 c) 6 t (idle6 t h15) (noflush6 t h15), accAt_first m c t h0]
    unfold tileAt
    iintro ⟨HΦ, Ho, ⟨%d0, H0⟩, ⟨%d1, H1⟩, ⟨%d2, H2⟩, ⟨%d3, H3⟩, ⟨%d4, H4⟩, ⟨%d5, H5⟩, ⟨%d6, H6⟩⟩
    ihave HS := (Phi_some m c t) $$ HΦ
    icases HS with ⟨%a, HS⟩
    iapply (run_first c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcond1 t).mpr h0) (fun h => h15 ((hcond2 t).mp h)) (iblk m c 0 t) (iblk m c 1 t) (iblk m c 2 t) (iblk m c 3 t) (iblk m c 4 t) (iblk m c 5 t) _ a Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hz : t.val ≠ 0 := fun e => h0 (by rw [e])
    rw [accAt_next m c t h0, PhiS_castSucc, PhiS_pos m c _ _ hz]
    unfold tileAt
    by_cases h15 : t.val % 16 = 15
    · rw [show (dats m 0 c).leavesExact 6 t = owns (c : Thread nD τ) (ms6 t) fullShare ((dats m 0 c).after 6 t) from by
        unfold Dat.leavesExact; rw [live6 t h15], after6, accAt_next m c t h0]
      unfold tileAt
      iintro ⟨HS, Ho, ⟨%d0, H0⟩, ⟨%d1, H1⟩, ⟨%d2, H2⟩, ⟨%d3, H3⟩, ⟨%d4, H4⟩, ⟨%d5, H5⟩, ⟨%d6, H6⟩⟩
      iapply (run_last c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcond1 t).mp h)) ((hcond2 t).mpr h15) (iblk m c 0 t) (iblk m c 1 t) (iblk m c 2 t) (iblk m c 3 t) (iblk m c 4 t) (iblk m c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dats m 0 c) 6 t (idle6 t h15) (noflush6 t h15)]
      iintro ⟨HS, Ho, ⟨%d0, H0⟩, ⟨%d1, H1⟩, ⟨%d2, H2⟩, ⟨%d3, H3⟩, ⟨%d4, H4⟩, ⟨%d5, H5⟩, ⟨%d6, H6⟩⟩
      iapply (run_mid c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcond1 t).mp h)) (fun h => h15 ((hcond2 t).mp h)) (iblk m c 0 t) (iblk m c 1 t) (iblk m c 2 t) (iblk m c 3 t) (iblk m c 4 t) (iblk m c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

/-- The proof data has the shape the protocol around the region asks for. -/
theorem shaped : Shaped m (dats (F := F) m) where
  hA c w := A_eq m c w
  hq0 c := by dsimp only [dats]; rfl
  hq1 c := by dsimp only [dats]; rfl
  hq2 c := by dsimp only [dats]; rfl
  hq3 c := by dsimp only [dats]; rfl
  hq4 c := by dsimp only [dats]; rfl
  hq5 c := by dsimp only [dats]; rfl
  howed _ _ := rfl
  hrec _ _ := rfl
  hΦ0 c := by
    rw [show (dats m 0 c).Φ 0 = PhiS m c 0 (Nat.zero_le _) from rfl, PhiS_zero m c 0 _ rfl]
  hΦN c := by
    rw [show (dats m 0 c).Φ (Fin.last cfg0.N) = PhiS m c cfg0.N (le_refl _) from rfl, PhiS_pos m c _ _ (by decide), scoped_eq]
    iintro H; iexists _; iexact H

/-- Every weakly fair execution of the kernel program terminates, and ends with every unscoped buffer at the last
    valuation: the host operations' values computed from the buffers the region leaves, the result's array among them at
    what the pipeline wrote back. -/
theorem kernel_run (ρ : Dev nD → PrngReg) :
    θ_run defs (onTc (τ := τ) (main (F := F))) (s₀ m ρ)
      (fun r => ∀ c : Dev nD, ∀ b ∈ (ucR : Finset (DevRef τ sig)), r.2.mem ((c : Thread nD τ).1, b) = V₈ m (dats m) c b) :=
  run_main m ρ (dats m) (body_obligation m) (fun _ _ => rfl) (protocol_of m (dats m) (shaped m))

end Cert.Kernel.Run

end
-- ==== Proof.BitsFrame.lean ====
/-
  The word-level kernel's frame: the same argument as for the idealized kernel, the program read at the machine's words.

  The kernel program's run ends with every unscoped buffer of the TensorCore at the last valuation. The five argument
  arrays are such buffers, and nothing writes them: each host operation writes the one buffer of its own result, which
  is never an argument, and the region changes the result's buffer only. So the last valuation at an argument is the
  launch memory there, whatever the arguments hold.
-/
import proofs.«177710_j40166534152779_1_alg».proof.Defs
import proofs.«177710_j40166534152779_1_alg».proof.Proof.BitsData
import proofs.«177710_j40166534152779_1_alg».proof.Proof.Gen.Pre_finite_inputs

set_option maxRecDepth 16384

noncomputable section

namespace Cert.Kernel.Run

open Cert.Kernel Cert.Kernel.Gen
open Idealize.ShloMosaic Idealize.ShloMosaic.TcCoe
open Idealize.SL Idealize.SL.Sem
open Idealize.ShloMosaic.Pipeline (Dat)

variable {F : FTy → Type} [FloatOps F]

/-- The program's five argument arrays. -/
def isArg (b : Ref sig .tc) : Prop := b = main_arg0 ∨ b = main_arg1 ∨ b = main_arg2 ∨ b = main_arg3 ∨ b = main_arg4

/-! No host operation writes an argument array: each writes the one buffer of its own result. -/
theorem nowrite0 : ∀ op ∈ (hostOps0 : List (HloOp τ sig (Elt F))), ∀ b, isArg b → Proc.devRef .tc b ∉ op.writes :=
  List.forall_iff_forall_mem.mp (by
    simp only [List.Forall]
    repeat' constructor
    all_goals (rintro b (rfl | rfl | rfl | rfl | rfl) <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)))
theorem nowrite1 : ∀ op ∈ (hostOps0_1 : List (HloOp τ sig (Elt F))), ∀ b, isArg b → Proc.devRef .tc b ∉ op.writes :=
  List.forall_iff_forall_mem.mp (by
    simp only [List.Forall]
    repeat' constructor
    all_goals (rintro b (rfl | rfl | rfl | rfl | rfl) <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)))
theorem nowrite2 : ∀ op ∈ (hostOps0_2 : List (HloOp τ sig (Elt F))), ∀ b, isArg b → Proc.devRef .tc b ∉ op.writes :=
  List.forall_iff_forall_mem.mp (by
    simp only [List.Forall]
    repeat' constructor
    all_goals (rintro b (rfl | rfl | rfl | rfl | rfl) <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)))
theorem nowrite3 : ∀ op ∈ (hostOps0_3 : List (HloOp τ sig (Elt F))), ∀ b, isArg b → Proc.devRef .tc b ∉ op.writes :=
  List.forall_iff_forall_mem.mp (by
    simp only [List.Forall]
    repeat' constructor
    all_goals (rintro b (rfl | rfl | rfl | rfl | rfl) <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)))
theorem nowrite4 : ∀ op ∈ (hostOps0_4 : List (HloOp τ sig (Elt F))), ∀ b, isArg b → Proc.devRef .tc b ∉ op.writes :=
  List.forall_iff_forall_mem.mp (by
    simp only [List.Forall]
    repeat' constructor
    all_goals (rintro b (rfl | rfl | rfl | rfl | rfl) <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)))
theorem nowrite5 : ∀ op ∈ (hostOps0_5 : List (HloOp τ sig (Elt F))), ∀ b, isArg b → Proc.devRef .tc b ∉ op.writes :=
  List.forall_iff_forall_mem.mp (by
    simp only [List.Forall]
    repeat' constructor
    all_goals (rintro b (rfl | rfl | rfl | rfl | rfl) <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)))
theorem nowrite6 : ∀ op ∈ (hostOps0_6 : List (HloOp τ sig (Elt F))), ∀ b, isArg b → Proc.devRef .tc b ∉ op.writes :=
  List.forall_iff_forall_mem.mp (by
    simp only [List.Forall]
    repeat' constructor
    all_goals (rintro b (rfl | rfl | rfl | rfl | rfl) <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)))
theorem nowriteT : ∀ op ∈ (hostOps1 : List (HloOp τ sig (Elt F))), ∀ b, isArg b → Proc.devRef .tc b ∉ op.writes :=
  List.forall_iff_forall_mem.mp (by
    simp only [List.Forall]
    repeat' constructor
    all_goals (rintro b (rfl | rfl | rfl | rfl | rfl) <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)))

variable (m : (ℓ : Loc nD τ sig) → Buf (Elt F) ℓ)

/-- An argument array reaches the region as launched. -/
theorem keep_entry (c : Dev nD) (b : Ref sig .tc) (hb : isArg b) : Ve m c (Proc.devRef .tc b) = m (c, Proc.devRef .tc b) := by
  unfold Ve V₆ V₅ V₄ V₃ V₂ V₁
  rw [StableHlo.after_of_forall_not_mem _ _ (fun op hop => nowrite6 op hop b hb),
    StableHlo.after_of_forall_not_mem _ _ (fun op hop => nowrite5 op hop b hb),
    StableHlo.after_of_forall_not_mem _ _ (fun op hop => nowrite4 op hop b hb),
    StableHlo.after_of_forall_not_mem _ _ (fun op hop => nowrite3 op hop b hb),
    StableHlo.after_of_forall_not_mem _ _ (fun op hop => nowrite2 op hop b hb),
    StableHlo.after_of_forall_not_mem _ _ (fun op hop => nowrite1 op hop b hb),
    StableHlo.after_of_forall_not_mem _ _ (fun op hop => nowrite0 op hop b hb)]

/-- No argument array is the region's result. -/
theorem arg_ne_out (b : Ref sig .tc) (hb : isArg b) : b ≠ main_v73 := by
  rcases hb with rfl | rfl | rfl | rfl | rfl <;> decide

variable (dats : (p : Fin 1) → (c : Dev nD) → Dat τ (Elt F) Unit ℕ (UR sig nD τ) ℕ (cfgs p) c)

/-- An argument array ends as launched. -/
theorem keep_all (c : Dev nD) (b : Ref sig .tc) (hb : isArg b) : V₈ m dats c (Proc.devRef .tc b) = m (c, Proc.devRef .tc b) := by
  unfold V₈
  rw [StableHlo.after_of_forall_not_mem _ _ (fun op hop => nowriteT op hop b hb), Vx_ne m dats c b (arg_ne_out b hb)]
  exact keep_entry m c b hb

/-- The argument arrays are unscoped buffers of the TensorCore: the run's post speaks of them. -/
theorem mem_ucR (b : Ref sig .tc) (hb : isArg b) : Proc.devRef (τ := τ) .tc b ∈ (ucR : Finset (DevRef τ sig)) := by
  rcases hb with rfl | rfl | rfl | rfl | rfl <;>
    exact Finset.mem_filter.mpr ⟨StableHlo.devRef_mem_tcRefs _, by decide⟩

end Cert.Kernel.Run

namespace Cert.Proof

open Cert.Kernel Cert.Kernel.Run Idealize.ShloMosaic Idealize.SL.Sem

/-- The word-level kernel runs to the end without a fault and leaves its five argument arrays unchanged: the run of the
    program ends with every unscoped buffer at the last valuation, and no host operation, nor the region, writes an
    argument. No hypothesis on the inputs is used. -/
theorem frame_kernel : Cert.frame_Kernel := fun m ρ _ =>
  (θ_run Cert.Kernel.defs _ _).mono (fun r h c =>
    ⟨(h c _ (mem_ucR main_arg0 (Or.inl rfl))).trans (keep_all m (dats m) c main_arg0 (Or.inl rfl)),
     (h c _ (mem_ucR main_arg1 (Or.inr (Or.inl rfl)))).trans (keep_all m (dats m) c main_arg1 (Or.inr (Or.inl rfl))),
     (h c _ (mem_ucR main_arg2 (Or.inr (Or.inr (Or.inl rfl))))).trans (keep_all m (dats m) c main_arg2 (Or.inr (Or.inr (Or.inl rfl)))),
     (h c _ (mem_ucR main_arg3 (Or.inr (Or.inr (Or.inr (Or.inl rfl)))))).trans (keep_all m (dats m) c main_arg3 (Or.inr (Or.inr (Or.inr (Or.inl rfl))))),
     (h c _ (mem_ucR main_arg4 (Or.inr (Or.inr (Or.inr (Or.inr rfl)))))).trans (keep_all m (dats m) c main_arg4 (Or.inr (Or.inr (Or.inr (Or.inr rfl)))))⟩)
    (kernel_run (F := Bits) m ρ)

end Cert.Proof

end
-- ==== Proof.KernelValue.lean ====
/-
  The kernel's accumulated value, at the extended reals.

  Within one sample the sixteen grid points add their tiles' totals into the accumulator in the order of the grid.
  Addition of extended reals is associative, the reset value is zero, and one grid point adds the total of its tile
  (`Tile.acc_step`), so after the `k`-th tile of sample `b` the accumulator holds the sum of the totals of the tiles
  `0 … k` of that sample (`accAt_eq_sum`): after the sixteenth, the whole double sum over the padded concatenation.
-/
import proofs.«177710_j40166534152779_1_alg».proof.Proof.KernelData
import proofs.«177710_j40166534152779_1_alg».proof.Proof.TileTerm

set_option maxRecDepth 16384

noncomputable section

namespace Cert.KernelIdeal.Run

open scoped BigOperators
open Cert.KernelIdeal Cert.KernelIdeal.Gen Cert.KernelIdeal.Tile
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-- The total of the tile the body forms at the point numbered `n` (zero past the grid). -/
def tileSum (c : Dev nD) (n : ℕ) : EReal :=
  if h : n < cfg0.N then ∑ j : S1x1024x1024.Idx, tileAt (F := Ideal) m c ⟨n, h⟩ j else 0

theorem tileSum_lt (c : Dev nD) (n : ℕ) (h : n < cfg0.N) :
    tileSum m c n = ∑ j : S1x1024x1024.Idx, tileAt (F := Ideal) m c ⟨n, h⟩ j := dif_pos h

/-- The accumulator's value does not depend on how the point's number is written. -/
theorem accAt_congr (c : Dev nD) (n n' : ℕ) (e : n = n') (h : n < cfg0.N) (h' : n' < cfg0.N) :
    accAt (F := Ideal) m c n h = accAt (F := Ideal) m c n' h' := by subst e; rfl

/-- The zero the accumulator is reset to. -/
theorem reset_apply (i : S1x1x1.Idx) : (k0_pay2 (F := Ideal)) i = 0 := by
  unfold k0_pay2
  rw [shapeCast_self, broadcast_apply]
  exact Ideal.ofBits_zero_f32

/-- THE ACCUMULATED VALUE: after the `k`-th tile of sample `b` (counted from zero) the accumulator holds the sum of the
    totals of that sample's tiles `0 … k`. -/
theorem accAt_eq_sum (c : Dev nD) (b : ℕ) : ∀ (k : ℕ), k < 16 → ∀ (h : 16 * b + k < cfg0.N) (i : S1x1x1.Idx),
    accAt (F := Ideal) m c (16 * b + k) h i = ∑ j ∈ Finset.range (k + 1), tileSum m c (16 * b + j)
  | 0, _, h, i => by
    have h0 : (⟨16 * b + 0, h⟩ : Fin cfg0.N).val % 16 = 0 := by show (16 * b + 0) % 16 = 0; omega
    rw [show accAt (F := Ideal) m c (16 * b + 0) h = _ from accAt_first m c ⟨16 * b + 0, h⟩ h0, acc_step, reset_apply, zero_add,
      Finset.sum_range_one, tileSum_lt m c _ h]
  | k + 1, hk, h, i => by
    have h0 : ¬(⟨16 * b + (k + 1), h⟩ : Fin cfg0.N).val % 16 = 0 := by show ¬(16 * b + (k + 1)) % 16 = 0; omega
    have hp : 16 * b + k < cfg0.N := by omega
    rw [show accAt (F := Ideal) m c (16 * b + (k + 1)) h = _ from accAt_next m c ⟨16 * b + (k + 1), h⟩ h0, acc_step,
      accAt_congr m c _ (16 * b + k) (by show 16 * b + (k + 1) - 1 = 16 * b + k; omega) _ hp,
      accAt_eq_sum c b k (by omega) hp i, Finset.sum_range_succ _ (k + 1), tileSum_lt m c _ h]

end Cert.KernelIdeal.Run

end
-- ==== Proof.KernelOut.lean ====
/-
  The region's result array after the run, in closed form.

  The output window's block at a point is the one entry `(b, 0, 0)` of the result array, `b` the sample the point belongs
  to, and the pipeline writes it back at the last tile of each sample only. What is written back there is the
  accumulator's value after that point. The eight blocks written back cover the array, so after the run its entry
  `(b, 0, 0)` is the accumulator after point `16 b + 15` (`final6`). Generic in the float instance.
-/
import proofs.«177710_j40166534152779_1_alg».proof.Proof.KernelData
import Idealize.ShloMosaic.Lib.Pipeline.Value
import Idealize.ShloMosaic.Lib.ValueIdx

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.ValueIdx
open Idealize.SL.Sem
open Idealize.ShloMosaic.Pipeline (Dat)

variable {F : FTy → Type} [FloatOps F]
variable (m : (ℓ : Loc nD τ sig) → Buf (Elt F) ℓ)

/-- The grid has 128 points: sixteen per sample. -/
theorem cfgN : cfg0.N = 128 := N_0

/-- THE RESULT ARRAY in closed form: entry `(b, 0, 0)` is the accumulator after the last tile of sample `b`. -/
def outArr (c : Dev nD) : S8x1x1.Idx → Elt F .f32 := fun i =>
  accAt m c (16 * (i 0).val + 15) (by have h : (i 0).val < 8 := (i 0).isLt; rw [cfgN]; omega) (ix3 (0 : Fin 1) (0 : Fin 1) (0 : Fin 1))

/-- The accumulator's value does not depend on how the point's number is written. -/
theorem accAt_congr' (c : Dev nD) (n n' : ℕ) (e : n = n') (h : n < cfg0.N) (h' : n' < cfg0.N) :
    accAt m c n h = accAt m c n' h' := by subst e; rfl

/-- The output window's block index is the sample's number, at every point. -/
theorem idx_facts6 : ∀ t : Fin cfg0.N, win0_6.index t (0 : Fin 3) = t.val / 16 ∧ win0_6.index t (1 : Fin 3) = 0 ∧ win0_6.index t (2 : Fin 3) = 0 :=
  (by decide +kernel : ∀ t : Fin grid0.N, _)

/-- What a last tile writes back is its block of the result array. -/
theorem flushed6_eq (c : Dev nD) (t : Fin cfg0.N) (hf : (cfg0.win 6).flush t = true) :
    (dats m 0 c).flushed 6 t = ((cfg0.win 6).blk t).view.read (Elt F) (outArr m c) := by
  show (cfg0.win 6).cut (grid0.coords t) ((dats m 0 c).after 6 t) = _
  rw [after6]
  have h15 : t.val % 16 = 15 := (flush0_6 t).mp hf
  obtain ⟨e0, e1, e2⟩ := idx_facts6 t
  funext j
  show accAt m c t.val t.isLt j = outArr m c (((cfg0.win 6).blk t).view.emb j)
  have hj0 : (j 0).val < 1 := (j 0).isLt
  have hj1 : (j 1).val < 1 := (j 1).isLt
  have hj2 : (j 2).val < 1 := (j 2).isLt
  have hj : j = ix3 (0 : Fin 1) (0 : Fin 1) (0 : Fin 1) := by
    funext a; apply Fin.ext
    match a with
    | ⟨0, _⟩ => show (j 0).val = 0; omega
    | ⟨1, _⟩ => show (j 1).val = 0; omega
    | ⟨2, _⟩ => show (j 2).val = 0; omega
  have he : ((((cfg0.win 6).blk t).view.emb j) 0).val = t.val / 16 := by
    show win0_6.index t (0 : Fin 3) * 1 + 1 * (j 0).val = t.val / 16
    omega
  unfold outArr
  rw [accAt_congr' m c t.val (16 * ((((cfg0.win 6).blk t).view.emb j) 0).val + 15) (by rw [he]; omega) t.isLt (by rw [he]; have := t.isLt; omega)]
  exact congrArg _ hj

/-- Every sample's entry is the block of a point that writes back. -/
theorem idx_onto6 : ∀ q0 : Fin 8, ∃ t : Fin cfg0.N, (cfg0.win 6).flush t = true ∧ win0_6.index t = ![q0.val, 0, 0] :=
  (by decide +kernel : ∀ q0 : Fin 8, ∃ t : Fin grid0.N, win0_6.flush t = true ∧ win0_6.index t = ![q0.val, 0, 0])

/-- An index of the result array is in point `t`'s block iff each coordinate is in the block's range on its axis. -/
theorem mem_blk6 (t : Fin cfg0.N) (i : S8x1x1.Idx) :
    i ∈ ((cfg0.win 6).blk t).view.set ↔ ∀ a : Fin 3, win0_6.index t a * S1x1x1.size a ≤ (i a).val ∧ (i a).val < win0_6.index t a * S1x1x1.size a + S1x1x1.size a := by
  show i ∈ ((View.whole main_v73).slice (win0_6.rect t)).set ↔ _
  rw [View.set_slice_whole, Rect.mem_set_unit]
  exact Iff.rfl

/-- The blocks written back cover the result array. -/
theorem cover6 (i : S8x1x1.Idx) : ∃ t : Fin cfg0.N, (cfg0.win 6).flush t = true ∧ i ∈ ((cfg0.win 6).blk t).view.set := by
  have hi0 : (i 0).val < 8 := (i 0).isLt
  have hi1 : (i 1).val < 1 := (i 1).isLt
  have hi2 : (i 2).val < 1 := (i 2).isLt
  obtain ⟨t, hf, ht⟩ := idx_onto6 ⟨(i 0).val, hi0⟩
  have q0 : win0_6.index t (0 : Fin 3) = (i 0).val := congrFun ht 0
  have q1 : win0_6.index t (1 : Fin 3) = 0 := congrFun ht 1
  have q2 : win0_6.index t (2 : Fin 3) = 0 := congrFun ht 2
  refine ⟨t, hf, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1 ≤ (i 1).val ∧ (i 1).val < win0_6.index t (1 : Fin 3) * 1 + 1; omega
  | ⟨2, _⟩ => show win0_6.index t (2 : Fin 3) * 1 ≤ (i 2).val ∧ (i 2).val < win0_6.index t (2 : Fin 3) * 1 + 1; omega

/-- THE RESULT ARRAY after the run: entry `(b, 0, 0)` is the accumulator after the last tile of sample `b`. -/
theorem final6 (c : Dev nD) : (dats m 0 c).arrAt 6 cfg0.N = outArr m c :=
  (dats m 0 c).arrAt_eq_of_cover 6 (outArr m c) (fun t hf => flushed6_eq m c t hf) (cover6)

end Cert.KernelIdeal.Run

end
-- ==== Proof.KernelBlocks.lean ====
/-
  The input windows' blocks, read as rows of their arrays.

  Point `t` of the grid is tile `(i, j) = ((t / 4) % 4, t % 4)` of sample `t / 16`. The row-side windows take the `i`-th
  group of 1024 rows of the sample's slab of their array and the column-side windows the `j`-th: a block's row `p` is the
  array's row `1024 · group + p` (a block's coordinate on an axis is always index × size + the coordinate inside the block).
  The block indices are decided over the grid once. Generic in the float instance.
-/
import proofs.«177710_j40166534152779_1_alg».proof.Proof.KernelData
import Idealize.ShloMosaic.Lib.Pipeline.Value
import Idealize.ShloMosaic.Lib.ValueIdx

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.ValueIdx
open Idealize.SL.Sem
open Idealize.ShloMosaic.Pipeline (Dat)

variable {F : FTy → Type} [FloatOps F]
variable (m : (ℓ : Loc nD τ sig) → Buf (Elt F) ℓ)

/-- The input windows' block indices, decided over the grid: point `t` is tile `(i, j) = ((t / 4) % 4, t % 4)` of sample
    `t / 16`; the row-side windows (0, 2, 4) take group `i` of the sample's rows, the column-side windows (1, 3, 5) group `j`. -/
theorem idx_facts_in : ∀ t : Fin cfg0.N,
    win0_0.index t = ![t.val / 16, 0, (t.val / 4) % 4, 0] ∧ win0_1.index t = ![t.val / 16, 0, t.val % 4, 0]
    ∧ win0_2.index t = ![t.val / 16, 0, (t.val / 4) % 4, 0] ∧ win0_3.index t = ![t.val / 16, 0, t.val % 4, 0]
    ∧ win0_4.index t = ![t.val / 16, 0, (t.val / 4) % 4] ∧ win0_5.index t = ![t.val / 16, 0, t.val % 4] :=
  (by decide +kernel : ∀ t : Fin grid0.N, _)

/-- Row `p`, coordinate `k` of window 0's block at point `t`: its array at the sample's row `1024 · group + p`. -/
theorem iblk0_apply (c : Dev nD) (t : Fin cfg0.N) (p : Fin 1024) (k : Fin 3) :
    iblk m c 0 t (ix4 (0 : Fin 1) (0 : Fin 1) p k)
      = VeR m c main_v70 (ix4 ⟨t.val / 16, by have h : t.val < 128 := Nat.lt_of_lt_of_eq t.isLt N_0; omega⟩ (0 : Fin 1)
          ⟨1024 * ((t.val / 4) % 4) + p.val, by have := p.isLt; omega⟩ k) := by
  obtain ⟨e0, -, -, -, -, -⟩ := idx_facts_in t
  show VeR m c main_v70 (((cfg0.win 0).blk t).view.emb (ix4 (0 : Fin 1) (0 : Fin 1) p k)) = _
  refine congrArg (VeR m c main_v70) (funext fun a => Fin.ext ?_)
  have q0 : win0_0.index t (0 : Fin 4) = t.val / 16 := congrFun e0 0
  have q1 : win0_0.index t (1 : Fin 4) = 0 := congrFun e0 1
  have q2 : win0_0.index t (2 : Fin 4) = (t.val / 4) % 4 := congrFun e0 2
  have q3 : win0_0.index t (3 : Fin 4) = 0 := congrFun e0 3
  match a with
  | ⟨0, _⟩ => show win0_0.index t (0 : Fin 4) * 1 + 1 * 0 = t.val / 16; omega
  | ⟨1, _⟩ => show win0_0.index t (1 : Fin 4) * 1 + 1 * 0 = 0; omega
  | ⟨2, _⟩ => show win0_0.index t (2 : Fin 4) * 1024 + 1 * p.val = 1024 * ((t.val / 4) % 4) + p.val; omega
  | ⟨3, _⟩ => show win0_0.index t (3 : Fin 4) * 3 + 1 * k.val = k.val; omega

/-- Row `p`, coordinate `k` of window 1's block at point `t`: its array at the sample's row `1024 · group + p`. -/
theorem iblk1_apply (c : Dev nD) (t : Fin cfg0.N) (p : Fin 1024) (k : Fin 3) :
    iblk m c 1 t (ix4 (0 : Fin 1) (0 : Fin 1) p k)
      = VeR m c main_v70 (ix4 ⟨t.val / 16, by have h : t.val < 128 := Nat.lt_of_lt_of_eq t.isLt N_0; omega⟩ (0 : Fin 1)
          ⟨1024 * (t.val % 4) + p.val, by have := p.isLt; omega⟩ k) := by
  obtain ⟨-, e1, -, -, -, -⟩ := idx_facts_in t
  show VeR m c main_v70 (((cfg0.win 1).blk t).view.emb (ix4 (0 : Fin 1) (0 : Fin 1) p k)) = _
  refine congrArg (VeR m c main_v70) (funext fun a => Fin.ext ?_)
  have q0 : win0_1.index t (0 : Fin 4) = t.val / 16 := congrFun e1 0
  have q1 : win0_1.index t (1 : Fin 4) = 0 := congrFun e1 1
  have q2 : win0_1.index t (2 : Fin 4) = t.val % 4 := congrFun e1 2
  have q3 : win0_1.index t (3 : Fin 4) = 0 := congrFun e1 3
  match a with
  | ⟨0, _⟩ => show win0_1.index t (0 : Fin 4) * 1 + 1 * 0 = t.val / 16; omega
  | ⟨1, _⟩ => show win0_1.index t (1 : Fin 4) * 1 + 1 * 0 = 0; omega
  | ⟨2, _⟩ => show win0_1.index t (2 : Fin 4) * 1024 + 1 * p.val = 1024 * (t.val % 4) + p.val; omega
  | ⟨3, _⟩ => show win0_1.index t (3 : Fin 4) * 3 + 1 * k.val = k.val; omega

/-- Row `p`, coordinate `k` of window 2's block at point `t`: its array at the sample's row `1024 · group + p`. -/
theorem iblk2_apply (c : Dev nD) (t : Fin cfg0.N) (p : Fin 1024) (k : Fin 3) :
    iblk m c 2 t (ix4 (0 : Fin 1) (0 : Fin 1) p k)
      = VeR m c main_v71 (ix4 ⟨t.val / 16, by have h : t.val < 128 := Nat.lt_of_lt_of_eq t.isLt N_0; omega⟩ (0 : Fin 1)
          ⟨1024 * ((t.val / 4) % 4) + p.val, by have := p.isLt; omega⟩ k) := by
  obtain ⟨-, -, e2, -, -, -⟩ := idx_facts_in t
  show VeR m c main_v71 (((cfg0.win 2).blk t).view.emb (ix4 (0 : Fin 1) (0 : Fin 1) p k)) = _
  refine congrArg (VeR m c main_v71) (funext fun a => Fin.ext ?_)
  have q0 : win0_2.index t (0 : Fin 4) = t.val / 16 := congrFun e2 0
  have q1 : win0_2.index t (1 : Fin 4) = 0 := congrFun e2 1
  have q2 : win0_2.index t (2 : Fin 4) = (t.val / 4) % 4 := congrFun e2 2
  have q3 : win0_2.index t (3 : Fin 4) = 0 := congrFun e2 3
  match a with
  | ⟨0, _⟩ => show win0_2.index t (0 : Fin 4) * 1 + 1 * 0 = t.val / 16; omega
  | ⟨1, _⟩ => show win0_2.index t (1 : Fin 4) * 1 + 1 * 0 = 0; omega
  | ⟨2, _⟩ => show win0_2.index t (2 : Fin 4) * 1024 + 1 * p.val = 1024 * ((t.val / 4) % 4) + p.val; omega
  | ⟨3, _⟩ => show win0_2.index t (3 : Fin 4) * 3 + 1 * k.val = k.val; omega

/-- Row `p`, coordinate `k` of window 3's block at point `t`: its array at the sample's row `1024 · group + p`. -/
theorem iblk3_apply (c : Dev nD) (t : Fin cfg0.N) (p : Fin 1024) (k : Fin 3) :
    iblk m c 3 t (ix4 (0 : Fin 1) (0 : Fin 1) p k)
      = VeR m c main_v71 (ix4 ⟨t.val / 16, by have h : t.val < 128 := Nat.lt_of_lt_of_eq t.isLt N_0; omega⟩ (0 : Fin 1)
          ⟨1024 * (t.val % 4) + p.val, by have := p.isLt; omega⟩ k) := by
  obtain ⟨-, -, -, e3, -, -⟩ := idx_facts_in t
  show VeR m c main_v71 (((cfg0.win 3).blk t).view.emb (ix4 (0 : Fin 1) (0 : Fin 1) p k)) = _
  refine congrArg (VeR m c main_v71) (funext fun a => Fin.ext ?_)
  have q0 : win0_3.index t (0 : Fin 4) = t.val / 16 := congrFun e3 0
  have q1 : win0_3.index t (1 : Fin 4) = 0 := congrFun e3 1
  have q2 : win0_3.index t (2 : Fin 4) = t.val % 4 := congrFun e3 2
  have q3 : win0_3.index t (3 : Fin 4) = 0 := congrFun e3 3
  match a with
  | ⟨0, _⟩ => show win0_3.index t (0 : Fin 4) * 1 + 1 * 0 = t.val / 16; omega
  | ⟨1, _⟩ => show win0_3.index t (1 : Fin 4) * 1 + 1 * 0 = 0; omega
  | ⟨2, _⟩ => show win0_3.index t (2 : Fin 4) * 1024 + 1 * p.val = 1024 * (t.val % 4) + p.val; omega
  | ⟨3, _⟩ => show win0_3.index t (3 : Fin 4) * 3 + 1 * k.val = k.val; omega

/-- Entry `p` of window 4's block at point `t`: its array at the sample's row `1024 · group + p`. -/
theorem iblk4_apply (c : Dev nD) (t : Fin cfg0.N) (p : Fin 1024) :
    iblk m c 4 t (ix3 (0 : Fin 1) (0 : Fin 1) p)
      = VeR m c main_v72 (ix3 ⟨t.val / 16, by have h : t.val < 128 := Nat.lt_of_lt_of_eq t.isLt N_0; omega⟩ (0 : Fin 1)
          ⟨1024 * ((t.val / 4) % 4) + p.val, by have := p.isLt; omega⟩) := by
  obtain ⟨-, -, -, -, e4, -⟩ := idx_facts_in t
  show VeR m c main_v72 (((cfg0.win 4).blk t).view.emb (ix3 (0 : Fin 1) (0 : Fin 1) p)) = _
  refine congrArg (VeR m c main_v72) (funext fun a => Fin.ext ?_)
  have q0 : win0_4.index t (0 : Fin 3) = t.val / 16 := congrFun e4 0
  have q1 : win0_4.index t (1 : Fin 3) = 0 := congrFun e4 1
  have q2 : win0_4.index t (2 : Fin 3) = (t.val / 4) % 4 := congrFun e4 2
  match a with
  | ⟨0, _⟩ => show win0_4.index t (0 : Fin 3) * 1 + 1 * 0 = t.val / 16; omega
  | ⟨1, _⟩ => show win0_4.index t (1 : Fin 3) * 1 + 1 * 0 = 0; omega
  | ⟨2, _⟩ => show win0_4.index t (2 : Fin 3) * 1024 + 1 * p.val = 1024 * ((t.val / 4) % 4) + p.val; omega

/-- Entry `p` of window 5's block at point `t`: its array at the sample's row `1024 · group + p`. -/
theorem iblk5_apply (c : Dev nD) (t : Fin cfg0.N) (p : Fin 1024) :
    iblk m c 5 t (ix3 (0 : Fin 1) (0 : Fin 1) p)
      = VeR m c main_v72 (ix3 ⟨t.val / 16, by have h : t.val < 128 := Nat.lt_of_lt_of_eq t.isLt N_0; omega⟩ (0 : Fin 1)
          ⟨1024 * (t.val % 4) + p.val, by have := p.isLt; omega⟩) := by
  obtain ⟨-, -, -, -, -, e5⟩ := idx_facts_in t
  show VeR m c main_v72 (((cfg0.win 5).blk t).view.emb (ix3 (0 : Fin 1) (0 : Fin 1) p)) = _
  refine congrArg (VeR m c main_v72) (funext fun a => Fin.ext ?_)
  have q0 : win0_5.index t (0 : Fin 3) = t.val / 16 := congrFun e5 0
  have q1 : win0_5.index t (1 : Fin 3) = 0 := congrFun e5 1
  have q2 : win0_5.index t (2 : Fin 3) = t.val % 4 := congrFun e5 2
  match a with
  | ⟨0, _⟩ => show win0_5.index t (0 : Fin 3) * 1 + 1 * 0 = t.val / 16; omega
  | ⟨1, _⟩ => show win0_5.index t (1 : Fin 3) * 1 + 1 * 0 = 0; omega
  | ⟨2, _⟩ => show win0_5.index t (2 : Fin 3) * 1024 + 1 * p.val = 1024 * (t.val % 4) + p.val; omega

end Cert.KernelIdeal.Run

end
-- ==== Proof.KernelSum.lean ====
/-
  The region's result as one double sum, at the extended reals.

  The three staged arrays hold, per sample, 4096 rows: the centres, the unit tangents and the signed lengths of the
  concatenated edge list with its zero padding. A tile's total is the double sum of the pair term over the tile's
  1024 × 1024 pairs of rows (`Tile.tile_total`), the blocks being rows of the arrays (the block reads); the sixteen tiles of
  a sample are the sixteen pairs of row groups, and the accumulator adds their totals in the grid's order
  (`accAt_eq_sum`). Regrouping sixteen tiles of 1024² pairs as 4096² pairs: entry `(b, 0, 0)` of the result array is the
  double sum over all pairs of rows of sample `b` (`out_double_sum`).
-/
import proofs.«177710_j40166534152779_1_alg».proof.Proof.KernelValue
import proofs.«177710_j40166534152779_1_alg».proof.Proof.KernelOut
import proofs.«177710_j40166534152779_1_alg».proof.Proof.KernelBlocks

set_option maxRecDepth 16384

noncomputable section

namespace Cert.KernelIdeal.Run

open scoped BigOperators
open Cert.KernelIdeal Cert.KernelIdeal.Gen Cert.KernelIdeal.Tile
open Idealize.ShloMosaic Idealize.ShloMosaic.TcCoe Idealize.ShloMosaic.ValueIdx
open Idealize.SL.Sem

variable (m : (ℓ : Loc nD τ sig) → Buf (Elt Ideal) ℓ)

/-- The pair term of rows `r` and `s` of sample `b` over the three staged arrays (centres, tangents, signed lengths):
    the Gaussian of the centres' squared distance, the squared inner product of the tangents, the product of the signed
    lengths. -/
def pairArr (C U : S8x1x4096x3.Idx → EReal) (L : S8x1x4096.Idx → EReal) (b : Fin 8) (r s : Fin 4096) : EReal :=
  Ideal.exp
      (((C (ix4 b (0 : Fin 1) r (0 : Fin 3)) - C (ix4 b (0 : Fin 1) s (0 : Fin 3))) * (C (ix4 b (0 : Fin 1) r (0 : Fin 3)) - C (ix4 b (0 : Fin 1) s (0 : Fin 3)))
        + (C (ix4 b (0 : Fin 1) r (1 : Fin 3)) - C (ix4 b (0 : Fin 1) s (1 : Fin 3))) * (C (ix4 b (0 : Fin 1) r (1 : Fin 3)) - C (ix4 b (0 : Fin 1) s (1 : Fin 3)))
        + (C (ix4 b (0 : Fin 1) r (2 : Fin 3)) - C (ix4 b (0 : Fin 1) s (2 : Fin 3))) * (C (ix4 b (0 : Fin 1) r (2 : Fin 3)) - C (ix4 b (0 : Fin 1) s (2 : Fin 3))))
       * (Scalar.ofBits .f32 0xC0800000#32 : Ideal .f32))
    * ((U (ix4 b (0 : Fin 1) r (0 : Fin 3)) * U (ix4 b (0 : Fin 1) s (0 : Fin 3)) + U (ix4 b (0 : Fin 1) r (1 : Fin 3)) * U (ix4 b (0 : Fin 1) s (1 : Fin 3)) + U (ix4 b (0 : Fin 1) r (2 : Fin 3)) * U (ix4 b (0 : Fin 1) s (2 : Fin 3)))
       * (U (ix4 b (0 : Fin 1) r (0 : Fin 3)) * U (ix4 b (0 : Fin 1) s (0 : Fin 3)) + U (ix4 b (0 : Fin 1) r (1 : Fin 3)) * U (ix4 b (0 : Fin 1) s (1 : Fin 3)) + U (ix4 b (0 : Fin 1) r (2 : Fin 3)) * U (ix4 b (0 : Fin 1) s (2 : Fin 3))))
    * (L (ix3 b (0 : Fin 1) r) * L (ix3 b (0 : Fin 1) s))

/-- The pair term the body forms from its blocks at point `t` is the pair term of the arrays' rows the blocks show. -/
theorem pairTerm_blocks (c : Dev nD) (t : Fin cfg0.N) (p q : Fin 1024) :
    pairTerm (iblk m c 0 t) (iblk m c 1 t) (iblk m c 2 t) (iblk m c 3 t) (iblk m c 4 t) (iblk m c 5 t) p q
      = pairArr (VeR m c main_v70) (VeR m c main_v71) (VeR m c main_v72)
          ⟨t.val / 16, by have h : t.val < 128 := Nat.lt_of_lt_of_eq t.isLt N_0; omega⟩
          ⟨1024 * ((t.val / 4) % 4) + p.val, by have := p.isLt; omega⟩ ⟨1024 * (t.val % 4) + q.val, by have := q.isLt; omega⟩ := by
  unfold pairTerm pairArr
  simp only [iblk0_apply, iblk1_apply, iblk2_apply, iblk3_apply, iblk4_apply, iblk5_apply]

/-- A sum over `Fin (a * n)` taken tile by tile, in any commutative monoid. -/
theorem tiled_sum' {M : Type*} [AddCommMonoid M] (a n : ℕ) (g : Fin (a * n) → M) :
    (∑ p, g p) = ∑ t : Fin a, ∑ x : Fin n, g (finProdFinEquiv (t, x)) :=
  calc (∑ p, g p) = ∑ x : Fin a × Fin n, g (finProdFinEquiv x) := (Equiv.sum_comp finProdFinEquiv g).symm
    _ = _ := Fintype.sum_prod_type _

/-- The total of the tile at the point numbered `n`, as the double sum of the arrays' pair terms over the tile's rows. -/
theorem tile_total_at (c : Dev nD) (n : ℕ) (h : n < cfg0.N) :
    tileSum m c n = ∑ p : Fin 1024, ∑ q : Fin 1024,
      pairArr (VeR m c main_v70) (VeR m c main_v71) (VeR m c main_v72)
        ⟨n / 16, by have h' : n < 128 := Nat.lt_of_lt_of_eq h N_0; omega⟩
        ⟨1024 * ((n / 4) % 4) + p.val, by have := p.isLt; omega⟩ ⟨1024 * (n % 4) + q.val, by have := q.isLt; omega⟩ := by
  rw [tileSum_lt m c n h]
  unfold tileAt Body.tile
  rw [tile_total]
  exact Finset.sum_congr rfl fun p _ => Finset.sum_congr rfl fun q _ => pairTerm_blocks m c ⟨n, h⟩ p q

/-- THE REGION'S RESULT: entry `(b, 0, 0)` of the result array is the double sum, over all pairs of the 4096 rows of sample
    `b`'s slab of the staged arrays, of the pair term: the sixteen tiles' totals, added in the grid's order. -/
theorem out_double_sum (c : Dev nD) (b : Fin 8) :
    outArr (F := Ideal) m c (ix3 b (0 : Fin 1) (0 : Fin 1))
      = ∑ r : Fin 4096, ∑ s : Fin 4096, pairArr (VeR m c main_v70) (VeR m c main_v71) (VeR m c main_v72) b r s := by
  unfold outArr
  show accAt (F := Ideal) m c (16 * b.val + 15) _ _ = _
  rw [accAt_eq_sum m c b.val 15 (by omega) _ _]
  rw [Finset.sum_range (fun j => tileSum m c (16 * b.val + j))]
  rw [tiled_sum' 4 4 (fun k : Fin 16 => tileSum m c (16 * b.val + k.val))]
  rw [tiled_sum' 4 1024 (fun r : Fin 4096 => ∑ s : Fin 4096, pairArr (VeR m c main_v70) (VeR m c main_v71) (VeR m c main_v72) b r s)]
  refine Finset.sum_congr rfl fun ti _ => ?_
  have hR : ∀ a : Fin 1024, (∑ s : Fin 4096, pairArr (VeR m c main_v70) (VeR m c main_v71) (VeR m c main_v72) b (finProdFinEquiv (ti, a)) s)
      = ∑ tj : Fin 4, ∑ q : Fin 1024, pairArr (VeR m c main_v70) (VeR m c main_v71) (VeR m c main_v72) b (finProdFinEquiv (ti, a)) (finProdFinEquiv (tj, q)) :=
    fun a => tiled_sum' 4 1024 _
  simp only [hR]
  rw [Finset.sum_comm]
  refine Finset.sum_congr rfl fun tj _ => ?_
  have hb : b.val < 8 := b.isLt
  have hti : ti.val < 4 := ti.isLt
  have htj : tj.val < 4 := tj.isLt
  have hk : ((finProdFinEquiv (ti, tj) : Fin (4 * 4))).val = tj.val + 4 * ti.val := rfl
  rw [tile_total_at m c _ (by rw [hk, show cfg0.N = 128 from N_0]; omega)]
  refine Finset.sum_congr rfl fun p _ => Finset.sum_congr rfl fun q _ => ?_
  have hp : p.val < 1024 := p.isLt
  have hq : q.val < 1024 := q.isLt
  have hr : ((finProdFinEquiv (ti, p) : Fin (4 * 1024))).val = p.val + 1024 * ti.val := rfl
  have hs : ((finProdFinEquiv (tj, q) : Fin (4 * 1024))).val = q.val + 1024 * tj.val := rfl
  congr 1
  · apply Fin.ext; show (16 * b.val + (finProdFinEquiv (ti, tj) : Fin (4 * 4)).val) / 16 = b.val; rw [hk]; omega
  · apply Fin.ext
    show 1024 * (((16 * b.val + (finProdFinEquiv (ti, tj) : Fin (4 * 4)).val) / 4) % 4) + p.val = (finProdFinEquiv (ti, p) : Fin (4 * 1024)).val
    rw [hk, hr]; omega
  · apply Fin.ext
    show 1024 * ((16 * b.val + (finProdFinEquiv (ti, tj) : Fin (4 * 4)).val) % 4) + q.val = (finProdFinEquiv (tj, q) : Fin (4 * 1024)).val
    rw [hk, hs]; omega

end Cert.KernelIdeal.Run

end
-- ==== Proof.KernelTail.lean ====
/-
  The program's result from the region's result.

  After the region the host adds, sample by sample, the region's result (the varifold term) and the regulariser, sums
  over the eight samples and divides by eight. The last valuation at the result is exactly that expression of the
  region's result array and of the regulariser's buffer; the regulariser's own ninety host operations are not opened (both
  sides of the equation are expanded by the same pass). Generic in the float instance.
-/
import proofs.«177710_j40166534152779_1_alg».proof.Proof.KernelData

set_option maxRecDepth 65536

noncomputable section

namespace Cert.KernelIdeal.Run

open Cert.KernelIdeal Cert.KernelIdeal.Gen
open Idealize.ShloMosaic Idealize.ShloMosaic.TcCoe Idealize.ShloMosaic.StableHlo
open Idealize.SL.Sem
open Idealize.ShloMosaic.Pipeline (Dat)

variable {F : FTy → Type} [FloatOps F]
variable (m : (ℓ : Loc nD τ sig) → Buf (Elt F) ℓ)
variable (dats : (p : Fin 1) → (c : Dev nD) → Dat τ (Elt F) Unit ℕ (UR sig nD τ) ℕ (cfgs p) c)

set_option maxHeartbeats 8000000 in
/-- The program's result: the mean over the eight samples of the region's result plus the regulariser. -/
theorem V8_result (c : Dev nD) :
    V₈ m dats c (Proc.devRef .tc main_v152)
      = Host.divf (Host.reduceAdd (addf (shapeCast S8 (Vx m dats c (Proc.devRef .tc main_v73)) shapeCasts_S8x1x1_S8)
            (V₈ m dats c (Proc.devRef .tc main_v149)))
          (constant S_ .f32 0x00000000#32) reducesTo_S8_S_d0 h_S_) (constant S_ .f32 0x41000000#32) := by
  unfold V₈
  simp only [hostOps1]
  after_results_simp
  rfl

end Cert.KernelIdeal.Run

end
-- ==== Proof.VarifoldBridge.lean ====
/-
  The bridge between the two programs' arrangements, over the reals, with the padding made explicit.

  The kernel's arrays hold, for one sample, 4096 rows: rows `0 … 1998` are the X edges, rows `1999 … 3997` the Y edges,
  rows `3998 … 4095` are zero padding; the length column carries `+l` on X, `-l` on Y and `0` on the padding. The double
  sum over all pairs of rows of a symmetric pair kernel weighted by the product of the two length entries is then
  `aa - 2 * ab + bb`: the index set `Fin 4096` is the disjoint union of the three ranges, and the identity of
  VarifoldAlgebra.lean applies.
-/
import proofs.«177710_j40166534152779_1_alg».proof.Proof.VarifoldAlgebra
import Mathlib.Logic.Equiv.Fin.Basic
import Mathlib.Tactic.NormNum

namespace Varifold

open Finset BigOperators

/-- `Fin 4096` as X rows, Y rows and padding. -/
def rows : Fin 1999 ⊕ Fin 1999 ⊕ Fin 98 ≃ Fin 4096 :=
  ((Equiv.sumCongr (Equiv.refl _) finSumFinEquiv).trans finSumFinEquiv).trans (finCongr (by norm_num))

theorem rows_inl (a : Fin 1999) : (rows (.inl a)).val = a.val := rfl
theorem rows_inr_inl (b : Fin 1999) : (rows (.inr (.inl b))).val = 1999 + b.val := rfl
theorem rows_inr_inr (g : Fin 98) : (rows (.inr (.inr g))).val = 1999 + (1999 + g.val) := rfl

/-- The padded, signed length column. -/
def paddedLen (lX lY : Fin 1999 → ℝ) (r : Fin 4096) : ℝ :=
  if h : r.val < 1999 then lX ⟨r.val, h⟩ else if h' : r.val < 3998 then - lY ⟨r.val - 1999, by omega⟩ else 0

theorem paddedLen_rows (lX lY : Fin 1999 → ℝ) (x : Fin 1999 ⊕ Fin 1999 ⊕ Fin 98) :
    paddedLen lX lY (rows x) = signedWeight (γ := Fin 98) lX lY x := by
  rcases x with a | b | g
  · have h : (rows (.inl a)).val < 1999 := by rw [rows_inl]; exact a.isLt
    unfold paddedLen; rw [dif_pos h]; exact congrArg lX (Fin.ext (rows_inl a))
  · have h : ¬(rows (.inr (.inl b))).val < 1999 := by rw [rows_inr_inl]; omega
    have h' : (rows (.inr (.inl b))).val < 3998 := by rw [rows_inr_inl]; have := b.isLt; omega
    unfold paddedLen; rw [dif_neg h, dif_pos h']
    exact congrArg (fun i => - lY i) (Fin.ext (by show (rows (.inr (.inl b))).val - 1999 = b.val; rw [rows_inr_inl]; omega))
  · have h : ¬(rows (.inr (.inr g))).val < 1999 := by rw [rows_inr_inr]; omega
    have h' : ¬(rows (.inr (.inr g))).val < 3998 := by rw [rows_inr_inr]; omega
    unfold paddedLen; rw [dif_neg h, dif_neg h']; rfl

/-- THE BRIDGE: for any pair kernel on the 4096 rows that is symmetric between an X row and a Y row, the double sum
    over all pairs of rows weighted by the padded signed lengths is `aa - 2 * ab + bb`, each of the three a double sum
    over 1999 × 1999 pairs of edges with the plain lengths. -/
theorem padded_double_sum (k : Fin 4096 → Fin 4096 → ℝ)
    (hsymm : ∀ (a b : Fin 1999), k (rows (.inr (.inl b))) (rows (.inl a)) = k (rows (.inl a)) (rows (.inr (.inl b))))
    (lX lY : Fin 1999 → ℝ) :
    (∑ r : Fin 4096, ∑ s : Fin 4096, k r s * (paddedLen lX lY r * paddedLen lX lY s))
      = (∑ a, ∑ a', k (rows (.inl a)) (rows (.inl a')) * (lX a * lX a'))
        - 2 * (∑ a, ∑ b, k (rows (.inl a)) (rows (.inr (.inl b))) * (lX a * lY b))
        + (∑ b, ∑ b', k (rows (.inr (.inl b))) (rows (.inr (.inl b'))) * (lY b * lY b')) := by
  rw [← rows.sum_comp]
  have h : ∀ p : Fin 1999 ⊕ Fin 1999 ⊕ Fin 98,
      (∑ s : Fin 4096, k (rows p) s * (paddedLen lX lY (rows p) * paddedLen lX lY s))
        = ∑ q : Fin 1999 ⊕ Fin 1999 ⊕ Fin 98, k (rows p) (rows q) * (signedWeight (γ := Fin 98) lX lY p * signedWeight (γ := Fin 98) lX lY q) := by
    intro p
    rw [← rows.sum_comp]
    exact Finset.sum_congr rfl fun q _ => by rw [paddedLen_rows, paddedLen_rows]
  simp only [h]
  exact signed_double_sum (fun p q => k (rows p) (rows q)) hsymm lX lY

end Varifold
-- ==== Proof.ValueLift.lean ====
/-
  From the extended reals to the reals: the two spellings of the pair term.

  The kernel multiplies the squared distance by the word of `-4`; the reference negates it and divides by the word of
  `1/4`. On real inputs both are the same real number, and every operation involved (difference, product, sum, `exp`,
  division by a nonzero real) takes reals to reals, so on real edge data both pair terms are the coercion of ONE real
  pair term. The four literal words are evaluated once.
-/
import Idealize.ShloMosaic.PureOps.Ideal
import Idealize.ShloMosaic.PureOps.Ideal.Laws
import Idealize.ShloMosaic.Lib.IdealHost
import Mathlib.Analysis.SpecialFunctions.Exp
import proofs.«177710_j40166534152779_1_alg».proof.Proof.VarifoldBridge

noncomputable section

namespace Varifold.Lift

open scoped BigOperators
open Idealize.ShloMosaic

/-! ## The literal words -/

theorem w_m4 : Ideal.ofBits .f32 0xC0800000#32 = (((-4 : ℝ)) : EReal) := by
  simp [Ideal.ofBits, Ideal.ieee, -EReal.coe_mul, -EReal.coe_neg]; norm_num
theorem w_q : Ideal.ofBits .f32 0x3E800000#32 = (((1 : ℝ) / 4 : ℝ) : EReal) := by
  simp [Ideal.ofBits, Ideal.ieee, -EReal.coe_mul]; norm_num
theorem w_2 : Ideal.ofBits .f32 0x40000000#32 = ((2 : ℝ) : EReal) := by
  simp [Ideal.ofBits, Ideal.ieee, -EReal.coe_mul]; norm_num
theorem w_8 : Ideal.ofBits .f32 0x41000000#32 = ((8 : ℝ) : EReal) := by
  simp [Ideal.ofBits, Ideal.ieee, -EReal.coe_mul]; norm_num

/-- A finite sum of coerced reals is the coerced sum. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-! ## The real pair term -/

/-- The pair kernel of two edges over the reals: Gaussian of the squared distance at bandwidth 1/2, squared inner
    product of the tangents. -/
def kR (c c' u u' : Fin 3 → ℝ) : ℝ :=
  Real.exp (-4 * ∑ k : Fin 3, (c k - c' k) * (c k - c' k)) * ((∑ k : Fin 3, u k * u' k) * (∑ k : Fin 3, u k * u' k))

theorem kR_symm (c c' u u' : Fin 3 → ℝ) : kR c' c u' u = kR c c' u u' := by
  unfold kR
  congr 2
  · congr 1; exact Finset.sum_congr rfl fun k _ => by ring
  · exact Finset.sum_congr rfl fun k _ => by ring
  · exact Finset.sum_congr rfl fun k _ => by ring

/-! ## The kernel's spelling -/

/-- The pair term as the kernel body computes it, over extended reals. -/
def kerPair (c c' u u' : Fin 3 → EReal) (l l' : EReal) : EReal :=
  Ideal.exp (((c 0 - c' 0) * (c 0 - c' 0) + (c 1 - c' 1) * (c 1 - c' 1) + (c 2 - c' 2) * (c 2 - c' 2))
      * Ideal.ofBits .f32 0xC0800000#32)
    * ((u 0 * u' 0 + u 1 * u' 1 + u 2 * u' 2) * (u 0 * u' 0 + u 1 * u' 1 + u 2 * u' 2))
    * (l * l')

theorem kerPair_coe (c c' u u' : Fin 3 → ℝ) (l l' : ℝ) :
    kerPair (fun k => (c k : EReal)) (fun k => (c' k : EReal)) (fun k => (u k : EReal)) (fun k => (u' k : EReal)) (l : EReal) (l' : EReal)
      = ((kR c c' u u' * (l * l') : ℝ) : EReal) := by
  unfold kerPair kR
  rw [w_m4]
  simp only [← EReal.coe_sub, ← EReal.coe_mul, ← EReal.coe_add, Ideal.exp_coe]
  congr 1
  rw [Fin.sum_univ_three, Fin.sum_univ_three]
  ring_nf

/-! ## The reference's spelling -/

/-- The pair term as the reference computes it, over extended reals: `init` is the initial value of its sum over the
    three coordinates. -/
def refPair (init : EReal) (c c' u u' : Fin 3 → EReal) (l l' : EReal) : EReal :=
  Ideal.exp (Ideal.div (-(init + ∑ k : Fin 3, (c k - c' k) * (c k - c' k))) (Ideal.ofBits .f32 0x3E800000#32))
    * ((∑ k : Fin 3, u k * u' k) * (∑ k : Fin 3, u k * u' k))
    * (l * l')

theorem refPair_coe (c c' u u' : Fin 3 → ℝ) (l l' : ℝ) :
    refPair 0 (fun k => (c k : EReal)) (fun k => (c' k : EReal)) (fun k => (u k : EReal)) (fun k => (u' k : EReal)) (l : EReal) (l' : EReal)
      = ((kR c c' u u' * (l * l') : ℝ) : EReal) := by
  unfold refPair kR
  rw [w_q, zero_add, Ideal.div_coe (by norm_num : ((1 : ℝ) / 4) ≠ 0)]
  simp only [← EReal.coe_sub, ← EReal.coe_mul, coe_sum, ← EReal.coe_neg, Ideal.exp_coe]
  congr 1
  congr 2
  ring_nf

/-- The pair term of an edge with itself or another under the reference's spelling and under the kernel's are the same
    real number. -/
theorem kerPair_eq_refPair (c c' u u' : Fin 3 → ℝ) (l l' : ℝ) :
    kerPair (fun k => (c k : EReal)) (fun k => (c' k : EReal)) (fun k => (u k : EReal)) (fun k => (u' k : EReal)) (l : EReal) (l' : EReal)
      = refPair 0 (fun k => (c k : EReal)) (fun k => (c' k : EReal)) (fun k => (u k : EReal)) (fun k => (u' k : EReal)) (l : EReal) (l' : EReal) := by
  rw [kerPair_coe, refPair_coe]

/-! ## One sample: the kernel's double sum over the padded rows is the reference's `aa - 2 * ab + bb` -/

section Sample

variable (cX cY uX uY : Fin 1999 → Fin 3 → ℝ) (lX lY : Fin 1999 → ℝ)

/-- The padded real rows: X edges, Y edges, zeros. -/
def padded (x y : Fin 1999 → Fin 3 → ℝ) (r : Fin 4096) (k : Fin 3) : ℝ :=
  if h : r.val < 1999 then x ⟨r.val, h⟩ k else if h' : r.val < 3998 then y ⟨r.val - 1999, by omega⟩ k else 0

theorem padded_inl (x y : Fin 1999 → Fin 3 → ℝ) (a : Fin 1999) : padded x y (Varifold.rows (.inl a)) = x a := by
  funext k
  have h : (Varifold.rows (.inl a)).val < 1999 := by rw [Varifold.rows_inl]; exact a.isLt
  unfold padded; rw [dif_pos h]; exact congrFun (congrArg x (Fin.ext (Varifold.rows_inl a))) k

theorem padded_inr_inl (x y : Fin 1999 → Fin 3 → ℝ) (b : Fin 1999) : padded x y (Varifold.rows (.inr (.inl b))) = y b := by
  funext k
  have h : ¬(Varifold.rows (.inr (.inl b))).val < 1999 := by rw [Varifold.rows_inr_inl]; omega
  have h' : (Varifold.rows (.inr (.inl b))).val < 3998 := by rw [Varifold.rows_inr_inl]; have := b.isLt; omega
  unfold padded; rw [dif_neg h, dif_pos h']
  exact congrFun (congrArg y (Fin.ext (by show (Varifold.rows (.inr (.inl b))).val - 1999 = b.val; rw [Varifold.rows_inr_inl]; omega))) k

/-- THE SAMPLE'S EQUATION. If the staged rows `C`, `U`, `L` are the padded coerced edge data (lengths signed), the
    kernel's double sum over all pairs of the 4096 rows is the reference's three inner products combined. -/
theorem sample_eq (C U : Fin 4096 → Fin 3 → EReal) (L : Fin 4096 → EReal)
    (hC : ∀ r k, C r k = ((padded cX cY r k : ℝ) : EReal)) (hU : ∀ r k, U r k = ((padded uX uY r k : ℝ) : EReal))
    (hL : ∀ r, L r = ((Varifold.paddedLen lX lY r : ℝ) : EReal)) :
    (∑ r : Fin 4096, ∑ s : Fin 4096, kerPair (C r) (C s) (U r) (U s) (L r) (L s))
      = ((0 : EReal) + ∑ p : Fin 1999, ∑ q : Fin 1999,
            refPair 0 (fun k => (cX p k : EReal)) (fun k => (cX q k : EReal)) (fun k => (uX p k : EReal)) (fun k => (uX q k : EReal)) (lX p : EReal) (lX q : EReal))
        - Ideal.ofBits .f32 0x40000000#32 * ((0 : EReal) + ∑ p : Fin 1999, ∑ q : Fin 1999,
            refPair 0 (fun k => (cX p k : EReal)) (fun k => (cY q k : EReal)) (fun k => (uX p k : EReal)) (fun k => (uY q k : EReal)) (lX p : EReal) (lY q : EReal))
        + ((0 : EReal) + ∑ p : Fin 1999, ∑ q : Fin 1999,
            refPair 0 (fun k => (cY p k : EReal)) (fun k => (cY q k : EReal)) (fun k => (uY p k : EReal)) (fun k => (uY q k : EReal)) (lY p : EReal) (lY q : EReal)) := by
  -- the left side, as a coerced real double sum
  have hl : ∀ r s, kerPair (C r) (C s) (U r) (U s) (L r) (L s)
      = ((kR (padded cX cY r) (padded cX cY s) (padded uX uY r) (padded uX uY s) * (Varifold.paddedLen lX lY r * Varifold.paddedLen lX lY s) : ℝ) : EReal) := by
    intro r s
    rw [show C r = fun k => ((padded cX cY r k : ℝ) : EReal) from funext (hC r), show C s = fun k => ((padded cX cY s k : ℝ) : EReal) from funext (hC s),
      show U r = fun k => ((padded uX uY r k : ℝ) : EReal) from funext (hU r), show U s = fun k => ((padded uX uY s k : ℝ) : EReal) from funext (hU s),
      hL r, hL s, kerPair_coe]
  simp only [hl, refPair_coe, coe_sum, zero_add, w_2, ← EReal.coe_mul, ← EReal.coe_sub, ← EReal.coe_add]
  congr 1
  have hb := Varifold.padded_double_sum (fun r s => kR (padded cX cY r) (padded cX cY s) (padded uX uY r) (padded uX uY s))
    (fun a b => by simp only [padded_inl, padded_inr_inl]; exact kR_symm _ _ _ _) lX lY
  simp only [padded_inl, padded_inr_inl] at hb
  exact hb

end Sample

end Varifold.Lift

end
-- ==== Proof.KernelResult.lean ====
/-
  The kernel program's result at its one index, and the region's result in the spelling of the lift.

  The host tail reshapes the region's result to one number per sample, adds the regulariser, sums over the eight samples
  from zero and divides by eight; at the extended reals the sum is exact, so the result is that expression of the
  region's result array in closed form. The region's result at a sample is the double sum over the 4096 rows of the pair
  term, here written with the rows of the three staged arrays as functions of the coordinate.
-/
import proofs.«177710_j40166534152779_1_alg».proof.Proof.KernelTail
import proofs.«177710_j40166534152779_1_alg».proof.Proof.KernelSum
import proofs.«177710_j40166534152779_1_alg».proof.Proof.KernelProtocol
import Idealize.ShloMosaic.PureOps.Ideal.Laws
import proofs.«177710_j40166534152779_1_alg».proof.Proof.ValueLift

set_option maxRecDepth 16384

noncomputable section

namespace Cert.KernelIdeal.Run

open scoped BigOperators
open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

/-- The result array the host tail reads is the region's result in closed form. -/
theorem Vx_out_eq (c : Dev nD) : Vx m (dats m) c (Proc.devRef .tc main_v73) = outArr m c :=
  (Vx_out m (dats m) c).trans (final6 m c)

/-- THE KERNEL PROGRAM'S RESULT at its one index: the sum over the samples of the region's result plus the regulariser,
    divided by eight. -/
theorem kernel_result_apply (c : Dev nD) :
    V₈ m (dats m) c (Proc.devRef .tc main_v152) ix0
      = Ideal.div (Ideal.ofBits .f32 0x00000000#32 + ∑ i : S8.Idx,
            (outArr m c (ix3 (i 0) (0 : Fin 1) (0 : Fin 1)) + V₈ m (dats m) c (Proc.devRef .tc main_v149) i))
          (Ideal.ofBits .f32 0x41000000#32) := by
  rw [V8_result, Vx_out_eq]
  generalize V₈ m (dats m) c (Proc.devRef .tc main_v149) = SR
  generalize outArr m c = O
  show Ideal.div (Ideal.hostReduceAdd reducesTo_S8_S_d0 _ _ ix0) (Ideal.ofBits .f32 0x41000000#32) = _
  rw [Ideal.hostReduceAdd_total _ (fun b => b.elim0)]
  refine congrArg (fun x => Ideal.div (Ideal.ofBits .f32 0x00000000#32 + x) (Ideal.ofBits .f32 0x41000000#32)) (Finset.sum_congr rfl fun i _ => ?_)
  rw [addf_apply]
  refine congrArg (· + SR i) ?_
  refine shapeCast_apply O shapeCasts_S8x1x1_S8 i (ix3 (i 0) (0 : Fin 1) (0 : Fin 1)) ?_
  rw [Shape.rowMajor_val_three, Shape.rowMajor_val_one]
  show ((i 0).val * 1 + 0) * 1 + 0 = (i 0).val
  omega

/-- Row `r` of sample `b`'s slab of the staged centres, tangents and signed lengths. -/
abbrev rowC (c : Dev nD) (b : Fin 8) (r : Fin 4096) : Fin 3 → EReal := fun k => VeR m c main_v70 (ix4 b (0 : Fin 1) r k)
abbrev rowU (c : Dev nD) (b : Fin 8) (r : Fin 4096) : Fin 3 → EReal := fun k => VeR m c main_v71 (ix4 b (0 : Fin 1) r k)
abbrev rowL (c : Dev nD) (b : Fin 8) (r : Fin 4096) : EReal := VeR m c main_v72 (ix3 b (0 : Fin 1) r)

/-- The region's result at sample `b`: the double sum of the pair term over the rows. -/
theorem out_kerPair (c : Dev nD) (b : Fin 8) :
    outArr (F := Ideal) m c (ix3 b (0 : Fin 1) (0 : Fin 1))
      = ∑ r : Fin 4096, ∑ s : Fin 4096,
          Varifold.Lift.kerPair (rowC m c b r) (rowC m c b s) (rowU m c b r) (rowU m c b s) (rowL m c b r) (rowL m c b s) := by
  rw [out_double_sum]
  rfl

end Cert.KernelIdeal.Run

end
-- ==== Proof.EdgeFinite.lean ====
/-
  Finiteness: under the precondition the edge data are real numbers.

  The claim's precondition says of each float argument that every entry has absolute value below plus infinity.
  At the extended reals that is: every entry is a real number (neither infinity). The edge data of the two curves
  are built from those arguments by sums, differences, products, broadcasts and gathers, which keep real arrays
  real; by a sum of squares plus a positive constant, which is a positive real, and its square root, again a
  positive real; and by a quotient by that positive real, which is real. So every array of the edge data (the
  midpoints, the regularised lengths, the unit tangents, of either curve) is the coercion of an array of real
  numbers, and the lengths of positive ones. The closure facts are stated once, for arrays of any shape.
-/
import proofs.«177710_j40166534152779_1_alg».proof.Defs
import proofs.«177710_j40166534152779_1_alg».proof.Proof.Gen.ReferenceIdeal.Run
import proofs.«177710_j40166534152779_1_alg».proof.Proof.Gen.Pre_finite_inputs
import Idealize.ShloMosaic.Lib.ReduceAll

noncomputable section

open Idealize.ShloMosaic Idealize.ShloMosaic.TcCoe Idealize.SL.Sem

namespace Cert.Proof.Finite

/-- An array of extended reals all of whose entries are real numbers, with the real array as witness. -/
def IsReal {s : Shape} (x : s.Idx → EReal) : Prop := ∃ f : s.Idx → ℝ, x = fun i => ((f i : ℝ) : EReal)

/-- An array of extended reals all of whose entries are positive real numbers. -/
def IsPos {s : Shape} (x : s.Idx → EReal) : Prop :=
  ∃ f : s.Idx → ℝ, x = (fun i => ((f i : ℝ) : EReal)) ∧ ∀ i, 0 < f i

/-- An array of extended reals all of whose entries are nonnegative real numbers. -/
def IsNonneg {s : Shape} (x : s.Idx → EReal) : Prop :=
  ∃ f : s.Idx → ℝ, x = (fun i => ((f i : ℝ) : EReal)) ∧ ∀ i, 0 ≤ f i

theorem IsPos.isReal {s : Shape} {x : s.Idx → EReal} (h : IsPos x) : IsReal x :=
  let ⟨f, hf, _⟩ := h; ⟨f, hf⟩

theorem IsPos.isNonneg {s : Shape} {x : s.Idx → EReal} (h : IsPos x) : IsNonneg x :=
  let ⟨f, hf, hp⟩ := h; ⟨f, hf, fun i => (hp i).le⟩

theorem IsNonneg.isReal {s : Shape} {x : s.Idx → EReal} (h : IsNonneg x) : IsReal x :=
  let ⟨f, hf, _⟩ := h; ⟨f, hf⟩

/-- Entry by entry: an array is real as soon as each entry is. -/
theorem IsReal.of_forall {s : Shape} {x : s.Idx → EReal} (h : ∀ i, ∃ r : ℝ, x i = (r : EReal)) : IsReal x := by
  choose f hf using h
  exact ⟨f, funext hf⟩

/-- The coercion of the reals into the extended reals carries a finite sum to the sum of the coercions. -/
theorem coe_sum {ι : Type} (t : Finset ι) (f : ι → ℝ) :
    ((∑ i ∈ t, f i : ℝ) : EReal) = ∑ i ∈ t, (f i : EReal) := by
  classical
  refine Finset.induction_on t ?_ ?_
  · simp
  · intro a t ha ih
    rw [Finset.sum_insert ha, Finset.sum_insert ha, EReal.coe_add, ih]

variable {s : Shape} {φ : FTy}

theorem IsReal.add {x y : FVec Ideal s φ} (hx : IsReal x) (hy : IsReal y) : IsReal (addf x y) := by
  obtain ⟨f, rfl⟩ := hx
  obtain ⟨g, rfl⟩ := hy
  exact ⟨fun i => f i + g i, funext fun i => (EReal.coe_add _ _).symm⟩

theorem IsReal.sub {x y : FVec Ideal s φ} (hx : IsReal x) (hy : IsReal y) : IsReal (subf x y) := by
  obtain ⟨f, rfl⟩ := hx
  obtain ⟨g, rfl⟩ := hy
  exact ⟨fun i => f i - g i, funext fun i => (EReal.coe_sub _ _).symm⟩

theorem IsReal.mul {x y : FVec Ideal s φ} (hx : IsReal x) (hy : IsReal y) : IsReal (mulf x y) := by
  obtain ⟨f, rfl⟩ := hx
  obtain ⟨g, rfl⟩ := hy
  exact ⟨fun i => f i * g i, funext fun i => (EReal.coe_mul _ _).symm⟩

/-- The square of a real array is a nonnegative real array. -/
theorem IsReal.mul_self {x : FVec Ideal s φ} (hx : IsReal x) : IsNonneg (mulf x x) := by
  obtain ⟨f, rfl⟩ := hx
  exact ⟨fun i => f i * f i, funext fun i => (EReal.coe_mul _ _).symm, fun i => mul_self_nonneg _⟩

/-- A broadcast repeats entries of its operand. -/
theorem IsReal.bcast {t : Shape} {x : s.Idx → EReal} (hx : IsReal x) (dims : Fin s.rank → Fin t.rank)
    (h : s.BroadcastsInDim t dims) : IsReal (broadcastInDim t dims h x) := by
  obtain ⟨f, rfl⟩ := hx
  exact ⟨broadcastInDim t dims h f, rfl⟩

theorem IsPos.bcast {t : Shape} {x : s.Idx → EReal} (hx : IsPos x) (dims : Fin s.rank → Fin t.rank)
    (h : s.BroadcastsInDim t dims) : IsPos (broadcastInDim t dims h x) := by
  obtain ⟨f, rfl, hp⟩ := hx
  exact ⟨broadcastInDim t dims h f, rfl, fun j => hp _⟩

/-- A gathered entry is an entry of the operand. -/
theorem IsReal.gather {t si : Shape} {w : Nat} {x : s.Idx → EReal} (hx : IsReal x) (d : GatherDims s si t)
    (idx : IVec si w) : IsReal (Host.gather d x idx) := by
  obtain ⟨f, rfl⟩ := hx
  exact ⟨Host.gather d f idx, rfl⟩

/-- A constant array is real when its bit pattern denotes a real number. -/
theorem IsReal.const (b : BitVec φ.bits) (r : ℝ) (hb : Ideal.ofBits φ b = (r : EReal)) :
    IsReal (constant (F := Ideal) s φ b) :=
  ⟨fun _ => r, funext fun _ => hb⟩

theorem IsPos.const (b : BitVec φ.bits) (r : ℝ) (hr : 0 < r) (hb : Ideal.ofBits φ b = (r : EReal)) :
    IsPos (constant (F := Ideal) s φ b) :=
  ⟨fun _ => r, funext fun _ => hb, fun _ => hr⟩

/-- Nonnegative plus positive is positive. -/
theorem IsNonneg.add_pos {x y : FVec Ideal s φ} (hx : IsNonneg x) (hy : IsPos y) : IsPos (addf x y) := by
  obtain ⟨f, rfl, hf⟩ := hx
  obtain ⟨g, rfl, hg⟩ := hy
  exact ⟨fun i => f i + g i, funext fun i => (EReal.coe_add _ _).symm, fun i => add_pos_of_nonneg_of_pos (hf i) (hg i)⟩

/-- The square root of a positive real array is a positive real array. -/
theorem IsPos.sqrt {x : FVec Ideal s φ} (hx : IsPos x) : IsPos (Host.sqrt x) := by
  obtain ⟨f, rfl, hf⟩ := hx
  refine ⟨fun i => Real.sqrt (f i), funext fun i => ?_, fun i => Real.sqrt_pos.2 (hf i)⟩
  show Ideal.sqrt ((f i : ℝ) : EReal) = _
  rw [Ideal.sqrt_coe, if_neg (not_lt.2 (hf i).le)]

/-- A real array divided entry by entry by a positive real array is a real array. -/
theorem IsReal.div_pos {x y : FVec Ideal s φ} (hx : IsReal x) (hy : IsPos y) : IsReal (Host.divf x y) := by
  obtain ⟨f, rfl⟩ := hx
  obtain ⟨g, rfl, hg⟩ := hy
  refine ⟨fun i => f i * (1 / g i), funext fun i => ?_⟩
  show Ideal.div ((f i : ℝ) : EReal) ((g i : ℝ) : EReal) = _
  rw [Ideal.div_coe (hg i).ne', EReal.coe_mul]

/-- The host's sum along axes of a nonnegative real array, from a nonnegative real initial value, is a
    nonnegative real array: each result entry is the initial value plus a finite sum of entries. -/
theorem IsNonneg.reduceAdd {axes : List (Fin s.rank)} {t u : Shape} {x : FVec Ideal s φ} {init : u.Idx → Ideal φ}
    (hx : IsNonneg x) (hi : IsNonneg init) (h : s.ReducesTo axes t) (hu : 0 < u.numel) :
    IsNonneg (Host.reduceAdd x init h hu) := by
  obtain ⟨f, rfl, hf⟩ := hx
  obtain ⟨g, rfl, hg⟩ := hi
  refine ⟨fun j => g (Shape.Idx.first hu) + ∑ i ∈ Finset.univ.filter (fun i => h.drop i = j), f i,
    funext fun j => ?_, fun j => add_nonneg (hg _) (Finset.sum_nonneg fun i _ => hf i)⟩
  show ((g (Shape.Idx.first hu) : ℝ) : EReal) + ∑ i ∈ Finset.univ.filter (fun i => h.drop i = j), ((f i : ℝ) : EReal) = _
  rw [EReal.coe_add, coe_sum]

/-- An extended real whose absolute value is below the f32 pattern of plus infinity is a real number. -/
theorem real_of_abs_lt_inf (x : EReal)
    (h : FloatOps.cmpf (F := Ideal) (φ := .f32) .olt (FloatOps.hostAbsf (F := Ideal) (φ := .f32) x)
      (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot =>
    change BitVec.ofBool (decide (max (⊥ : EReal) (-(⊥ : EReal)) < ⊤)) = 1#1 at h
    simp at h
  | top =>
    change BitVec.ofBool (decide (max (⊤ : EReal) (-(⊤ : EReal)) < ⊤)) = 1#1 at h
    simp at h
  | coe r => exact ⟨r, rfl⟩

/-! ## The precondition read back -/

/-- A rank-zero shape has one index. -/
instance : Subsingleton Cert.Pre_finite_inputs.S_.Idx := ⟨fun a b => funext fun d => d.elim0⟩

/-- The predicate's one test, on one array: if the conjunction over all entries of "the absolute value is
    below plus infinity" holds, every entry is a real number. -/
theorem isReal_of_all_finite {s : Shape} {axes : List (Fin s.rank)} (x : FVec Ideal s .f32)
    (bc : Cert.Pre_finite_inputs.S_.BroadcastsInDim s (![] : Fin 0 → Fin s.rank))
    (h : s.ReducesTo axes Cert.Pre_finite_inputs.S_) (hu : 0 < Cert.Pre_finite_inputs.S_.numel)
    (j : Cert.Pre_finite_inputs.S_.Idx)
    (e : Host.reduce IntOp.andi
        (cmpf .olt (Host.absf x)
          (broadcastInDim s ![] bc (constant (F := Ideal) Cert.Pre_finite_inputs.S_ .f32 0x7F800000#32)))
        (constantI Cert.Pre_finite_inputs.S_ 1 1#1) h hu j = 1#1) : IsReal x :=
  IsReal.of_forall fun i => real_of_abs_lt_inf (x i) (Host.reduce_andi_all _ _ h hu j e i)

/-- Under the precondition the three float arguments of the kernel program hold real numbers only, on every
    device: the predicate is the conjunction of the test above on each of them. -/
theorem pre_real (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (m ((c.tc : Thread Cert.KernelIdeal.nD Cert.KernelIdeal.τ).loc Cert.KernelIdeal.main_arg0))
    ∧ IsReal (m ((c.tc : Thread Cert.KernelIdeal.nD Cert.KernelIdeal.τ).loc Cert.KernelIdeal.main_arg1))
    ∧ IsReal (m ((c.tc : Thread Cert.KernelIdeal.nD Cert.KernelIdeal.τ).loc Cert.KernelIdeal.main_arg3)) := by
  have h := congrFun (hpre c) (fun a => a.elim0)
  dsimp only [Cert.Pre_finite_inputs.fn] at h
  obtain ⟨h01, h3⟩ := IntOp.andi_eq_one.1 h
  obtain ⟨h0, h1⟩ := IntOp.andi_eq_one.1 h01
  exact ⟨isReal_of_all_finite _ _ _ _ _ h0, isReal_of_all_finite _ _ _ _ _ h1, isReal_of_all_finite _ _ _ _ _ h3⟩

/-! ## The constants of the edge data -/

theorem ofBits_zero : Ideal.ofBits .f32 0x00000000#32 = ((0 : ℝ) : EReal) := by
  simp [Ideal.ofBits, Ideal.ieee]

/-- The pattern of one half denotes a positive real. -/
theorem ofBits_half : ∃ r : ℝ, 0 < r ∧ Ideal.ofBits .f32 0x3F000000#32 = (r : EReal) := by
  refine ⟨8388608 * (2 ^ 24)⁻¹, by positivity, ?_⟩
  simp [Ideal.ofBits, Ideal.ieee]

/-- The pattern of the regulariser under the square root (about 1e-12) denotes a positive real. -/
theorem ofBits_eps : ∃ r : ℝ, 0 < r ∧ Ideal.ofBits .f32 0x2B8CBCCC#32 = (r : EReal) := by
  refine ⟨9223372 * (2 ^ 63)⁻¹, by positivity, ?_⟩
  simp [Ideal.ofBits, Ideal.ieee]

/-- The length of a real difference array along an axis, regularised: the square root of the sum of squares
    plus a positive constant is a positive real at every entry. -/
theorem isPos_norm {s t : Shape} {axes : List (Fin s.rank)} {d : FVec Ideal s .f32} (hd : IsReal d)
    (h : s.ReducesTo axes t) (hu : 0 < Cert.ReferenceIdeal.S_.numel)
    (bc : Cert.ReferenceIdeal.S_.BroadcastsInDim t (![] : Fin 0 → Fin t.rank)) :
    IsPos (Host.sqrt (addf (Host.reduceAdd (mulf d d) (constant (F := Ideal) Cert.ReferenceIdeal.S_ .f32 0x00000000#32) h hu)
      (broadcastInDim t ![] bc (constant (F := Ideal) Cert.ReferenceIdeal.S_ .f32 0x2B8CBCCC#32)))) := by
  obtain ⟨r, hr, hb⟩ := ofBits_eps
  exact ((hd.mul_self.reduceAdd ⟨fun _ => 0, funext fun _ => ofBits_zero, fun _ => le_rfl⟩ h hu).add_pos
    ((IsPos.const _ r hr hb).bcast _ _)).sqrt

/-! ## The edge data of the reference are real -/

section Reference

open Cert.ReferenceIdeal Cert.ReferenceIdeal.Value

variable (L : Valuation Cert.ReferenceIdeal.τ Cert.ReferenceIdeal.sig (Elt Ideal))

/-- The first curve's points, translated: a sum of two real arrays. -/
theorem real_v2 (h0 : IsReal (L (Proc.devRef .tc main_arg0))) (h3 : IsReal (L (Proc.devRef .tc main_arg3))) :
    IsReal (res_main_v2 L) := by
  unfold res_main_v2
  exact h0.add ((h3.bcast _ _).bcast _ _)

/-- The edges' first end points: gathered entries of the translated points. -/
theorem real_v11 (h0 : IsReal (L (Proc.devRef .tc main_arg0))) (h3 : IsReal (L (Proc.devRef .tc main_arg3))) :
    IsReal (res_main_v11 L) := by
  unfold res_main_v11
  exact (real_v2 L h0 h3).gather _ _

/-- The edges' second end points. -/
theorem real_v20 (h0 : IsReal (L (Proc.devRef .tc main_arg0))) (h3 : IsReal (L (Proc.devRef .tc main_arg3))) :
    IsReal (res_main_v20 L) := by
  unfold res_main_v20
  exact (real_v2 L h0 h3).gather _ _

/-- The edges' midpoints: one half of the sum of the end points. -/
theorem real_v23 (h0 : IsReal (L (Proc.devRef .tc main_arg0))) (h3 : IsReal (L (Proc.devRef .tc main_arg3))) :
    IsReal (res_main_v23 L) := by
  obtain ⟨r, _, hb⟩ := ofBits_half
  unfold res_main_v23
  exact ((IsReal.const _ r hb).bcast _ _).mul ((real_v11 L h0 h3).add (real_v20 L h0 h3))

/-- The edge vectors: the difference of the end points. -/
theorem real_v24 (h0 : IsReal (L (Proc.devRef .tc main_arg0))) (h3 : IsReal (L (Proc.devRef .tc main_arg3))) :
    IsReal (res_main_v24 L) := by
  unfold res_main_v24
  exact (real_v20 L h0 h3).sub (real_v11 L h0 h3)

/-- The edges' regularised lengths are positive reals. -/
theorem pos_v29 (h0 : IsReal (L (Proc.devRef .tc main_arg0))) (h3 : IsReal (L (Proc.devRef .tc main_arg3))) :
    IsPos (res_main_v29 L) := by
  unfold res_main_v29
  exact isPos_norm (real_v24 L h0 h3) _ _ _

theorem real_v29 (h0 : IsReal (L (Proc.devRef .tc main_arg0))) (h3 : IsReal (L (Proc.devRef .tc main_arg3))) :
    IsReal (res_main_v29 L) := (pos_v29 L h0 h3).isReal

/-- The unit tangents: the edge vectors divided by their positive lengths. -/
theorem real_v32 (h0 : IsReal (L (Proc.devRef .tc main_arg0))) (h3 : IsReal (L (Proc.devRef .tc main_arg3))) :
    IsReal (res_main_v32 L) := by
  unfold res_main_v32
  exact (real_v24 L h0 h3).div_pos (((pos_v29 L h0 h3).bcast _ _).bcast _ _)

/-- The second curve's edges' end points: gathered entries of the argument. -/
theorem real_v41 (h1 : IsReal (L (Proc.devRef .tc main_arg1))) : IsReal (res_main_v41 L) := by
  unfold res_main_v41
  exact h1.gather _ _

theorem real_v50 (h1 : IsReal (L (Proc.devRef .tc main_arg1))) : IsReal (res_main_v50 L) := by
  unfold res_main_v50
  exact h1.gather _ _

theorem real_v53 (h1 : IsReal (L (Proc.devRef .tc main_arg1))) : IsReal (res_main_v53 L) := by
  obtain ⟨r, _, hb⟩ := ofBits_half
  unfold res_main_v53
  exact ((IsReal.const _ r hb).bcast _ _).mul ((real_v41 L h1).add (real_v50 L h1))

theorem real_v54 (h1 : IsReal (L (Proc.devRef .tc main_arg1))) : IsReal (res_main_v54 L) := by
  unfold res_main_v54
  exact (real_v50 L h1).sub (real_v41 L h1)

theorem pos_v59 (h1 : IsReal (L (Proc.devRef .tc main_arg1))) : IsPos (res_main_v59 L) := by
  unfold res_main_v59
  exact isPos_norm (real_v54 L h1) _ _ _

theorem real_v59 (h1 : IsReal (L (Proc.devRef .tc main_arg1))) : IsReal (res_main_v59 L) := (pos_v59 L h1).isReal

theorem real_v62 (h1 : IsReal (L (Proc.devRef .tc main_arg1))) : IsReal (res_main_v62 L) := by
  unfold res_main_v62
  exact (real_v54 L h1).div_pos (((pos_v59 L h1).bcast _ _).bcast _ _)

end Reference

end Cert.Proof.Finite

end
-- ==== Proof.Assemble.lean ====
/-
  One sample of the value claim, assembled.

  The region's result at a sample is the double sum of the pair term over the 4096 rows of the staged arrays. If those
  rows are the padded concatenation of the X and Y edge data (the Y lengths negated, the padding zero) and the edge data
  are real numbers, the sum is a real double sum, the identity `aa - 2 * ab + bb` applies, and each of the three is the
  reference's inner product in the reference's own spelling.
-/
import proofs.«177710_j40166534152779_1_alg».proof.Proof.KernelResult
import proofs.«177710_j40166534152779_1_alg».proof.Proof.EdgeFinite

set_option maxRecDepth 16384

noncomputable section

namespace Cert.Proof.Assemble

open scoped BigOperators
open Cert.KernelIdeal Cert.KernelIdeal.Gen Cert.KernelIdeal.Run
open Idealize.ShloMosaic Idealize.ShloMosaic.TcCoe Idealize.ShloMosaic.ValueIdx
open Idealize.SL.Sem Varifold.Lift Cert.Proof.Finite

variable (m : (ℓ : Loc nD τ sig) → Buf (Elt Ideal) ℓ)

/-- ONE SAMPLE, assembled: if the staged arrays are the padded concatenations of the edge data `X23` … `X59` (centres,
    tangents, lengths of the X and of the Y edges; the Y lengths negated) and the edge data are real, the region's result
    at sample `b` is the reference's combination of its three inner products over the same edge data. -/
theorem sample (c : Dev nD) (b : Fin 8)
    (X23 X32 X53 X62 : (⟨3, ![8, 1999, 3]⟩ : Shape).Idx → EReal) (X29 X59 : (⟨2, ![8, 1999]⟩ : Shape).Idx → EReal)
    (st_c : ∀ (r : Fin 4096) (k : Fin 3), rowC m c b r k
      = if h : r.val < 1999 then X23 (ix3 b ⟨r.val, h⟩ k) else if h' : r.val < 3998 then X53 (ix3 b ⟨r.val - 1999, by omega⟩ k) else 0)
    (st_u : ∀ (r : Fin 4096) (k : Fin 3), rowU m c b r k
      = if h : r.val < 1999 then X32 (ix3 b ⟨r.val, h⟩ k) else if h' : r.val < 3998 then X62 (ix3 b ⟨r.val - 1999, by omega⟩ k) else 0)
    (st_l : ∀ (r : Fin 4096), rowL m c b r
      = if h : r.val < 1999 then X29 (ix2 b ⟨r.val, h⟩) else if h' : r.val < 3998 then - X59 (ix2 b ⟨r.val - 1999, by omega⟩) else 0)
    (r23 : IsReal X23) (r32 : IsReal X32) (r53 : IsReal X53) (r62 : IsReal X62) (r29 : IsReal X29) (r59 : IsReal X59) :
    outArr (F := Ideal) m c (ix3 b (0 : Fin 1) (0 : Fin 1))
      = ((0 : EReal) + ∑ p : Fin 1999, ∑ q : Fin 1999,
            refPair 0 (fun k => X23 (ix3 b p k)) (fun k => X23 (ix3 b q k)) (fun k => X32 (ix3 b p k)) (fun k => X32 (ix3 b q k)) (X29 (ix2 b p)) (X29 (ix2 b q)))
        - Ideal.ofBits .f32 0x40000000#32 * ((0 : EReal) + ∑ p : Fin 1999, ∑ q : Fin 1999,
            refPair 0 (fun k => X23 (ix3 b p k)) (fun k => X53 (ix3 b q k)) (fun k => X32 (ix3 b p k)) (fun k => X62 (ix3 b q k)) (X29 (ix2 b p)) (X59 (ix2 b q)))
        + ((0 : EReal) + ∑ p : Fin 1999, ∑ q : Fin 1999,
            refPair 0 (fun k => X53 (ix3 b p k)) (fun k => X53 (ix3 b q k)) (fun k => X62 (ix3 b p k)) (fun k => X62 (ix3 b q k)) (X59 (ix2 b p)) (X59 (ix2 b q))) := by
  obtain ⟨f23, rfl⟩ := r23; obtain ⟨f32, rfl⟩ := r32; obtain ⟨f53, rfl⟩ := r53
  obtain ⟨f62, rfl⟩ := r62; obtain ⟨f29, rfl⟩ := r29; obtain ⟨f59, rfl⟩ := r59
  rw [out_kerPair]
  refine sample_eq (fun p k => f23 (ix3 b p k)) (fun p k => f53 (ix3 b p k)) (fun p k => f32 (ix3 b p k)) (fun p k => f62 (ix3 b p k))
    (fun p => f29 (ix2 b p)) (fun p => f59 (ix2 b p)) (rowC m c b) (rowU m c b) (rowL m c b) ?_ ?_ ?_
  · intro r k
    rw [st_c r k]; unfold padded
    split_ifs <;> simp
  · intro r k
    rw [st_u r k]; unfold padded
    split_ifs <;> simp
  · intro r
    rw [st_l r]; unfold Varifold.paddedLen
    split_ifs <;> simp

end Cert.Proof.Assemble

end
-- ==== Proof.RefSums.lean ====
/-
  The reference's result as sums, part 1: the outer structure and the inner product of a curve with a curve.

  The mathematics. For one sample `b` the reference forms, from the edge centres `c`, `c'`, the unit tangents `u`, `u'`
  and the edge lengths `l`, `l'` of two polygonal curves, the array over all pairs of edges `(p, q)` of
  `exp (-|c_p - c'_q|² / 0.25) · (u_p · u'_q)² · (l_p · l'_q)` and sums it over both edge axes. Here every stage of that
  expression is read at an index: the two-step broadcasts put edge `p`'s row along the first pair axis and edge `q`'s
  along the second; the sum over the last axis is the sum over the three coordinates; the batched product of the tangents
  with the transposed tangents is the sum over the three coordinates of the products; the sum over the two pair axes is
  the double sum over `p` and `q`, because an index of the three-axis array reduces to sample `b` exactly when its first
  coordinate is `b`. Read that way the inner product at sample `b` is the initial value plus the double sum of the pair
  term. The result of the whole program is then the mean over the eight samples of
  `⟨X,X⟩ - 2 · ⟨X,Y⟩ + ⟨Y,Y⟩` plus the regulariser: the total sum over the samples from the initial value, divided by the word of eight.
  The stage lemmas are stated for arbitrary operand arrays, so that they serve all three inner products.
-/
import proofs.«177710_j40166534152779_1_alg».proof.Proof.Gen.ReferenceIdeal.Run
import proofs.«177710_j40166534152779_1_alg».proof.Proof.ValueLift
import Idealize.ShloMosaic.Lib.IdealHost
import Idealize.ShloMosaic.Lib.StackMember
import Idealize.ShloMosaic.Lib.Pipeline.Value

set_option maxRecDepth 65536

noncomputable section

namespace Cert.ReferenceIdeal.RefValue

open Cert.ReferenceIdeal Cert.ReferenceIdeal.Gen
open Idealize.ShloMosaic Idealize.ShloMosaic.TcCoe Idealize.ShloMosaic.StableHlo Idealize.ShloMosaic.ValueIdx
open Idealize.SL.Sem
open scoped BigOperators

/-! ## Pointwise host operations at an index -/

/-- The host's exponential at an index is the exponential of the element. -/
theorem hostExp_apply {s : Shape} {φ : FTy} (x : FVec Ideal s φ) (i : s.Idx) : Host.exp x i = Ideal.exp (x i) := rfl
/-- The host's negation at an index is the negation of the element. -/
theorem hostNegf_apply {s : Shape} {φ : FTy} (x : FVec Ideal s φ) (i : s.Idx) : Host.negf x i = -(x i) := rfl

/-- A broadcast scalar constant reads the extended real of its word at every index. -/
theorem bcast_const_apply {T : Shape} (h : S_.BroadcastsInDim T ![]) (w : BitVec 32) (j : T.Idx) :
    broadcastInDim T ![] h (constant (F := Ideal) S_ .f32 w) j = Ideal.ofBits .f32 w :=
  broadcastInDim_scalar_apply h _ j

/-! ## The two-step broadcasts read at an index -/

/-- Rows of coordinates placed along the first pair axis: entry `(b, p, q, k)` is coordinate `k` of edge `p`. -/
theorem bcast_first3_apply (c : FVec Ideal S8x1999x3 .f32) (b : Fin 8) (p q : Fin 1999) (k : Fin 3) :
    broadcastInDim S8x1999x1999x3 ![0, 1, 2, 3] bcast_S8x1999x1x3_S8x1999x1999x3_0_1_2_3
        (broadcastInDim S8x1999x1x3 ![0, 1, 3] bcast_S8x1999x3_S8x1999x1x3_0_1_3 c) (ix4 b p q k)
      = c (ix3 b p k) := by
  refine (broadcastInDim_apply _ _ _ (ix4 b p q k) (ix4 b p (0 : Fin 1) k) (fun a => ?_)).trans ?_
  · match a with
    | ⟨0, _⟩ => rfl
    | ⟨1, _⟩ => rfl
    | ⟨2, _⟩ => rfl
    | ⟨3, _⟩ => rfl
  · exact broadcastInDim_apply _ _ _ (ix4 b p (0 : Fin 1) k) (ix3 b p k) (fun a => match a with
      | ⟨0, _⟩ => rfl
      | ⟨1, _⟩ => rfl
      | ⟨2, _⟩ => rfl)

/-- Rows of coordinates placed along the second pair axis: entry `(b, p, q, k)` is coordinate `k` of edge `q`. -/
theorem bcast_second3_apply (c : FVec Ideal S8x1999x3 .f32) (b : Fin 8) (p q : Fin 1999) (k : Fin 3) :
    broadcastInDim S8x1999x1999x3 ![0, 1, 2, 3] bcast_S8x1x1999x3_S8x1999x1999x3_0_1_2_3
        (broadcastInDim S8x1x1999x3 ![0, 2, 3] bcast_S8x1999x3_S8x1x1999x3_0_2_3 c) (ix4 b p q k)
      = c (ix3 b q k) := by
  refine (broadcastInDim_apply _ _ _ (ix4 b p q k) (ix4 b (0 : Fin 1) q k) (fun a => ?_)).trans ?_
  · match a with
    | ⟨0, _⟩ => rfl
    | ⟨1, _⟩ => rfl
    | ⟨2, _⟩ => rfl
    | ⟨3, _⟩ => rfl
  · exact broadcastInDim_apply _ _ _ (ix4 b (0 : Fin 1) q k) (ix3 b q k) (fun a => match a with
      | ⟨0, _⟩ => rfl
      | ⟨1, _⟩ => rfl
      | ⟨2, _⟩ => rfl)

/-- Lengths placed along the first pair axis: entry `(b, p, q)` is the length of edge `p`. -/
theorem bcast_first2_apply (l : FVec Ideal S8x1999 .f32) (b : Fin 8) (p q : Fin 1999) :
    broadcastInDim S8x1999x1999 ![0, 1, 2] bcast_S8x1999x1_S8x1999x1999_0_1_2
        (broadcastInDim S8x1999x1 ![0, 1] bcast_S8x1999_S8x1999x1_0_1 l) (ix3 b p q)
      = l (ix2 b p) := by
  refine (broadcastInDim_apply _ _ _ (ix3 b p q) (ix3 b p (0 : Fin 1)) (fun a => ?_)).trans ?_
  · match a with
    | ⟨0, _⟩ => rfl
    | ⟨1, _⟩ => rfl
    | ⟨2, _⟩ => rfl
  · exact broadcastInDim_apply _ _ _ (ix3 b p (0 : Fin 1)) (ix2 b p) (fun a => match a with
      | ⟨0, _⟩ => rfl
      | ⟨1, _⟩ => rfl)

/-- Lengths placed along the second pair axis: entry `(b, p, q)` is the length of edge `q`. -/
theorem bcast_second2_apply (l : FVec Ideal S8x1999 .f32) (b : Fin 8) (p q : Fin 1999) :
    broadcastInDim S8x1999x1999 ![0, 1, 2] bcast_S8x1x1999_S8x1999x1999_0_1_2
        (broadcastInDim S8x1x1999 ![0, 2] bcast_S8x1999_S8x1x1999_0_2 l) (ix3 b p q)
      = l (ix2 b q) := by
  refine (broadcastInDim_apply _ _ _ (ix3 b p q) (ix3 b (0 : Fin 1) q) (fun a => ?_)).trans ?_
  · match a with
    | ⟨0, _⟩ => rfl
    | ⟨1, _⟩ => rfl
    | ⟨2, _⟩ => rfl
  · exact broadcastInDim_apply _ _ _ (ix3 b (0 : Fin 1) q) (ix2 b q) (fun a => match a with
      | ⟨0, _⟩ => rfl
      | ⟨1, _⟩ => rfl)

/-! ## The batched product of the tangents -/

/-- The batched product of the tangents with the transposed tangents at `(b, p, q)` is the sum over the three
    coordinates of the products of edge `p`'s and edge `q`'s. -/
theorem dot_apply (u u' : FVec Ideal S8x1999x3 .f32) (b : Fin 8) (p q : Fin 1999) :
    Host.dotGeneral dot_S8x1999x3_S8x3x1999_S8x1999x1999_2_1_1_2_0_0 none u
        (transpose S8x3x1999 [0, 2, 1] u' transposes_S8x1999x3_S8x3x1999_0_2_1) (ix3 b p q)
      = ∑ k : Fin 3, u (ix3 b p k) * u' (ix3 b q k) := by
  refine (StackMember.dotGeneral_stack_apply dot_S8x1999x3_S8x3x1999_S8x1999x1999_2_1_1_2_0_0_wf none u _ b p q).trans ?_
  refine Finset.sum_congr rfl fun k _ => congrArg (u (ix3 b p k) * ·) ?_
  exact transpose_apply _ _ _ (ix3 b k q) (ix3 b q k) (fun a => match a with
    | ⟨0, _⟩ => rfl
    | ⟨1, _⟩ => rfl
    | ⟨2, _⟩ => rfl)

/-! ## The two sums -/

/-- The sum over the last axis of a four-axis array at `(b, p, q)`: the initial value plus the sum over the three
    coordinates. -/
theorem reduce_last_apply (D : FVec Ideal S8x1999x1999x3 .f32) (b : Fin 8) (p q : Fin 1999) :
    Host.reduceAdd D (constant (F := Ideal) S_ .f32 0x00000000#32) reducesTo_S8x1999x1999x3_S8x1999x1999_d3 h_S_ (ix3 b p q)
      = (0 : EReal) + ∑ k : Fin 3, D (ix4 b p q k) := by
  have hw : Shape.Reduces S8x1999x1999x3 [3] S8x1999x1999 := by decide
  refine (hostReduceAdd_apply D _ _ _ (ix3 b p q)).trans ?_
  refine (Ideal.hostReduceAdd_single reducesTo_S8x1999x1999x3_S8x1999x1999_d3 hw D _ (ix3 b p q)).trans ?_
  refine congrArg₂ (· + ·) Ideal.ofBits_zero_f32 ?_
  refine Finset.sum_congr rfl fun k _ => congrArg D ?_
  funext a
  match a with
  | ⟨0, _⟩ => exact Fin.ext rfl
  | ⟨1, _⟩ => exact Fin.ext rfl
  | ⟨2, _⟩ => exact Fin.ext rfl
  | ⟨3, _⟩ => exact Fin.ext rfl

/-- The sum over the two pair axes of a three-axis array at sample `b`: the initial value plus the double sum over the
    pairs. An index reduces to sample `b` exactly when its first coordinate is `b`, so the indices summed are the
    `(b, p, q)`. -/
theorem reduce_pairs_apply (X : FVec Ideal S8x1999x1999 .f32) (b : Fin 8) :
    Host.reduceAdd X (constant (F := Ideal) S_ .f32 0x00000000#32) reducesTo_S8x1999x1999_S8_d1_2 h_S_ (ix1 b)
      = (0 : EReal) + ∑ p : Fin 1999, ∑ q : Fin 1999, X (ix3 b p q) := by
  refine (hostReduceAdd_apply X _ _ _ (ix1 b)).trans ?_
  unfold Ideal.hostReduceAdd
  refine congrArg₂ (· + ·) Ideal.ofBits_zero_f32 ?_
  rw [← Fintype.sum_prod_type']
  symm
  refine Finset.sum_bij' (fun pq _ => ix3 b pq.1 pq.2) (fun i _ => ((i 1 : Fin 1999), (i 2 : Fin 1999))) ?_ ?_ ?_ ?_ ?_
  · intro pq _
    refine Finset.mem_filter.mpr ⟨Finset.mem_univ _, ?_⟩
    funext a
    match a with
    | ⟨0, _⟩ => exact Fin.ext rfl
  · intro i _
    exact Finset.mem_univ _
  · intro pq _
    rfl
  · intro i hi
    have h0 := congrArg Fin.val (congrFun (Finset.mem_filter.mp hi).2 ⟨0, by decide⟩)
    funext a
    match a with
    | ⟨0, _⟩ => exact Fin.ext h0.symm
    | ⟨1, _⟩ => rfl
    | ⟨2, _⟩ => rfl
  · intro pq _
    rfl

/-! ## The inner product of two curves -/

/-- The reference's inner product of two curves as it prints it, over arbitrary edge data: centres `cX`, `cY`, unit
    tangents `uX`, `uY`, lengths `lX`, `lY`; one entry per sample. -/
def innerTerm (cX cY uX uY : FVec Ideal S8x1999x3 .f32) (lX lY : FVec Ideal S8x1999 .f32) : FVec Ideal S8 .f32 :=
  Host.reduceAdd (mulf (mulf (Host.exp (Host.divf (Host.negf (Host.reduceAdd (mulf (subf (broadcastInDim S8x1999x1999x3 ![0, 1, 2, 3] bcast_S8x1999x1x3_S8x1999x1999x3_0_1_2_3 (broadcastInDim S8x1999x1x3 ![0, 1, 3] bcast_S8x1999x3_S8x1999x1x3_0_1_3 cX)) (broadcastInDim S8x1999x1999x3 ![0, 1, 2, 3] bcast_S8x1x1999x3_S8x1999x1999x3_0_1_2_3 (broadcastInDim S8x1x1999x3 ![0, 2, 3] bcast_S8x1999x3_S8x1x1999x3_0_2_3 cY))) (subf (broadcastInDim S8x1999x1999x3 ![0, 1, 2, 3] bcast_S8x1999x1x3_S8x1999x1999x3_0_1_2_3 (broadcastInDim S8x1999x1x3 ![0, 1, 3] bcast_S8x1999x3_S8x1999x1x3_0_1_3 cX)) (broadcastInDim S8x1999x1999x3 ![0, 1, 2, 3] bcast_S8x1x1999x3_S8x1999x1999x3_0_1_2_3 (broadcastInDim S8x1x1999x3 ![0, 2, 3] bcast_S8x1999x3_S8x1x1999x3_0_2_3 cY)))) (constant S_ .f32 0x00000000#32) reducesTo_S8x1999x1999x3_S8x1999x1999_d3 h_S_)) (broadcastInDim S8x1999x1999 ![] bcast_S_S8x1999x1999 (constant S_ .f32 0x3E800000#32)))) (mulf (Host.dotGeneral dot_S8x1999x3_S8x3x1999_S8x1999x1999_2_1_1_2_0_0 none uX (transpose S8x3x1999 [0, 2, 1] uY transposes_S8x1999x3_S8x3x1999_0_2_1)) (Host.dotGeneral dot_S8x1999x3_S8x3x1999_S8x1999x1999_2_1_1_2_0_0 none uX (transpose S8x3x1999 [0, 2, 1] uY transposes_S8x1999x3_S8x3x1999_0_2_1)))) (mulf (broadcastInDim S8x1999x1999 ![0, 1, 2] bcast_S8x1999x1_S8x1999x1999_0_1_2 (broadcastInDim S8x1999x1 ![0, 1] bcast_S8x1999_S8x1999x1_0_1 lX)) (broadcastInDim S8x1999x1999 ![0, 1, 2] bcast_S8x1x1999_S8x1999x1999_0_1_2 (broadcastInDim S8x1x1999 ![0, 2] bcast_S8x1999_S8x1x1999_0_2 lY)))) (constant S_ .f32 0x00000000#32) reducesTo_S8x1999x1999_S8_d1_2 h_S_

/-- The inner product of two curves at sample `b` as a double sum of the pair term over all pairs of edges. -/
def refInner (c c' u u' : FVec Ideal S8x1999x3 .f32) (l l' : FVec Ideal S8x1999 .f32) (b : Fin 8) : EReal :=
  (0 : EReal) + ∑ p : Fin 1999, ∑ q : Fin 1999,
    Varifold.Lift.refPair 0 (fun k => c (ix3 b p k)) (fun k => c' (ix3 b q k)) (fun k => u (ix3 b p k)) (fun k => u' (ix3 b q k))
      (l (ix2 b p)) (l' (ix2 b q))

/-- THE INNER PRODUCT READ AT A SAMPLE: the printed term at sample `b` is the double sum of the pair term. -/
theorem innerTerm_apply (cX cY uX uY : FVec Ideal S8x1999x3 .f32) (lX lY : FVec Ideal S8x1999 .f32) (b : Fin 8) :
    innerTerm cX cY uX uY lX lY (ix1 b) = refInner cX cY uX uY lX lY b := by
  unfold innerTerm refInner
  refine (reduce_pairs_apply _ b).trans ?_
  refine congrArg ((0 : EReal) + ·) ?_
  refine Finset.sum_congr rfl fun p _ => Finset.sum_congr rfl fun q _ => ?_
  unfold Varifold.Lift.refPair
  simp only [mulf_apply, subf_apply, hostExp_apply, hostDivf_apply, hostNegf_apply, reduce_last_apply]
  refine congrArg₂ (· * ·)
    (congrArg₂ (· * ·)
      (congrArg Ideal.exp (congrArg₂ Ideal.div
        (congrArg (fun z : EReal => -z) (congrArg ((0 : EReal) + ·) (Finset.sum_congr rfl fun k _ => ?_)))
        (bcast_const_apply _ _ _)))
      (congrArg₂ (· * ·) (dot_apply uX uY b p q) (dot_apply uX uY b p q)))
    (congrArg₂ (· * ·) (bcast_first2_apply lX b p q) (bcast_second2_apply lY b p q))
  exact congrArg₂ (· * ·)
    (congrArg₂ (· - ·) (bcast_first3_apply cX b p q k) (bcast_second3_apply cY b p q k))
    (congrArg₂ (· - ·) (bcast_first3_apply cX b p q k) (bcast_second3_apply cY b p q k))

/-! ## The four named terms of the result -/

/-- The inner product of the deformed template with itself, per sample: the reference's printed term. -/
def AA_term (L : Valuation τ sig (Elt Ideal)) : FVec Ideal S8 .f32 :=
  Host.reduceAdd (mulf (mulf (Host.exp (Host.divf (Host.negf (Host.reduceAdd (mulf (Value.res_main_v67 L) (Value.res_main_v67 L)) (constant S_ .f32 0x00000000#32) reducesTo_S8x1999x1999x3_S8x1999x1999_d3 h_S_)) (broadcastInDim S8x1999x1999 ![] bcast_S_S8x1999x1999 (constant S_ .f32 0x3E800000#32)))) (mulf (Value.res_main_v75 L) (Value.res_main_v75 L))) (mulf (broadcastInDim S8x1999x1999 ![0, 1, 2] bcast_S8x1999x1_S8x1999x1999_0_1_2 (broadcastInDim S8x1999x1 ![0, 1] bcast_S8x1999_S8x1999x1_0_1 (Value.res_main_v29 L))) (broadcastInDim S8x1999x1999 ![0, 1, 2] bcast_S8x1x1999_S8x1999x1999_0_1_2 (broadcastInDim S8x1x1999 ![0, 2] bcast_S8x1999_S8x1x1999_0_2 (Value.res_main_v29 L))))) (constant S_ .f32 0x00000000#32) reducesTo_S8x1999x1999_S8_d1_2 h_S_

/-- The inner product of the deformed template with the target, per sample. -/
def AB_term (L : Valuation τ sig (Elt Ideal)) : FVec Ideal S8 .f32 :=
  Host.reduceAdd (mulf (mulf (Host.exp (Host.divf (Host.negf (Host.reduceAdd (mulf (Value.res_main_v89 L) (Value.res_main_v89 L)) (constant S_ .f32 0x00000000#32) reducesTo_S8x1999x1999x3_S8x1999x1999_d3 h_S_)) (broadcastInDim S8x1999x1999 ![] bcast_S_S8x1999x1999 (constant S_ .f32 0x3E800000#32)))) (mulf (Value.res_main_v97 L) (Value.res_main_v97 L))) (mulf (broadcastInDim S8x1999x1999 ![0, 1, 2] bcast_S8x1999x1_S8x1999x1999_0_1_2 (broadcastInDim S8x1999x1 ![0, 1] bcast_S8x1999_S8x1999x1_0_1 (Value.res_main_v29 L))) (broadcastInDim S8x1999x1999 ![0, 1, 2] bcast_S8x1x1999_S8x1999x1999_0_1_2 (broadcastInDim S8x1x1999 ![0, 2] bcast_S8x1999_S8x1x1999_0_2 (Value.res_main_v59 L))))) (constant S_ .f32 0x00000000#32) reducesTo_S8x1999x1999_S8_d1_2 h_S_

/-- The inner product of the target with itself, per sample. -/
def BB_term (L : Valuation τ sig (Elt Ideal)) : FVec Ideal S8 .f32 :=
  Host.reduceAdd (mulf (mulf (Host.exp (Host.divf (Host.negf (Host.reduceAdd (mulf (Value.res_main_v114 L) (Value.res_main_v114 L)) (constant S_ .f32 0x00000000#32) reducesTo_S8x1999x1999x3_S8x1999x1999_d3 h_S_)) (broadcastInDim S8x1999x1999 ![] bcast_S_S8x1999x1999 (constant S_ .f32 0x3E800000#32)))) (mulf (Value.res_main_v122 L) (Value.res_main_v122 L))) (mulf (broadcastInDim S8x1999x1999 ![0, 1, 2] bcast_S8x1999x1_S8x1999x1999_0_1_2 (broadcastInDim S8x1999x1 ![0, 1] bcast_S8x1999_S8x1999x1_0_1 (Value.res_main_v59 L))) (broadcastInDim S8x1999x1999 ![0, 1, 2] bcast_S8x1x1999_S8x1999x1999_0_1_2 (broadcastInDim S8x1x1999 ![0, 2] bcast_S8x1999_S8x1x1999_0_2 (Value.res_main_v59 L))))) (constant S_ .f32 0x00000000#32) reducesTo_S8x1999x1999_S8_d1_2 h_S_

/-- The regulariser, per sample (not opened here). -/
def SR_term (L : Valuation τ sig (Elt Ideal)) : FVec Ideal S8 .f32 :=
  mulf (broadcastInDim S8 ![] bcast_S_S8 (constant S_ .f32 0x33D6BF95#32)) (Host.reduceAdd (mulf (Value.res_main_v203 L) (Value.res_main_v203 L)) (constant S_ .f32 0x00000000#32) reducesTo_S8x1999x3_S8_d1_2 h_S_)

/-- The inner product of the deformed template with itself at sample `b` is the double sum of the pair term over its
    own edge data. -/
theorem aa_apply (L : Valuation τ sig (Elt Ideal)) (b : Fin 8) :
    AA_term L (ix1 b) = refInner (Value.res_main_v23 L) (Value.res_main_v23 L) (Value.res_main_v32 L) (Value.res_main_v32 L)
      (Value.res_main_v29 L) (Value.res_main_v29 L) b :=
  innerTerm_apply (Value.res_main_v23 L) (Value.res_main_v23 L) (Value.res_main_v32 L) (Value.res_main_v32 L)
    (Value.res_main_v29 L) (Value.res_main_v29 L) b

/-! ## The outer structure -/

/-- The whole result as the reference prints it. -/
def T_term (L : Valuation τ sig (Elt Ideal)) : FVec Ideal S_ .f32 :=
  Host.divf (Host.reduceAdd (addf (addf (subf (Host.reduceAdd (mulf (mulf (Host.exp (Host.divf (Host.negf (Host.reduceAdd (mulf (Value.res_main_v67 L) (Value.res_main_v67 L)) (constant S_ .f32 0x00000000#32) reducesTo_S8x1999x1999x3_S8x1999x1999_d3 h_S_)) (broadcastInDim S8x1999x1999 ![] bcast_S_S8x1999x1999 (constant S_ .f32 0x3E800000#32)))) (mulf (Value.res_main_v75 L) (Value.res_main_v75 L))) (mulf (broadcastInDim S8x1999x1999 ![0, 1, 2] bcast_S8x1999x1_S8x1999x1999_0_1_2 (broadcastInDim S8x1999x1 ![0, 1] bcast_S8x1999_S8x1999x1_0_1 (Value.res_main_v29 L))) (broadcastInDim S8x1999x1999 ![0, 1, 2] bcast_S8x1x1999_S8x1999x1999_0_1_2 (broadcastInDim S8x1x1999 ![0, 2] bcast_S8x1999_S8x1x1999_0_2 (Value.res_main_v29 L))))) (constant S_ .f32 0x00000000#32) reducesTo_S8x1999x1999_S8_d1_2 h_S_) (mulf (broadcastInDim S8 ![] bcast_S_S8 (constant S_ .f32 0x40000000#32)) (Host.reduceAdd (mulf (mulf (Host.exp (Host.divf (Host.negf (Host.reduceAdd (mulf (Value.res_main_v89 L) (Value.res_main_v89 L)) (constant S_ .f32 0x00000000#32) reducesTo_S8x1999x1999x3_S8x1999x1999_d3 h_S_)) (broadcastInDim S8x1999x1999 ![] bcast_S_S8x1999x1999 (constant S_ .f32 0x3E800000#32)))) (mulf (Value.res_main_v97 L) (Value.res_main_v97 L))) (mulf (broadcastInDim S8x1999x1999 ![0, 1, 2] bcast_S8x1999x1_S8x1999x1999_0_1_2 (broadcastInDim S8x1999x1 ![0, 1] bcast_S8x1999_S8x1999x1_0_1 (Value.res_main_v29 L))) (broadcastInDim S8x1999x1999 ![0, 1, 2] bcast_S8x1x1999_S8x1999x1999_0_1_2 (broadcastInDim S8x1x1999 ![0, 2] bcast_S8x1999_S8x1x1999_0_2 (Value.res_main_v59 L))))) (constant S_ .f32 0x00000000#32) reducesTo_S8x1999x1999_S8_d1_2 h_S_))) (Host.reduceAdd (mulf (mulf (Host.exp (Host.divf (Host.negf (Host.reduceAdd (mulf (Value.res_main_v114 L) (Value.res_main_v114 L)) (constant S_ .f32 0x00000000#32) reducesTo_S8x1999x1999x3_S8x1999x1999_d3 h_S_)) (broadcastInDim S8x1999x1999 ![] bcast_S_S8x1999x1999 (constant S_ .f32 0x3E800000#32)))) (mulf (Value.res_main_v122 L) (Value.res_main_v122 L))) (mulf (broadcastInDim S8x1999x1999 ![0, 1, 2] bcast_S8x1999x1_S8x1999x1999_0_1_2 (broadcastInDim S8x1999x1 ![0, 1] bcast_S8x1999_S8x1999x1_0_1 (Value.res_main_v59 L))) (broadcastInDim S8x1999x1999 ![0, 1, 2] bcast_S8x1x1999_S8x1999x1999_0_1_2 (broadcastInDim S8x1x1999 ![0, 2] bcast_S8x1999_S8x1x1999_0_2 (Value.res_main_v59 L))))) (constant S_ .f32 0x00000000#32) reducesTo_S8x1999x1999_S8_d1_2 h_S_)) (mulf (broadcastInDim S8 ![] bcast_S_S8 (constant S_ .f32 0x33D6BF95#32)) (Host.reduceAdd (mulf (Value.res_main_v203 L) (Value.res_main_v203 L)) (constant S_ .f32 0x00000000#32) reducesTo_S8x1999x3_S8_d1_2 h_S_))) (constant S_ .f32 0x00000000#32) reducesTo_S8_S_d0 h_S_) (constant S_ .f32 0x41000000#32)

/-- The result as a number: the mean over the eight samples of `⟨X,X⟩ - 2 · ⟨X,Y⟩ + ⟨Y,Y⟩` plus the regulariser. -/
def refTotal (L : Valuation τ sig (Elt Ideal)) : EReal :=
  Ideal.div (Ideal.ofBits .f32 0x00000000#32
      + ∑ i : S8.Idx, ((AA_term L i - Ideal.ofBits .f32 0x40000000#32 * AB_term L i + BB_term L i) + SR_term L i))
    (Ideal.ofBits .f32 0x41000000#32)

/-- THE OUTER STRUCTURE: the printed result at its one index is the total over the samples, from the initial value,
    divided by the word of eight. -/
theorem result_apply (L : Valuation τ sig (Elt Ideal)) : T_term L ix0 = refTotal L := by
  unfold T_term refTotal
  refine (hostDivf_apply _ _ ix0).trans ?_
  refine congrArg₂ Ideal.div ?_ rfl
  refine (hostReduceAdd_apply _ _ _ _ ix0).trans ?_
  refine (Ideal.hostReduceAdd_total reducesTo_S8_S_d0 (fun a => a.elim0) _ _ ix0).trans ?_
  refine congrArg₂ (· + ·) rfl ?_
  refine Finset.sum_congr rfl fun i _ => ?_
  unfold AA_term AB_term BB_term SR_term
  simp only [addf_apply, subf_apply]
  rw [mulf_apply (broadcastInDim S8 ![] bcast_S_S8 (constant S_ .f32 0x40000000#32)), bcast_const_apply]

/-- The reference's run with its result as that number: every weakly fair execution ends with the result buffer at
    `refTotal` of the launch contents and the five arguments kept. -/
theorem run_sums (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v210) = (fun _ => refTotal (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (funext fun j => by rw [eq_ix0 j]; exact result_apply (launchContents m c)), (h c).2⟩)
    (Value.run (F := Ideal) m ρ)

/-! ## The outer sum over the samples' coordinate -/

/-- A sum over the indices of a one-axis array is the sum over the coordinate. -/
theorem sum_idx1 {M : Type*} [AddCommMonoid M] {n : Nat} (f : (⟨1, ![n]⟩ : Shape).Idx → M) :
    ∑ i, f i = ∑ a : Fin n, f (ix1 a) :=
  Fintype.sum_equiv (⟨fun i => i 0, fun a => ix1 a, fun i => (eq_ix1 i).symm, fun _ => rfl⟩ : (⟨1, ![n]⟩ : Shape).Idx ≃ Fin n)
    f (fun a => f (ix1 a)) fun i => congrArg f (eq_ix1 i)

/-- The result with the initial word evaluated and the samples numbered: the mean over `b = 0 … 7`. -/
theorem refTotal_eq (L : Valuation τ sig (Elt Ideal)) :
    refTotal L = Ideal.div ((0 : EReal) + ∑ b : Fin 8,
        ((AA_term L (ix1 b) - Ideal.ofBits .f32 0x40000000#32 * AB_term L (ix1 b) + BB_term L (ix1 b)) + SR_term L (ix1 b)))
      (Ideal.ofBits .f32 0x41000000#32) :=
  congrArg₂ Ideal.div (congrArg₂ (· + ·) Ideal.ofBits_zero_f32
    (sum_idx1 fun i => (AA_term L i - Ideal.ofBits .f32 0x40000000#32 * AB_term L i + BB_term L i) + SR_term L i)) rfl

end Cert.ReferenceIdeal.RefValue

end
-- ==== Proof.RefSumsXY.lean ====
/-
  The reference's result as sums, part 2: the inner product of the deformed template with the target, and of the
  target with itself.

  The mathematics. For one sample `b` the reference forms three inner products of polygonal curves,
  `⟨X, X⟩`, `⟨X, Y⟩` and `⟨Y, Y⟩`, each the sum over all pairs of edges `(p, q)` of
  `exp (-|c_p - c'_q|² / 0.25) · (u_p · u'_q)² · (l_p · l'_q)`, where `c`, `u`, `l` are the edge centres, unit
  tangents and edge lengths of the first curve and `c'`, `u'`, `l'` those of the second. The three printed terms are
  one expression in the six operand arrays; they differ only in which curve's arrays are passed. The expression, read
  at a sample for arbitrary operand arrays, is the double sum of the pair term. Here it is instantiated at the
  template's data against the target's (`⟨X, Y⟩`) and at the target's data against itself (`⟨Y, Y⟩`).
-/
import proofs.«177710_j40166534152779_1_alg».proof.Proof.RefSums

set_option maxRecDepth 65536

noncomputable section

namespace Cert.ReferenceIdeal.RefValue

open Cert.ReferenceIdeal Cert.ReferenceIdeal.Gen
open Idealize.ShloMosaic Idealize.ShloMosaic.TcCoe Idealize.ShloMosaic.StableHlo Idealize.ShloMosaic.ValueIdx
open Idealize.SL.Sem
open scoped BigOperators

/-! ## The X–Y and Y–Y inner products -/

/-- The inner product of the deformed template with the target at sample `b` is the double sum of the pair term over
    the template's edges (centres, tangents, lengths) against the target's. The printed term differs from the
    self-product only in which curve's data the second operands are: the centre differences subtract the target's
    centres, the batched product contracts with the target's tangents, and the second length factor is the target's. -/
theorem ab_apply (L : Valuation τ sig (Elt Ideal)) (b : Fin 8) :
    AB_term L (ix1 b) = refInner (Value.res_main_v23 L) (Value.res_main_v53 L) (Value.res_main_v32 L) (Value.res_main_v62 L)
      (Value.res_main_v29 L) (Value.res_main_v59 L) b :=
  innerTerm_apply (Value.res_main_v23 L) (Value.res_main_v53 L) (Value.res_main_v32 L) (Value.res_main_v62 L)
    (Value.res_main_v29 L) (Value.res_main_v59 L) b

/-- The inner product of the target with itself at sample `b` is the double sum of the pair term over the target's own
    edge data. -/
theorem bb_apply (L : Valuation τ sig (Elt Ideal)) (b : Fin 8) :
    BB_term L (ix1 b) = refInner (Value.res_main_v53 L) (Value.res_main_v53 L) (Value.res_main_v62 L) (Value.res_main_v62 L)
      (Value.res_main_v59 L) (Value.res_main_v59 L) b :=
  innerTerm_apply (Value.res_main_v53 L) (Value.res_main_v53 L) (Value.res_main_v62 L) (Value.res_main_v62 L)
    (Value.res_main_v59 L) (Value.res_main_v59 L) b

end Cert.ReferenceIdeal.RefValue

end
-- ==== Proof.FinalEq.lean ====
/-
  The value equation from its parts.

  Both programs' results are "the sum over the eight samples of (varifold term + regulariser), from zero, divided by
  eight". The regularisers are the same host operations of the same arguments; per sample the kernel's varifold term is
  the double sum over the padded rows and the reference's is `aa - 2 * ab + bb` over the same edge data, which the
  sample's equation identifies. So the two results are equal.
-/
import proofs.«177710_j40166534152779_1_alg».proof.Proof.Assemble
import proofs.«177710_j40166534152779_1_alg».proof.Proof.RefSumsXY

set_option maxRecDepth 16384

noncomputable section

namespace Cert.Proof.Assemble

open scoped BigOperators
open Cert.KernelIdeal Cert.KernelIdeal.Gen Cert.KernelIdeal.Run
open Idealize.ShloMosaic Idealize.ShloMosaic.TcCoe Idealize.ShloMosaic.ValueIdx
open Idealize.SL.Sem Varifold.Lift Cert.Proof.Finite
open Cert.ReferenceIdeal.RefValue (refTotal refInner AA_term AB_term BB_term SR_term aa_apply ab_apply bb_apply)

variable (m : (ℓ : Loc nD τ sig) → Buf (Elt Ideal) ℓ)

set_option maxHeartbeats 1000000 in
/-- THE VALUE EQUATION from its parts: the reference's total is the kernel program's result, given the reference's six
    edge arrays `X23` … `X59` at the valuation `L`, that the staged rows are their padded concatenation, that the
    regulariser is the same, and that the edge arrays are real. -/
theorem final_eq_of (c : Dev nD) (L : Valuation Cert.ReferenceIdeal.τ Cert.ReferenceIdeal.sig (Elt Ideal))
    (X23 X32 X53 X62 : (⟨3, ![8, 1999, 3]⟩ : Shape).Idx → EReal) (X29 X59 : (⟨2, ![8, 1999]⟩ : Shape).Idx → EReal)
    (e23 : Cert.ReferenceIdeal.Value.res_main_v23 L = X23) (e32 : Cert.ReferenceIdeal.Value.res_main_v32 L = X32)
    (e53 : Cert.ReferenceIdeal.Value.res_main_v53 L = X53) (e62 : Cert.ReferenceIdeal.Value.res_main_v62 L = X62)
    (e29 : Cert.ReferenceIdeal.Value.res_main_v29 L = X29) (e59 : Cert.ReferenceIdeal.Value.res_main_v59 L = X59)
    (st_c : ∀ (b : Fin 8) (r : Fin 4096) (k : Fin 3), rowC m c b r k
      = if h : r.val < 1999 then X23 (ix3 b ⟨r.val, h⟩ k) else if h' : r.val < 3998 then X53 (ix3 b ⟨r.val - 1999, by omega⟩ k) else 0)
    (st_u : ∀ (b : Fin 8) (r : Fin 4096) (k : Fin 3), rowU m c b r k
      = if h : r.val < 1999 then X32 (ix3 b ⟨r.val, h⟩ k) else if h' : r.val < 3998 then X62 (ix3 b ⟨r.val - 1999, by omega⟩ k) else 0)
    (st_l : ∀ (b : Fin 8) (r : Fin 4096), rowL m c b r
      = if h : r.val < 1999 then X29 (ix2 b ⟨r.val, h⟩) else if h' : r.val < 3998 then - X59 (ix2 b ⟨r.val - 1999, by omega⟩) else 0)
    (hreg : V₈ m (dats m) c (Proc.devRef .tc main_v149) = SR_term L)
    (r23 : IsReal X23) (r32 : IsReal X32) (r53 : IsReal X53) (r62 : IsReal X62) (r29 : IsReal X29) (r59 : IsReal X59) :
    refTotal L = V₈ m (dats m) c (Proc.devRef .tc main_v152) ix0 := by
  rw [kernel_result_apply, hreg]
  unfold refTotal
  refine congrArg (fun x => Ideal.div (Ideal.ofBits .f32 0x00000000#32 + x) (Ideal.ofBits .f32 0x41000000#32)) (Finset.sum_congr rfl fun i _ => ?_)
  refine congrArg (· + SR_term L i) ?_
  obtain ⟨b, rfl⟩ : ∃ b : Fin 8, i = ix1 b := ⟨i 0, eq_ix1 i⟩
  show AA_term L (ix1 b) - Ideal.ofBits .f32 0x40000000#32 * AB_term L (ix1 b) + BB_term L (ix1 b) = outArr m c (ix3 b (0 : Fin 1) (0 : Fin 1))
  rw [aa_apply, ab_apply, bb_apply, e23, e32, e53, e62, e29, e59]
  unfold refInner
  exact (sample m c b X23 X32 X53 X62 X29 X59 (st_c b) (st_u b) (st_l b) r23 r32 r53 r62 r29 r59).symm

end Cert.Proof.Assemble

end
-- ==== Proof.StagedArrays.lean ====
/-
  The staged arrays read at an index.

  Before the region the host lays the two curves' edge data side by side: for each sample the first curve's 1999 edges,
  then the second curve's 1999 edges, then 98 rows of padding up to 4096, and a unit axis in front of the rows. Three
  arrays are staged this way: the edge centres, the unit tangents, and the signed lengths (the second curve's lengths
  negated). Read at row `r` of sample `b`, a staged array is therefore the first curve's datum at edge `r` when
  `r < 1999`, the second curve's datum at edge `r - 1999` when `1999 ≤ r < 3998`, and the padding value — the integer
  zero converted to a float, which is zero — on the last 98 rows.

  Each staged buffer is first written as the broadcast of the padding of the concatenation of the two curves' buffers
  (the later host stretches write neither of those, and the first stretch writes each once); the three layout operations
  are then read at an index one after the other: the broadcast drops the unit axis, the padding is the operand on the
  rows below 3998 and the padding value above, and the concatenation falls in its first piece below 1999 and in its
  second piece from there on.
-/
import proofs.«177710_j40166534152779_1_alg».proof.Proof.KernelRun
import Idealize.ShloMosaic.Lib.ValueIdx
import Idealize.ShloMosaic.Lib.Pipeline.Value
import Idealize.ShloMosaic.Lib.KernelVsHost
import Idealize.ShloMosaic.Lib.StableHlo.Run

set_option maxRecDepth 65536

noncomputable section

namespace Cert.KernelIdeal.Run

open Cert.KernelIdeal Cert.KernelIdeal.Gen
open Idealize.ShloMosaic Idealize.ShloMosaic.TcCoe Idealize.ShloMosaic.StableHlo
open Idealize.SL.Sem
open Idealize.ShloMosaic.ValueIdx

/-! ## The three layout operations, read at an index -/

section Layout

/-- The padding value: the integer zero converted to a float is zero. -/
theorem padValue_zero :
    (sitofp (F := Ideal) .f32 (constantI S_ 32 0#32) : FVec Ideal S_ .f32) (Shape.Idx.first h_S_) = (0 : Ideal .f32) := by
  show (((0#32 : BitVec 32).toInt : ℝ) : EReal) = 0
  simp

/-- Two arrays of 1999 rows of 3 laid end to end, padded to 4096 rows, a unit axis put in front: row `r` is the first
    array's row `r`, the second array's row `r - 1999`, or the padding value. -/
theorem layout3_apply (x₁ x₂ : FVec Ideal S8x1999x3 .f32) (v : FVec Ideal S_ .f32) (b : Fin 8) (r : Fin 4096) (k : Fin 3) :
    broadcastInDim S8x1x4096x3 ![0, 2, 3] bcast_S8x4096x3_S8x1x4096x3_0_2_3
        (pad S8x4096x3 ![0, 0, 0] ![0, 98, 0] ![0, 0, 0]
          (concatenate S8x3998x3 1 [⟨S8x1999x3, x₁⟩, ⟨S8x1999x3, x₂⟩] concatenates_S8x1999x3_S8x1999x3_S8x3998x3_d1)
          v pads_S8x3998x3_S8x4096x3_000_0980_000 h_S_) (ix4 b (0 : Fin 1) r k)
      = if h : r.val < 1999 then x₁ (ix3 b ⟨r.val, h⟩ k)
        else if h' : r.val < 3998 then x₂ (ix3 b ⟨r.val - 1999, by omega⟩ k)
        else v (Shape.Idx.first h_S_) := by
  refine (broadcastInDim_apply _ _ _ (ix4 b (0 : Fin 1) r k) (ix3 b r k) (fun a => ?_)).trans ?_
  · match a with
    | ⟨0, _⟩ => rfl
    | ⟨1, _⟩ => rfl
    | ⟨2, _⟩ => rfl
  by_cases h : r.val < 1999
  · rw [dif_pos h]
    have h3 : r.val < 3998 := by omega
    refine (pad_apply_of_inside _ _ _ _ _ _ _ (ix3 b r k) (ix3 b ⟨r.val, h3⟩ k) (fun a => ?_)).trans ?_
    · match a with
      | ⟨0, _⟩ => show b.val = 0 + b.val * (0 + 1); omega
      | ⟨1, _⟩ => show r.val = 0 + r.val * (0 + 1); omega
      | ⟨2, _⟩ => show k.val = 0 + k.val * (0 + 1); omega
    exact concatenate_pair_apply_left 1 x₁ x₂ _ (ix3 b ⟨r.val, h3⟩ k) rfl (ix3 b ⟨r.val, h⟩ k) (fun a => by
      match a with
      | ⟨0, _⟩ => rfl
      | ⟨1, _⟩ => rfl
      | ⟨2, _⟩ => rfl)
  · rw [dif_neg h]
    by_cases h' : r.val < 3998
    · rw [dif_pos h']
      refine (pad_apply_of_inside _ _ _ _ _ _ _ (ix3 b r k) (ix3 b ⟨r.val, h'⟩ k) (fun a => ?_)).trans ?_
      · match a with
        | ⟨0, _⟩ => show b.val = 0 + b.val * (0 + 1); omega
        | ⟨1, _⟩ => show r.val = 0 + r.val * (0 + 1); omega
        | ⟨2, _⟩ => show k.val = 0 + k.val * (0 + 1); omega
      exact concatenate_pair_apply_right 1 x₁ x₂ _ (ix3 b ⟨r.val, h'⟩ k) rfl rfl (ix3 b ⟨r.val - 1999, by omega⟩ k)
        (fun a ha => by
          match a, ha with
          | ⟨0, _⟩, _ => rfl
          | ⟨1, _⟩, ha => exact absurd rfl ha
          | ⟨2, _⟩, _ => rfl)
        (by show (r.val - 1999) + 1999 = r.val; omega)
    · rw [dif_neg h']
      exact pad_apply_of_not_inside _ _ _ _ _ _ _ (ix3 b r k) (1 : Fin 3) (fun hh => by
        have h3 : (r.val - 0) / (0 + 1) < 3998 := hh.2.2
        omega)

/-- The same for two arrays of 1999 entries per sample. -/
theorem layout2_apply (x₁ x₂ : FVec Ideal S8x1999 .f32) (v : FVec Ideal S_ .f32) (b : Fin 8) (r : Fin 4096) :
    broadcastInDim S8x1x4096 ![0, 2] bcast_S8x4096_S8x1x4096_0_2
        (pad S8x4096 ![0, 0] ![0, 98] ![0, 0]
          (concatenate S8x3998 1 [⟨S8x1999, x₁⟩, ⟨S8x1999, x₂⟩] concatenates_S8x1999_S8x1999_S8x3998_d1)
          v pads_S8x3998_S8x4096_000_0980 h_S_) (ix3 b (0 : Fin 1) r)
      = if h : r.val < 1999 then x₁ (ix2 b ⟨r.val, h⟩)
        else if h' : r.val < 3998 then x₂ (ix2 b ⟨r.val - 1999, by omega⟩)
        else v (Shape.Idx.first h_S_) := by
  refine (broadcastInDim_apply _ _ _ (ix3 b (0 : Fin 1) r) (ix2 b r) (fun a => ?_)).trans ?_
  · match a with
    | ⟨0, _⟩ => rfl
    | ⟨1, _⟩ => rfl
  by_cases h : r.val < 1999
  · rw [dif_pos h]
    have h3 : r.val < 3998 := by omega
    refine (pad_apply_of_inside _ _ _ _ _ _ _ (ix2 b r) (ix2 b ⟨r.val, h3⟩) (fun a => ?_)).trans ?_
    · match a with
      | ⟨0, _⟩ => show b.val = 0 + b.val * (0 + 1); omega
      | ⟨1, _⟩ => show r.val = 0 + r.val * (0 + 1); omega
    exact concatenate_pair_apply_left 1 x₁ x₂ _ (ix2 b ⟨r.val, h3⟩) rfl (ix2 b ⟨r.val, h⟩) (fun a => by
      match a with
      | ⟨0, _⟩ => rfl
      | ⟨1, _⟩ => rfl)
  · rw [dif_neg h]
    by_cases h' : r.val < 3998
    · rw [dif_pos h']
      refine (pad_apply_of_inside _ _ _ _ _ _ _ (ix2 b r) (ix2 b ⟨r.val, h'⟩) (fun a => ?_)).trans ?_
      · match a with
        | ⟨0, _⟩ => show b.val = 0 + b.val * (0 + 1); omega
        | ⟨1, _⟩ => show r.val = 0 + r.val * (0 + 1); omega
      exact concatenate_pair_apply_right 1 x₁ x₂ _ (ix2 b ⟨r.val, h'⟩) rfl rfl (ix2 b ⟨r.val - 1999, by omega⟩)
        (fun a ha => by
          match a, ha with
          | ⟨0, _⟩, _ => rfl
          | ⟨1, _⟩, ha => exact absurd rfl ha)
        (by show (r.val - 1999) + 1999 = r.val; omega)
    · rw [dif_neg h']
      exact pad_apply_of_not_inside _ _ _ _ _ _ _ (ix2 b r) (1 : Fin 2) (fun hh => by
        have h3 : (r.val - 0) / (0 + 1) < 3998 := hh.2.2
        omega)

end Layout

variable (m : (ℓ : Loc nD τ sig) → Buf (Elt Ideal) ℓ)

/-! ## The staged buffers as layouts of the two curves' buffers

Both sides of each equation are expanded by the same pass over the host stretches: the left side's inner buffers come
out as the very expressions the right side's valuations at their references expand to. -/

set_option maxHeartbeats 8000000 in
/-- The centres' staged buffer. -/
theorem Ve_v70_eq (c : Dev nD) :
    (Ve m c (Proc.devRef .tc main_v70) : FVec Ideal S8x1x4096x3 .f32)
      = broadcastInDim S8x1x4096x3 ![0, 2, 3] bcast_S8x4096x3_S8x1x4096x3_0_2_3
          (pad S8x4096x3 ![0, 0, 0] ![0, 98, 0] ![0, 0, 0]
            (concatenate S8x3998x3 1 [⟨S8x1999x3, (V₁ m c (Proc.devRef .tc main_v23) : FVec Ideal S8x1999x3 .f32)⟩,
              ⟨S8x1999x3, (V₁ m c (Proc.devRef .tc main_v53) : FVec Ideal S8x1999x3 .f32)⟩] concatenates_S8x1999x3_S8x1999x3_S8x3998x3_d1)
            (sitofp (F := Ideal) .f32 (constantI S_ 32 0#32)) pads_S8x3998x3_S8x4096x3_000_0980_000 h_S_) := by
  unfold Ve V₆ V₅ V₄ V₃ V₂ V₁
  simp only [hostOps0_6, hostOps0_5, hostOps0_4, hostOps0_3, hostOps0_2, hostOps0_1, hostOps0]
  after_results_simp
  rfl

set_option maxHeartbeats 8000000 in
/-- The unit tangents' staged buffer. -/
theorem Ve_v71_eq (c : Dev nD) :
    (Ve m c (Proc.devRef .tc main_v71) : FVec Ideal S8x1x4096x3 .f32)
      = broadcastInDim S8x1x4096x3 ![0, 2, 3] bcast_S8x4096x3_S8x1x4096x3_0_2_3
          (pad S8x4096x3 ![0, 0, 0] ![0, 98, 0] ![0, 0, 0]
            (concatenate S8x3998x3 1 [⟨S8x1999x3, (V₁ m c (Proc.devRef .tc main_v32) : FVec Ideal S8x1999x3 .f32)⟩,
              ⟨S8x1999x3, (V₁ m c (Proc.devRef .tc main_v62) : FVec Ideal S8x1999x3 .f32)⟩] concatenates_S8x1999x3_S8x1999x3_S8x3998x3_d1)
            (sitofp (F := Ideal) .f32 (constantI S_ 32 0#32)) pads_S8x3998x3_S8x4096x3_000_0980_000 h_S_) := by
  unfold Ve V₆ V₅ V₄ V₃ V₂ V₁
  simp only [hostOps0_6, hostOps0_5, hostOps0_4, hostOps0_3, hostOps0_2, hostOps0_1, hostOps0]
  after_results_simp
  rfl

set_option maxHeartbeats 8000000 in
/-- The signed lengths' staged buffer: the second curve's lengths enter negated. -/
theorem Ve_v72_eq (c : Dev nD) :
    (Ve m c (Proc.devRef .tc main_v72) : FVec Ideal S8x1x4096 .f32)
      = broadcastInDim S8x1x4096 ![0, 2] bcast_S8x4096_S8x1x4096_0_2
          (pad S8x4096 ![0, 0] ![0, 98] ![0, 0]
            (concatenate (α := Ideal .f32) S8x3998 1 [⟨S8x1999, (V₁ m c (Proc.devRef .tc main_v29) : FVec Ideal S8x1999 .f32)⟩,
              ⟨S8x1999, Host.negf (F := Ideal) (V₁ m c (Proc.devRef .tc main_v59) : FVec Ideal S8x1999 .f32)⟩] concatenates_S8x1999_S8x1999_S8x3998_d1)
            (sitofp (F := Ideal) .f32 (constantI S_ 32 0#32)) pads_S8x3998_S8x4096_000_0980 h_S_) := by
  unfold Ve V₆ V₅ V₄ V₃ V₂ V₁
  simp only [hostOps0_6, hostOps0_5, hostOps0_4, hostOps0_3, hostOps0_2, hostOps0_1, hostOps0]
  after_results_simp
  rfl

/-! ## The staged arrays at an index -/

/-- THE CENTRES' STAGED ARRAY at row `r` of sample `b`: the first curve's edge centres on the first 1999 rows, the second
    curve's on the next 1999, zero on the 98 padding rows. -/
theorem staged_c (c : Dev nD) (b : Fin 8) (r : Fin 4096) (k : Fin 3) :
    @Eq (Ideal .f32) (Ve m c (Proc.devRef .tc main_v70) (ix4 b (0 : Fin 1) r k))
      (if h : r.val < 1999 then V₁ m c (Proc.devRef .tc main_v23) (ix3 b ⟨r.val, h⟩ k)
        else if h' : r.val < 3998 then V₁ m c (Proc.devRef .tc main_v53) (ix3 b ⟨r.val - 1999, by omega⟩ k)
        else 0) := by
  refine (congrFun (Ve_v70_eq m c) (ix4 b (0 : Fin 1) r k)).trans ?_
  refine (layout3_apply _ _ _ b r k).trans ?_
  rw [padValue_zero]

/-- THE UNIT TANGENTS' STAGED ARRAY, the same way. -/
theorem staged_u (c : Dev nD) (b : Fin 8) (r : Fin 4096) (k : Fin 3) :
    @Eq (Ideal .f32) (Ve m c (Proc.devRef .tc main_v71) (ix4 b (0 : Fin 1) r k))
      (if h : r.val < 1999 then V₁ m c (Proc.devRef .tc main_v32) (ix3 b ⟨r.val, h⟩ k)
        else if h' : r.val < 3998 then V₁ m c (Proc.devRef .tc main_v62) (ix3 b ⟨r.val - 1999, by omega⟩ k)
        else 0) := by
  refine (congrFun (Ve_v71_eq m c) (ix4 b (0 : Fin 1) r k)).trans ?_
  refine (layout3_apply _ _ _ b r k).trans ?_
  rw [padValue_zero]

/-- THE SIGNED LENGTHS' STAGED ARRAY: the first curve's edge lengths, then the second curve's negated, then zero. -/
theorem staged_l (c : Dev nD) (b : Fin 8) (r : Fin 4096) :
    @Eq (Ideal .f32) (Ve m c (Proc.devRef .tc main_v72) (ix3 b (0 : Fin 1) r))
      (if h : r.val < 1999 then V₁ m c (Proc.devRef .tc main_v29) (ix2 b ⟨r.val, h⟩)
        else if h' : r.val < 3998 then @Neg.neg (Ideal .f32) _ (V₁ m c (Proc.devRef .tc main_v59) (ix2 b ⟨r.val - 1999, by omega⟩))
        else 0) := by
  refine (congrFun (Ve_v72_eq m c) (ix3 b (0 : Fin 1) r)).trans ?_
  refine (layout2_apply _ _ _ b r).trans ?_
  rw [padValue_zero]
  rfl

end Cert.KernelIdeal.Run

end
-- ==== Proof.EdgeIdent.lean ====
/-
  The edge data of the two programs are the same functions of the arguments.

  Both programs begin with the edge data of the two curves. From the five arguments (the displacements of the first
  curve's vertices, the second curve's vertices, its edge list, the template and the template's edge list) they form
  the first curve's vertices (template plus displacement, `main_v2`), gather the two end points of every edge at the
  edge list's indices (a negative index counted from the end), and from the end points the edge's midpoint (half the
  sum: `main_v23`, `main_v53`), its length (the square root of the difference's squared norm plus a small constant:
  `main_v29`, `main_v59`) and its unit tangent (the difference over the length: `main_v32`, `main_v62`). The kernel
  program's first host stretch performs, operation for operation, the reference's first operations; so what it leaves in
  these buffers is the very term the reference's run names `res_main_vN`, as soon as the two valuations hold the same
  arguments. The statement is made for any two valuations that agree on the arguments (`edge_vN`) and then read at the
  launch contents of two memories that agree on them (`ident_vN`).

  The regulariser is treated the same way (`Reg.ident_reg`): the kernel program's last host stretch computes it from the
  first curve's vertices, the template and the template's edge list by the reference's operations; between the first
  stretch and the last nothing writes those three buffers (the region writes its result's buffer only).
-/
import proofs.«177710_j40166534152779_1_alg».proof.Proof.KernelData
import proofs.«177710_j40166534152779_1_alg».proof.Proof.Gen.ReferenceIdeal.Run
import Idealize.ShloMosaic.PureOps.Ideal

set_option maxRecDepth 65536

noncomputable section

namespace Cert.Proof.Ident

open Idealize.ShloMosaic Idealize.ShloMosaic.TcCoe Idealize.ShloMosaic.StableHlo Idealize.SL.Sem

variable (m : (ℓ : Loc KernelIdeal.nD KernelIdeal.τ KernelIdeal.sig) → Buf (Elt Ideal) ℓ)
variable (m' : (ℓ : Loc ReferenceIdeal.nD ReferenceIdeal.τ ReferenceIdeal.sig) → Buf (Elt Ideal) ℓ)

/-- The reference's five arguments are the kernel program's, on device `c`. -/
abbrev Agree (c : Dev KernelIdeal.nD) : Prop :=
  m' ((c.tc : Thread ReferenceIdeal.nD ReferenceIdeal.τ).loc ReferenceIdeal.main_arg0) = m ((c.tc : Thread KernelIdeal.nD KernelIdeal.τ).loc KernelIdeal.main_arg0)
  ∧ m' ((c.tc : Thread ReferenceIdeal.nD ReferenceIdeal.τ).loc ReferenceIdeal.main_arg1) = m ((c.tc : Thread KernelIdeal.nD KernelIdeal.τ).loc KernelIdeal.main_arg1)
  ∧ m' ((c.tc : Thread ReferenceIdeal.nD ReferenceIdeal.τ).loc ReferenceIdeal.main_arg2) = m ((c.tc : Thread KernelIdeal.nD KernelIdeal.τ).loc KernelIdeal.main_arg2)
  ∧ m' ((c.tc : Thread ReferenceIdeal.nD ReferenceIdeal.τ).loc ReferenceIdeal.main_arg3) = m ((c.tc : Thread KernelIdeal.nD KernelIdeal.τ).loc KernelIdeal.main_arg3)
  ∧ m' ((c.tc : Thread ReferenceIdeal.nD ReferenceIdeal.τ).loc ReferenceIdeal.main_arg4) = m ((c.tc : Thread KernelIdeal.nD KernelIdeal.τ).loc KernelIdeal.main_arg4)

/-- A valuation of the kernel program's buffers and one of the reference's that hold the same five arguments. -/
structure ArgsAgree (W : Valuation KernelIdeal.τ KernelIdeal.sig (Elt Ideal))
    (L : Valuation ReferenceIdeal.τ ReferenceIdeal.sig (Elt Ideal)) : Prop where
  a0 : W (Proc.devRef .tc KernelIdeal.main_arg0) = L (Proc.devRef .tc ReferenceIdeal.main_arg0)
  a1 : W (Proc.devRef .tc KernelIdeal.main_arg1) = L (Proc.devRef .tc ReferenceIdeal.main_arg1)
  a2 : W (Proc.devRef .tc KernelIdeal.main_arg2) = L (Proc.devRef .tc ReferenceIdeal.main_arg2)
  a3 : W (Proc.devRef .tc KernelIdeal.main_arg3) = L (Proc.devRef .tc ReferenceIdeal.main_arg3)
  a4 : W (Proc.devRef .tc KernelIdeal.main_arg4) = L (Proc.devRef .tc ReferenceIdeal.main_arg4)

/-- The launch contents of memories that agree on the arguments agree on them. -/
theorem argsAgree_launch (c : Dev KernelIdeal.nD) (hagree : Agree m m' c) :
    ArgsAgree (KernelIdeal.Run.V₀ m c) (launchContents m' c) :=
  ⟨hagree.1.symm, hagree.2.1.symm, hagree.2.2.1.symm, hagree.2.2.2.1.symm, hagree.2.2.2.2.symm⟩

section Edge

variable (W : Valuation KernelIdeal.τ KernelIdeal.sig (Elt Ideal)) (L : Valuation ReferenceIdeal.τ ReferenceIdeal.sig (Elt Ideal))

set_option maxHeartbeats 8000000 in
/-- The kernel program's first host stretch leaves at `main_v2` the reference's term of the same name: the two
    programs compute it by the same operations of the arguments. -/
theorem edge_v2 (h : ArgsAgree W L) :
    after KernelIdeal.Gen.hostOps0 W (Proc.devRef .tc KernelIdeal.main_v2) = ReferenceIdeal.Value.res_main_v2 L := by
  obtain ⟨h0, h1, h2, h3, h4⟩ := h
  simp only [KernelIdeal.Gen.hostOps0]
  after_results_simp
  simp only [h0, h3]
  rfl

set_option maxHeartbeats 8000000 in
/-- The kernel program's first host stretch leaves at `main_v23` the reference's term of the same name: the two
    programs compute it by the same operations of the arguments. -/
theorem edge_v23 (h : ArgsAgree W L) :
    after KernelIdeal.Gen.hostOps0 W (Proc.devRef .tc KernelIdeal.main_v23) = ReferenceIdeal.Value.res_main_v23 L := by
  obtain ⟨h0, h1, h2, h3, h4⟩ := h
  simp only [KernelIdeal.Gen.hostOps0]
  after_results_simp
  simp only [h0, h3, h4]
  rfl

set_option maxHeartbeats 8000000 in
/-- The kernel program's first host stretch leaves at `main_v29` the reference's term of the same name: the two
    programs compute it by the same operations of the arguments. -/
theorem edge_v29 (h : ArgsAgree W L) :
    after KernelIdeal.Gen.hostOps0 W (Proc.devRef .tc KernelIdeal.main_v29) = ReferenceIdeal.Value.res_main_v29 L := by
  obtain ⟨h0, h1, h2, h3, h4⟩ := h
  simp only [KernelIdeal.Gen.hostOps0]
  after_results_simp
  simp only [h0, h3, h4]
  rfl

set_option maxHeartbeats 8000000 in
/-- The kernel program's first host stretch leaves at `main_v32` the reference's term of the same name: the two
    programs compute it by the same operations of the arguments. -/
theorem edge_v32 (h : ArgsAgree W L) :
    after KernelIdeal.Gen.hostOps0 W (Proc.devRef .tc KernelIdeal.main_v32) = ReferenceIdeal.Value.res_main_v32 L := by
  obtain ⟨h0, h1, h2, h3, h4⟩ := h
  simp only [KernelIdeal.Gen.hostOps0]
  after_results_simp
  simp only [h0, h3, h4]
  rfl

set_option maxHeartbeats 8000000 in
/-- The kernel program's first host stretch leaves at `main_v53` the reference's term of the same name: the two
    programs compute it by the same operations of the arguments. -/
theorem edge_v53 (h : ArgsAgree W L) :
    after KernelIdeal.Gen.hostOps0 W (Proc.devRef .tc KernelIdeal.main_v53) = ReferenceIdeal.Value.res_main_v53 L := by
  obtain ⟨h0, h1, h2, h3, h4⟩ := h
  simp only [KernelIdeal.Gen.hostOps0]
  after_results_simp
  simp only [h1, h2]
  rfl

set_option maxHeartbeats 8000000 in
/-- The kernel program's first host stretch leaves at `main_v59` the reference's term of the same name: the two
    programs compute it by the same operations of the arguments. -/
theorem edge_v59 (h : ArgsAgree W L) :
    after KernelIdeal.Gen.hostOps0 W (Proc.devRef .tc KernelIdeal.main_v59) = ReferenceIdeal.Value.res_main_v59 L := by
  obtain ⟨h0, h1, h2, h3, h4⟩ := h
  simp only [KernelIdeal.Gen.hostOps0]
  after_results_simp
  simp only [h1, h2]
  rfl

set_option maxHeartbeats 8000000 in
/-- The kernel program's first host stretch leaves at `main_v62` the reference's term of the same name: the two
    programs compute it by the same operations of the arguments. -/
theorem edge_v62 (h : ArgsAgree W L) :
    after KernelIdeal.Gen.hostOps0 W (Proc.devRef .tc KernelIdeal.main_v62) = ReferenceIdeal.Value.res_main_v62 L := by
  obtain ⟨h0, h1, h2, h3, h4⟩ := h
  simp only [KernelIdeal.Gen.hostOps0]
  after_results_simp
  simp only [h1, h2]
  rfl

end Edge

theorem ident_v2 (c : Dev KernelIdeal.nD) (hagree : Agree m m' c) :
    KernelIdeal.Run.V₁ m c (Proc.devRef .tc KernelIdeal.main_v2) = ReferenceIdeal.Value.res_main_v2 (launchContents m' c) :=
  edge_v2 _ _ (argsAgree_launch m m' c hagree)

theorem ident_v23 (c : Dev KernelIdeal.nD) (hagree : Agree m m' c) :
    KernelIdeal.Run.V₁ m c (Proc.devRef .tc KernelIdeal.main_v23) = ReferenceIdeal.Value.res_main_v23 (launchContents m' c) :=
  edge_v23 _ _ (argsAgree_launch m m' c hagree)

theorem ident_v29 (c : Dev KernelIdeal.nD) (hagree : Agree m m' c) :
    KernelIdeal.Run.V₁ m c (Proc.devRef .tc KernelIdeal.main_v29) = ReferenceIdeal.Value.res_main_v29 (launchContents m' c) :=
  edge_v29 _ _ (argsAgree_launch m m' c hagree)

theorem ident_v32 (c : Dev KernelIdeal.nD) (hagree : Agree m m' c) :
    KernelIdeal.Run.V₁ m c (Proc.devRef .tc KernelIdeal.main_v32) = ReferenceIdeal.Value.res_main_v32 (launchContents m' c) :=
  edge_v32 _ _ (argsAgree_launch m m' c hagree)

theorem ident_v53 (c : Dev KernelIdeal.nD) (hagree : Agree m m' c) :
    KernelIdeal.Run.V₁ m c (Proc.devRef .tc KernelIdeal.main_v53) = ReferenceIdeal.Value.res_main_v53 (launchContents m' c) :=
  edge_v53 _ _ (argsAgree_launch m m' c hagree)

theorem ident_v59 (c : Dev KernelIdeal.nD) (hagree : Agree m m' c) :
    KernelIdeal.Run.V₁ m c (Proc.devRef .tc KernelIdeal.main_v59) = ReferenceIdeal.Value.res_main_v59 (launchContents m' c) :=
  edge_v59 _ _ (argsAgree_launch m m' c hagree)

theorem ident_v62 (c : Dev KernelIdeal.nD) (hagree : Agree m m' c) :
    KernelIdeal.Run.V₁ m c (Proc.devRef .tc KernelIdeal.main_v62) = ReferenceIdeal.Value.res_main_v62 (launchContents m' c) :=
  edge_v62 _ _ (argsAgree_launch m m' c hagree)

namespace Reg

section
variable (W : Valuation KernelIdeal.τ KernelIdeal.sig (Elt Ideal)) (L : Valuation ReferenceIdeal.τ ReferenceIdeal.sig (Elt Ideal))

set_option maxHeartbeats 8000000 in
/-- The regulariser: the kernel program's last host stretch computes it from the displaced template (`main_v2`), the
    template and the edge list by the reference's operations. -/
theorem reg_of (h2 : W (Proc.devRef .tc KernelIdeal.main_v2) = ReferenceIdeal.Value.res_main_v2 L)
    (h3 : W (Proc.devRef .tc KernelIdeal.main_arg3) = L (Proc.devRef .tc ReferenceIdeal.main_arg3))
    (h4 : W (Proc.devRef .tc KernelIdeal.main_arg4) = L (Proc.devRef .tc ReferenceIdeal.main_arg4)) :
    after KernelIdeal.Gen.hostOps1 W (Proc.devRef .tc KernelIdeal.main_v149)
      = (mulf (broadcastInDim ReferenceIdeal.S8 ![] ReferenceIdeal.Gen.bcast_S_S8 (constant ReferenceIdeal.S_ .f32 0x33D6BF95#32))
          (Host.reduceAdd (mulf (ReferenceIdeal.Value.res_main_v203 L) (ReferenceIdeal.Value.res_main_v203 L))
            (constant ReferenceIdeal.S_ .f32 0x00000000#32) ReferenceIdeal.Gen.reducesTo_S8x1999x3_S8_d1_2 ReferenceIdeal.Gen.h_S_)
          : FVec Ideal ReferenceIdeal.S8 .f32) := by
  simp only [KernelIdeal.Gen.hostOps1]
  after_results_simp
  simp only [h2, h3, h4]
  rfl

end
/-- The stretches between the first and the region write none of the displaced template's buffer. -/
theorem Ve_v2 (c : Dev KernelIdeal.nD) :
    KernelIdeal.Run.Ve m c (Proc.devRef .tc KernelIdeal.main_v2) = KernelIdeal.Run.V₁ m c (Proc.devRef .tc KernelIdeal.main_v2) := by
  unfold KernelIdeal.Run.Ve KernelIdeal.Run.V₆ KernelIdeal.Run.V₅ KernelIdeal.Run.V₄ KernelIdeal.Run.V₃ KernelIdeal.Run.V₂
  simp only [KernelIdeal.Gen.hostOps0_6, KernelIdeal.Gen.hostOps0_5, KernelIdeal.Gen.hostOps0_4, KernelIdeal.Gen.hostOps0_3, KernelIdeal.Gen.hostOps0_2, KernelIdeal.Gen.hostOps0_1]
  after_results_simp

set_option maxHeartbeats 4000000 in
/-- No host stretch before the region writes the template. -/
theorem Ve_arg3 (c : Dev KernelIdeal.nD) :
    KernelIdeal.Run.Ve m c (Proc.devRef .tc KernelIdeal.main_arg3) = KernelIdeal.Run.V₀ m c (Proc.devRef .tc KernelIdeal.main_arg3) := by
  unfold KernelIdeal.Run.Ve KernelIdeal.Run.V₆ KernelIdeal.Run.V₅ KernelIdeal.Run.V₄ KernelIdeal.Run.V₃ KernelIdeal.Run.V₂ KernelIdeal.Run.V₁
  simp only [KernelIdeal.Gen.hostOps0_6, KernelIdeal.Gen.hostOps0_5, KernelIdeal.Gen.hostOps0_4, KernelIdeal.Gen.hostOps0_3, KernelIdeal.Gen.hostOps0_2, KernelIdeal.Gen.hostOps0_1, KernelIdeal.Gen.hostOps0]
  after_results_simp

set_option maxHeartbeats 4000000 in
/-- No host stretch before the region writes the edge list. -/
theorem Ve_arg4 (c : Dev KernelIdeal.nD) :
    KernelIdeal.Run.Ve m c (Proc.devRef .tc KernelIdeal.main_arg4) = KernelIdeal.Run.V₀ m c (Proc.devRef .tc KernelIdeal.main_arg4) := by
  unfold KernelIdeal.Run.Ve KernelIdeal.Run.V₆ KernelIdeal.Run.V₅ KernelIdeal.Run.V₄ KernelIdeal.Run.V₃ KernelIdeal.Run.V₂ KernelIdeal.Run.V₁
  simp only [KernelIdeal.Gen.hostOps0_6, KernelIdeal.Gen.hostOps0_5, KernelIdeal.Gen.hostOps0_4, KernelIdeal.Gen.hostOps0_3, KernelIdeal.Gen.hostOps0_2, KernelIdeal.Gen.hostOps0_1, KernelIdeal.Gen.hostOps0]
  after_results_simp

/-- The kernel program's regulariser is the reference's. -/
theorem ident_reg (c : Dev KernelIdeal.nD) (hagree : Agree m m' c) :
    KernelIdeal.Run.V₈ m (KernelIdeal.Run.dats m) c (Proc.devRef .tc KernelIdeal.main_v149)
      = (mulf (broadcastInDim ReferenceIdeal.S8 ![] ReferenceIdeal.Gen.bcast_S_S8 (constant ReferenceIdeal.S_ .f32 0x33D6BF95#32))
          (Host.reduceAdd (mulf (ReferenceIdeal.Value.res_main_v203 (launchContents m' c)) (ReferenceIdeal.Value.res_main_v203 (launchContents m' c)))
            (constant ReferenceIdeal.S_ .f32 0x00000000#32) ReferenceIdeal.Gen.reducesTo_S8x1999x3_S8_d1_2 ReferenceIdeal.Gen.h_S_)
          : FVec Ideal ReferenceIdeal.S8 .f32) := by
  have ha := argsAgree_launch m m' c hagree
  unfold KernelIdeal.Run.V₈
  exact reg_of _ _
    ((KernelIdeal.Run.Vx_ne m (KernelIdeal.Run.dats m) c KernelIdeal.main_v2 (by decide)).trans ((Ve_v2 m c).trans (ident_v2 m m' c hagree)))
    ((KernelIdeal.Run.Vx_ne m (KernelIdeal.Run.dats m) c KernelIdeal.main_arg3 (by decide)).trans ((Ve_arg3 m c).trans ha.a3))
    ((KernelIdeal.Run.Vx_ne m (KernelIdeal.Run.dats m) c KernelIdeal.main_arg4 (by decide)).trans ((Ve_arg4 m c).trans ha.a4))

end Reg

end Cert.Proof.Ident

end
-- ==== Proof.ValueEq.lean ====
/-
  The value equation.

  Under the precondition the arguments are real numbers, hence so are both programs' edge data (centres, unit tangents,
  lengths of the two curves' edges); the two programs compute the edge data and the regulariser by the same host
  operations of arguments that agree; the kernel's staged arrays are the padded concatenations of the edge data. So the
  value equation's parts are all in hand, and the reference's total is the kernel program's result.
-/
import proofs.«177710_j40166534152779_1_alg».proof.Proof.FinalEq
import proofs.«177710_j40166534152779_1_alg».proof.Proof.StagedArrays
import proofs.«177710_j40166534152779_1_alg».proof.Proof.EdgeIdent

set_option maxRecDepth 16384

noncomputable section

namespace Cert.Proof

open Cert.KernelIdeal Cert.KernelIdeal.Gen Cert.KernelIdeal.Run
open Idealize.ShloMosaic Idealize.ShloMosaic.TcCoe Idealize.ShloMosaic.ValueIdx Idealize.ShloMosaic.StableHlo
open Idealize.SL.Sem

set_option maxHeartbeats 2000000 in
/-- THE VALUE EQUATION: under the precondition, from memories agreeing on the arguments, the reference's total is the
    kernel program's result. -/
theorem value_eq (m : (ℓ : Loc nD τ sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m) (c : Dev nD) (hagree : Ident.Agree m m' c) :
    Cert.ReferenceIdeal.RefValue.refTotal (launchContents m' c) = V₈ m (dats m) c (Proc.devRef .tc main_v152) ix0 := by
  obtain ⟨h0, h1, h3⟩ := Finite.pre_real m hpre c
  obtain ⟨a0, a1, a2, a3, a4⟩ := hagree
  have hL0 : Finite.IsReal (launchContents m' c (Proc.devRef .tc Cert.ReferenceIdeal.main_arg0)) := by
    rw [show launchContents m' c (Proc.devRef .tc Cert.ReferenceIdeal.main_arg0) = _ from a0]; exact h0
  have hL1 : Finite.IsReal (launchContents m' c (Proc.devRef .tc Cert.ReferenceIdeal.main_arg1)) := by
    rw [show launchContents m' c (Proc.devRef .tc Cert.ReferenceIdeal.main_arg1) = _ from a1]; exact h1
  have hL3 : Finite.IsReal (launchContents m' c (Proc.devRef .tc Cert.ReferenceIdeal.main_arg3)) := by
    rw [show launchContents m' c (Proc.devRef .tc Cert.ReferenceIdeal.main_arg3) = _ from a3]; exact h3
  have hag : Ident.Agree m m' c := ⟨a0, a1, a2, a3, a4⟩
  refine Assemble.final_eq_of m c (launchContents m' c) _ _ _ _ _ _ rfl rfl rfl rfl rfl rfl ?_ ?_ ?_
    (Ident.Reg.ident_reg m m' c hag)
    (Finite.real_v23 _ hL0 hL3) (Finite.real_v32 _ hL0 hL3) (Finite.real_v53 _ hL1) (Finite.real_v62 _ hL1)
    (Finite.real_v29 _ hL0 hL3) (Finite.real_v59 _ hL1)
  · intro b r k
    rw [← Ident.ident_v23 m m' c hag, ← Ident.ident_v53 m m' c hag]
    exact staged_c m c b r k
  · intro b r k
    rw [← Ident.ident_v32 m m' c hag, ← Ident.ident_v62 m m' c hag]
    exact staged_u m c b r k
  · intro b r
    rw [← Ident.ident_v29 m m' c hag, ← Ident.ident_v59 m m' c hag]
    exact staged_l m c b r

end Cert.Proof

end
-- ==== Proof.lean ====
/-
  The certificate of the varifold-loss kernel against its jnp reference.

  The mathematics. For each of the 8 samples both programs form, from the deformed template `X = output + template`
  and the target curve, the edge data of the two polygonal curves: per edge the centre `c`, the length
  `l = sqrt (|t|² + 1e-12)` and the unit tangent `u = t / l` of the edge vector `t` (the edges' end points are
  gathered by the integer edge lists, negative indices wrapped and all indices clamped, identically in both
  programs, so a gathered entry is always an entry of the finite vertex array). The varifold term is
  `⟨a,a⟩ - 2⟨a,b⟩ + ⟨b,b⟩` with `⟨a,b⟩ = Σ_{p,q} exp (-|c_p - c_q|² / 0.25) · (u_p · u_q)² · l_p · l_q`. The reference
  evaluates the three double sums; the kernel evaluates ONE double sum over the concatenation of the X edges, the
  Y edges and 98 zero entries (3998 + 98 = 4096 = 4 · 1024), with the weight `+l` on X, `-l` on Y and `0` on the
  padding, cut into 4 × 4 tiles of 1024 × 1024 pairs whose sums an accumulator adds up point by point for each
  sample; the symmetry of the pair kernel makes the two cross terms equal (Proof/VarifoldAlgebra.lean). Every
  quantity is a real number when the three float inputs are finite — the lengths are positive, the exponential of
  a real is a real —, which is what the distributive steps of that identity need on the extended reals. Both
  programs then add the same SRNF regulariser `1e-7 · Σ (q_X - q_T)²` and take the mean over the 8 samples.

  What is proved here: the three frames — the reference's off its generated run (Proof/RefFrame.lean); the kernel's, at
  the machine's words and at the extended reals, off the run of the kernel program (Proof/KernelRun.lean: @main as nine
  segments; Proof/KernelShares.lean and Proof/KernelProtocol.lean: the three staged arrays divided between their two
  readers at the region's entry and put together again at its exit; Proof/KernelBody.lean: the body at one grid point in
  each of its three cases; Proof/KernelData.lean: the accumulator point by point, the body obligation and the run;
  Proof/KernelFrame.lean: no host operation writes an argument; the Bits… modules are the same text over the word-level
  program) —; the idealization statement (the ideal pass rewrote nothing); and, towards the value claim, the identity that
  joins the two arrangements of the double sum (Proof/VarifoldAlgebra.lean) and what one grid point adds to the
  accumulator, entry by entry (Proof/TileTerm.lean over Proof/LibKeepdims.lean), the accumulator after each tile as a
  sum of tile totals (Proof/KernelValue.lean), the region's result array after the run (Proof/KernelOut.lean), the blocks
  as rows of the staged arrays (Proof/KernelBlocks.lean) and, from those, the region's result at a sample as the double sum
  of the pair term over all pairs of the sample's 4096 padded rows (Proof/KernelSum.lean), the program's result as the mean of
  the region's result plus the regulariser (Proof/KernelTail.lean), and, over the reals, the padded signed double sum as
  `aa - 2 * ab + bb` (Proof/VarifoldBridge.lean). The reference's result as sums (Proof/RefSums.lean, Proof/RefSumsXY.lean), the staged arrays as padded
  concatenations (Proof/StagedArrays.lean), the two programs' edge data and regulariser identified (Proof/EdgeIdent.lean,
  Proof/EdgeIdentReg.lean), the edge data real under the precondition (Proof/EdgeFinite.lean), the lift to the reals
  (Proof/ValueLift.lean) and the assembly (Proof/Assemble.lean, Proof/FinalEq.lean, Proof/ValueEq.lean) close the value claim.
-/
import proofs.«177710_j40166534152779_1_alg».proof.Defs
import proofs.«177710_j40166534152779_1_alg».proof.Proof.Gen.Kernel
import proofs.«177710_j40166534152779_1_alg».proof.Proof.Gen.Kernel.Skeleton
import proofs.«177710_j40166534152779_1_alg».proof.Proof.Gen.Kernel.Launch
import proofs.«177710_j40166534152779_1_alg».proof.Proof.Gen.Kernel.Points
import proofs.«177710_j40166534152779_1_alg».proof.Proof.Gen.KernelIdeal
import proofs.«177710_j40166534152779_1_alg».proof.Proof.Gen.KernelIdeal.Skeleton
import proofs.«177710_j40166534152779_1_alg».proof.Proof.Gen.KernelIdeal.Launch
import proofs.«177710_j40166534152779_1_alg».proof.Proof.Gen.KernelIdeal.Points
import proofs.«177710_j40166534152779_1_alg».proof.Proof.Gen.ReferenceIdeal
import proofs.«177710_j40166534152779_1_alg».proof.Proof.Gen.Pre_finite_inputs
import proofs.«177710_j40166534152779_1_alg».proof.Proof.RefFrame
import proofs.«177710_j40166534152779_1_alg».proof.Proof.VarifoldAlgebra
import proofs.«177710_j40166534152779_1_alg».proof.Proof.LibKeepdims
import proofs.«177710_j40166534152779_1_alg».proof.Proof.TileTerm
import proofs.«177710_j40166534152779_1_alg».proof.Proof.KernelFrame
import proofs.«177710_j40166534152779_1_alg».proof.Proof.BitsFrame
import proofs.«177710_j40166534152779_1_alg».proof.Proof.KernelSum
import proofs.«177710_j40166534152779_1_alg».proof.Proof.KernelTail
import proofs.«177710_j40166534152779_1_alg».proof.Proof.VarifoldBridge
import proofs.«177710_j40166534152779_1_alg».proof.Proof.ValueEq
import proofs.«177710_j40166534152779_1_alg».proof.Proof.Gen.ReferenceIdeal.Run
import Idealize.ShloMosaic.Adequacy
import Idealize.ShloMosaic.Init

noncomputable section

namespace Cert.Proof

open Idealize.ShloMosaic Idealize.ShloMosaic.TcCoe Idealize.SL.Sem
open Cert.KernelIdeal Cert.KernelIdeal.Run

/-- The ideal pass rewrote no operation: the idealization is the program's own text read at the extended reals. -/
theorem preserves : Cert.preserves_Kernel_KernelIdeal := trivial

/-- The kernel program's result is an unscoped buffer of the TensorCore. -/
theorem res_mem_ucR : Proc.devRef (τ := τ) .tc main_v152 ∈ (ucR : Finset (DevRef τ sig)) :=
  Finset.mem_filter.mpr ⟨StableHlo.devRef_mem_tcRefs _, by decide⟩

set_option maxHeartbeats 2000000 in
/-- At the extended reals, from memories agreeing on the arguments, both programs end with the same scalar: the kernel
    program's run ends with its result at the last valuation and its arguments kept, the reference's with its result at the
    total of its sums, and the value equation (Proof/ValueEq.lean) says the two are the same number. -/
theorem algebraic : Cert.algebraic_KernelIdeal_ReferenceIdeal := by
  intro m ρ m' ρ' hpre hagree
  refine ⟨fun c => V₈ m (dats m) c (Proc.devRef .tc main_v152), ?_, ?_⟩
  · exact (θ_run Cert.KernelIdeal.defs _ _).mono (fun r h c =>
      ⟨h c _ res_mem_ucR,
       (h c _ (mem_ucR main_arg0 (Or.inl rfl))).trans (keep_all m (dats m) c main_arg0 (Or.inl rfl)),
       (h c _ (mem_ucR main_arg1 (Or.inr (Or.inl rfl)))).trans (keep_all m (dats m) c main_arg1 (Or.inr (Or.inl rfl))),
       (h c _ (mem_ucR main_arg2 (Or.inr (Or.inr (Or.inl rfl))))).trans (keep_all m (dats m) c main_arg2 (Or.inr (Or.inr (Or.inl rfl)))),
       (h c _ (mem_ucR main_arg3 (Or.inr (Or.inr (Or.inr (Or.inl rfl)))))).trans (keep_all m (dats m) c main_arg3 (Or.inr (Or.inr (Or.inr (Or.inl rfl))))),
       (h c _ (mem_ucR main_arg4 (Or.inr (Or.inr (Or.inr (Or.inr rfl)))))).trans (keep_all m (dats m) c main_arg4 (Or.inr (Or.inr (Or.inr (Or.inr rfl)))))⟩)
      (kernel_run (F := Ideal) m ρ)
  · refine (θ_run Cert.ReferenceIdeal.defs _ _).mono (fun r h c => ⟨(h c).1.trans ?_, (h c).2⟩)
      (Cert.ReferenceIdeal.RefValue.run_sums m' ρ')
    funext j
    obtain rfl : j = Idealize.ShloMosaic.ValueIdx.ix0 := Idealize.ShloMosaic.ValueIdx.eq_ix0 j
    exact value_eq m m' hpre c (hagree c)

theorem claim : Cert.Claim :=
  ⟨Cert.Kernel.Gen.facts, Cert.KernelIdeal.Gen.facts, Cert.ReferenceIdeal.Gen.facts, Cert.Pre_finite_inputs.Gen.facts,
    frame_kernel, frame_kernelIdeal, Cert.Proof.RefFrame.frame_ri, preserves, algebraic⟩

end Cert.Proof

end
